-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16x16 : Shape := ⟨2, ![16, 16]⟩
abbrev S2x65536 : Shape := ⟨2, ![2, 65536]⟩
abbrev S4096 : Shape := ⟨1, ![4096]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S512x80 : Shape := ⟨2, ![512, 80]⟩
abbrev S512 : Shape := ⟨1, ![512]⟩
abbrev S16384x512 : Shape := ⟨2, ![16384, 512]⟩
abbrev S16384 : Shape := ⟨1, ![16384]⟩
abbrev S512x256 : Shape := ⟨2, ![512, 256]⟩
abbrev S512x512 : Shape := ⟨2, ![512, 512]⟩
abbrev S1x512 : Shape := ⟨2, ![1, 512]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S512x80 : S_.BroadcastsInDim S512x80 (![] : Fin 0 → Fin S512x80.rank)
  reducesTo_S512x80_S_d0_1 : S512x80.ReducesTo [0, 1] S_
  bcast_S_S512 : S_.BroadcastsInDim S512 (![] : Fin 0 → Fin S512.rank)
  reducesTo_S512_S_d0 : S512.ReducesTo [0] S_
  bcast_S_S16384x512 : S_.BroadcastsInDim S16384x512 (![] : Fin 0 → Fin S16384x512.rank)
  reducesTo_S16384x512_S_d0_1 : S16384x512.ReducesTo [0, 1] S_
  bcast_S_S16384 : S_.BroadcastsInDim S16384 (![] : Fin 0 → Fin S16384.rank)
  reducesTo_S16384_S_d0 : S16384.ReducesTo [0] S_
  bcast_S_S512x256 : S_.BroadcastsInDim S512x256 (![] : Fin 0 → Fin S512x256.rank)
  reducesTo_S512x256_S_d0_1 : S512x256.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S1x512 .f32) (main_arg28 : FVec F S1 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S1x512 .f32 := Host.absf main_arg27
  let main_cst_48 : FVec F S_ .f32 := constant S_ .f32 0x7F800000#32
  let main_v125 : FVec F S1x512 .f32 := broadcastInDim S1x512 ![] bcast_S_S1x512 main_cst_48
  let main_v126 : IVec S1x512 1 := cmpf .olt main_v124 main_v125
  let main_c_49 : IVec S_ 1 := constantI S_ 1 1#1
  let main_v127 : IVec S_ 1 := (fun x v => Host.reduce IntOp.andi x v reducesTo_S1x512_S_d0_1 h_S_) main_v126 main_c_49
  let main_v128 : IVec S_ 1 := andi main_v123 main_v127
  let main_v129 : FVec F S1 .f32 := Host.absf main_arg28
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg23 : FVec F S512x256 .f32) (main_arg24 : FVec F S512 .f32) (main_arg25 : FVec F S512x512 .f32) (main_arg26 : FVec F S512 .f32) (main_arg27 : FVec F S1x512 .f32) (main_arg28 : FVec F S1 .f32) (main_v98 : IVec S_ 1) (main_v101 : IVec S16384 1) (main_c_39 : IVec S_ 1) : IVec S_ 1 :=
  let main_v102 : IVec S_ 1 := (fun x v => Host.reduce IntOp.andi x v reducesTo_S16384_S_d0 h_S_) main_v101 main_c_39
  let main_v103 : IVec S_ 1 := andi main_v98 main_v102
  let main_v104 : FVec F S512x256 .f32 := Host.absf main_arg23
  let main_cst_40 : FVec F S_ .f32 := constant S_ .f32 0x7F800000#32
  let main_v105 : FVec F S512x256 .f32 := broadcastInDim S512x256 ![] bcast_S_S512x256 main_cst_40
  let main_v106 : IVec S512x256 1 := cmpf .olt main_v104 main_v105
  let main_c_41 : IVec S_ 1 := constantI S_ 1 1#1
  let main_v107 : IVec S_ 1 := (fun x v => Host.reduce IntOp.andi x v reducesTo_S512x256_S_d0_1 h_S_) main_v106 main_c_41
  let main_v108 : IVec S_ 1 := andi main_v103 main_v107
  let main_v109 : FVec F S512 .f32 := Host.absf main_arg24
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512x512 .f32 := Host.absf main_arg25
  let main_cst_44 : FVec F S_ .f32 := constant S_ .f32 0x7F800000#32
  let main_v115 : FVec F S512x512 .f32 := broadcastInDim S512x512 ![] bcast_S_S512x512 main_cst_44
  let main_v116 : IVec S512x512 1 := cmpf .olt main_v114 main_v115
  let main_c_45 : IVec S_ 1 := constantI S_ 1 1#1
  let main_v117 : IVec S_ 1 := (fun x v => Host.reduce IntOp.andi x v reducesTo_S512x512_S_d0_1 h_S_) main_v116 main_c_45
  let main_v118 : IVec S_ 1 := andi main_v113 main_v117
  let main_v119 : FVec F S512 .f32 := Host.absf main_arg26
  fn_part7 (F := F) main_arg27 main_arg28 main_v118 main_v119

def fn_part5 {F : FTy → Type} [FloatOps F] (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v83 : IVec S_ 1) (main_v84 : FVec F S512x80 .f32) (main_cst_32 : FVec F S_ .f32) : IVec S_ 1 :=
  let main_v85 : FVec F S512x80 .f32 := broadcastInDim S512x80 ![] bcast_S_S512x80 main_cst_32
  let main_v86 : IVec S512x80 1 := cmpf .olt main_v84 main_v85
  let main_c_33 : IVec S_ 1 := constantI S_ 1 1#1
  let main_v87 : IVec S_ 1 := (fun x v => Host.reduce IntOp.andi x v reducesTo_S512x80_S_d0_1 h_S_) main_v86 main_c_33
  let main_v88 : IVec S_ 1 := andi main_v83 main_v87
  let main_v89 : FVec F S512 .f32 := Host.absf main_arg20
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S16384x512 .f32 := Host.absf main_arg21
  let main_cst_36 : FVec F S_ .f32 := constant S_ .f32 0x7F800000#32
  let main_v95 : FVec F S16384x512 .f32 := broadcastInDim S16384x512 ![] bcast_S_S16384x512 main_cst_36
  let main_v96 : IVec S16384x512 1 := cmpf .olt main_v94 main_v95
  let main_c_37 : IVec S_ 1 := constantI S_ 1 1#1
  let main_v97 : IVec S_ 1 := (fun x v => Host.reduce IntOp.andi x v reducesTo_S16384x512_S_d0_1 h_S_) main_v96 main_c_37
  let main_v98 : IVec S_ 1 := andi main_v93 main_v97
  let main_v99 : FVec F S16384 .f32 := Host.absf main_arg22
  let main_cst_38 : FVec F S_ .f32 := constant S_ .f32 0x7F800000#32
  let main_v100 : FVec F S16384 .f32 := broadcastInDim S16384 ![] bcast_S_S16384 main_cst_38
  let main_v101 : IVec S16384 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S64x256 .f32 := Host.absf main_arg17
  let main_cst_28 : FVec F S_ .f32 := constant S_ .f32 0x7F800000#32
  let main_v75 : FVec F S64x256 .f32 := broadcastInDim S64x256 ![] bcast_S_S64x256 main_cst_28
  let main_v76 : IVec S64x256 1 := cmpf .olt main_v74 main_v75
  let main_c_29 : IVec S_ 1 := constantI S_ 1 1#1
  let main_v77 : IVec S_ 1 := (fun x v => Host.reduce IntOp.andi x v reducesTo_S64x256_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S512x80 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S256x256 .f32) (main_arg10 : FVec F S256x256 .f32) (main_arg11 : FVec F S256 .f32) (main_arg12 : FVec F S256x256 .f32) (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S256x128 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S4096x128 .f32) (main_arg1 : FVec F S16x16 .f32) (main_arg2 : IVec S2x65536 32) (main_arg3 : IVec S4096 32) (main_arg4 : FVec F S256x128 .f32) (main_arg5 : FVec F S256 .f32) (main_arg6 : FVec F S256x128 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S4096x128 : Shape := ⟨2, ![4096, 128]⟩
abbrev S16x16 : Shape := ⟨2, ![16, 16]⟩
abbrev S2x65536 : Shape := ⟨2, ![2, 65536]⟩
abbrev S4096 : Shape := ⟨1, ![4096]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S512x80 : Shape := ⟨2, ![512, 80]⟩
abbrev S512 : Shape := ⟨1, ![512]⟩
abbrev S16384x512 : Shape := ⟨2, ![16384, 512]⟩
abbrev S16384 : Shape := ⟨1, ![16384]⟩
abbrev S512x256 : Shape := ⟨2, ![512, 256]⟩
abbrev S512x512 : Shape := ⟨2, ![512, 512]⟩
abbrev S1x512 : Shape := ⟨2, ![1, 512]⟩
abbrev S1 : Shape := ⟨1, ![1]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x128 : Shape := ⟨2, ![65536, 128]⟩
abbrev S4096x1 : Shape := ⟨2, ![4096, 1]⟩
abbrev S128x256 : Shape := ⟨2, ![128, 256]⟩
abbrev S4096x256 : Shape := ⟨2, ![4096, 256]⟩
abbrev S1x256 : Shape := ⟨2, ![1, 256]⟩
abbrev S65536x256 : Shape := ⟨2, ![65536, 256]⟩
abbrev S16x256 : Shape := ⟨2, ![16, 256]⟩
abbrev S256x64 : Shape := ⟨2, ![256, 64]⟩
abbrev S16x64 : Shape := ⟨2, ![16, 64]⟩
abbrev S1x64 : Shape := ⟨2, ![1, 64]⟩
abbrev S16x80 : Shape := ⟨2, ![16, 80]⟩
abbrev S80x512 : Shape := ⟨2, ![80, 512]⟩
abbrev S16x512 : Shape := ⟨2, ![16, 512]⟩
abbrev S512x16384 : Shape := ⟨2, ![512, 16384]⟩
abbrev S16x16384 : Shape := ⟨2, ![16, 16384]⟩
abbrev S1x16384 : Shape := ⟨2, ![1, 16384]⟩
abbrev S16x128x128 : Shape := ⟨3, ![16, 128, 128]⟩
abbrev S512x128 : Shape := ⟨2, ![512, 128]⟩
abbrev S512x1 : Shape := ⟨2, ![512, 1]⟩
abbrev S1x1 : Shape := ⟨2, ![1, 1]⟩
abbrev S1x16x128 : Shape := ⟨3, ![1, 16, 128]⟩
abbrev S1x128x128 : Shape := ⟨3, ![1, 128, 128]⟩
abbrev S512x2048 : Shape := ⟨2, ![512, 2048]⟩
abbrev S128x128 : Shape := ⟨2, ![128, 128]⟩
abbrev S16x128 : Shape := ⟨2, ![16, 128]⟩
abbrev S128x16 : Shape := ⟨2, ![128, 16]⟩
abbrev S512x16 : Shape := ⟨2, ![512, 16]⟩
abbrev S1x128 : Shape := ⟨2, ![1, 128]⟩
abbrev S128 : Shape := ⟨1, ![128]⟩
abbrev S1x1x128 : Shape := ⟨3, ![1, 1, 128]⟩

abbrev nBuf : Space → Nat
  | .hbm => 188
  | .vmem => 14
  | .smem => 0
  | _ => 0

abbrev hbmTy0_0 (i : Nat) : BufTy := match i % 128 with
  | 0 => ⟨S4096x128, .f32⟩
  | 1 => ⟨S16x16, .f32⟩
  | 2 => ⟨S2x65536, .i32⟩
  | 3 => ⟨S4096, .i32⟩
  | 4 => ⟨S256x128, .f32⟩
  | 5 => ⟨S256, .f32⟩
  | 6 => ⟨S256x128, .f32⟩
  | 7 => ⟨S256x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256x256, .f32⟩
  | 16 => ⟨S256, .f32⟩
  | 17 => ⟨S64x256, .f32⟩
  | 18 => ⟨S64, .f32⟩
  | 19 => ⟨S512x80, .f32⟩
  | 20 => ⟨S512, .f32⟩
  | 21 => ⟨S16384x512, .f32⟩
  | 22 => ⟨S16384, .f32⟩
  | 23 => ⟨S512x256, .f32⟩
  | 24 => ⟨S512, .f32⟩
  | 25 => ⟨S512x512, .f32⟩
  | 26 => ⟨S512, .f32⟩
  | 27 => ⟨S1x512, .f32⟩
  | 28 => ⟨S1, .f32⟩
  | 29 => ⟨S1x65536, .i32⟩
  | 30 => ⟨S65536, .i32⟩
  | 31 => ⟨S1x65536, .i32⟩
  | 32 => ⟨S65536, .i32⟩
  | 33 => ⟨S_, .f32⟩
  | 34 => ⟨S65536, .f32⟩
  | 35 => ⟨S_, .f32⟩
  | 36 => ⟨S4096, .f32⟩
  | 37 => ⟨S65536x1, .i32⟩
  | 38 => ⟨S4096, .f32⟩
  | 39 => ⟨S_, .f32⟩
  | 40 => ⟨S4096, .f32⟩
  | 41 => ⟨S4096, .f32⟩
  | 42 => ⟨S_, .i32⟩
  | 43 => ⟨S65536, .i32⟩
  | 44 => ⟨S65536, .i1⟩
  | 45 => ⟨S_, .i32⟩
  | 46 => ⟨S65536, .i32⟩
  | 47 => ⟨S65536, .i32⟩
  | 48 => ⟨S65536, .i32⟩
  | 49 => ⟨S65536x1, .i32⟩
  | 50 => ⟨S65536x128, .f32⟩
  | 51 => ⟨S_, .f32⟩
  | 52 => ⟨S4096x128, .f32⟩
  | 53 => ⟨S65536x1, .i32⟩
  | 54 => ⟨S4096x128, .f32⟩
  | 55 => ⟨S4096x1, .f32⟩
  | 56 => ⟨S4096x128, .f32⟩
  | 57 => ⟨S4096x128, .f32⟩
  | 58 => ⟨S128x256, .f32⟩
  | 59 => ⟨S4096x256, .f32⟩
  | 60 => ⟨S1x256, .f32⟩
  | 61 => ⟨S4096x256, .f32⟩
  | 62 => ⟨S4096x256, .f32⟩
  | 63 => ⟨S128x256, .f32⟩
  | 64 => ⟨S4096x256, .f32⟩
  | 65 => ⟨S4096x256, .f32⟩
  | 66 => ⟨S_, .f32⟩
  | 67 => ⟨S4096x256, .f32⟩
  | 68 => ⟨S4096x256, .f32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536x256, .f32⟩
  | 78 => ⟨S_, .f32⟩
  | 79 => ⟨S4096x256, .f32⟩
  | 80 => ⟨S65536x1, .i32⟩
  | 81 => ⟨S4096x256, .f32⟩
  | 82 => ⟨S4096x1, .f32⟩
  | 83 => ⟨S4096x256, .f32⟩
  | 84 => ⟨S4096x256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S256x256, .f32⟩
  | 91 => ⟨S4096x256, .f32⟩
  | 92 => ⟨S4096x256, .f32⟩
  | 93 => ⟨S_, .f32⟩
  | 94 => ⟨S4096x256, .f32⟩
  | 95 => ⟨S4096x256, .f32⟩
  | 96 => ⟨S_, .i32⟩
  | 97 => ⟨S65536, .i32⟩
  | 98 => ⟨S65536, .i1⟩
  | 99 => ⟨S_, .i32⟩
  | 100 => ⟨S65536, .i32⟩
  | 101 => ⟨S65536, .i32⟩
  | 102 => ⟨S65536, .i32⟩
  | 103 => ⟨S65536x1, .i32⟩
  | 104 => ⟨S65536x256, .f32⟩
  | 105 => ⟨S_, .f32⟩
  | 106 => ⟨S4096x256, .f32⟩
  | 107 => ⟨S65536x1, .i32⟩
  | 108 => ⟨S4096x256, .f32⟩
  | 109 => ⟨S4096x1, .f32⟩
  | 110 => ⟨S4096x256, .f32⟩
  | 111 => ⟨S4096x256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S256x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S16x256, .f32⟩
  | 125 => ⟨S4096x1, .i32⟩
  | 126 => ⟨S16x256, .f32⟩
  | 127 => ⟨S_, .f32⟩
  | _ => ⟨S4096x128, .f32⟩

abbrev hbmTy0_1 (i : Nat) : BufTy := match i % 128 with
  | 0 => ⟨S_, .f32⟩
  | 1 => ⟨S_, .f32⟩
  | 2 => ⟨S16x256, .f32⟩
  | 3 => ⟨S16x256, .f32⟩
  | 4 => ⟨S1x256, .f32⟩
  | 5 => ⟨S16x256, .f32⟩
  | 6 => ⟨S16x256, .f32⟩
  | 7 => ⟨S1x256, .f32⟩
  | 8 => ⟨S16x256, .f32⟩
  | 9 => ⟨S16x256, .f32⟩
  | 10 => ⟨S256x256, .f32⟩
  | 11 => ⟨S16x256, .f32⟩
  | 12 => ⟨S1x256, .f32⟩
  | 13 => ⟨S16x256, .f32⟩
  | 14 => ⟨S16x256, .f32⟩
  | 15 => ⟨S256x64, .f32⟩
  | 16 => ⟨S16x64, .f32⟩
  | 17 => ⟨S1x64, .f32⟩
  | 18 => ⟨S16x64, .f32⟩
  | 19 => ⟨S16x64, .f32⟩
  | 20 => ⟨S16x80, .f32⟩
  | 21 => ⟨S80x512, .f32⟩
  | 22 => ⟨S16x512, .f32⟩
  | 23 => ⟨S1x512, .f32⟩
  | 24 => ⟨S16x512, .f32⟩
  | 25 => ⟨S16x512, .f32⟩
  | 26 => ⟨S_, .f32⟩
  | 27 => ⟨S16x512, .f32⟩
  | 28 => ⟨S16x512, .f32⟩
  | 29 => ⟨S512x16384, .f32⟩
  | 30 => ⟨S16x16384, .f32⟩
  | 31 => ⟨S1x16384, .f32⟩
  | 32 => ⟨S16x16384, .f32⟩
  | 33 => ⟨S16x16384, .f32⟩
  | 34 => ⟨S16x128x128, .f32⟩
  | 35 => ⟨S16x128x128, .f32⟩
  | 36 => ⟨S16x128x128, .bf16⟩
  | 37 => ⟨S16x128x128, .bf16⟩
  | 38 => ⟨S512x128, .f32⟩
  | 39 => ⟨S512x128, .bf16⟩
  | 40 => ⟨S512x128, .f32⟩
  | 41 => ⟨S512x128, .bf16⟩
  | 42 => ⟨S512x512, .bf16⟩
  | 43 => ⟨S1x512, .bf16⟩
  | 44 => ⟨S512x1, .f32⟩
  | 45 => ⟨S512x1, .f32⟩
  | 46 => ⟨S1x1, .f32⟩
  | 47 => ⟨S16x128x128, .f32⟩
  | 48 => ⟨S128x128, .i32⟩
  | 49 => ⟨S_, .i32⟩
  | 50 => ⟨S128x128, .i32⟩
  | 51 => ⟨S128x128, .i32⟩
  | 52 => ⟨S128x128, .i32⟩
  | 53 => ⟨S128x128, .i1⟩
  | 54 => ⟨S16x128x128, .i1⟩
  | 55 => ⟨S_, .f32⟩
  | 56 => ⟨S16x128x128, .f32⟩
  | 57 => ⟨S16x128x128, .f32⟩
  | 58 => ⟨S16x128x128, .f32⟩
  | 59 => ⟨S16x128x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S1x16x128, .bf16⟩
  | .local _ .vmem, ⟨1, _⟩ => ⟨S1x16x128, .bf16⟩
  | .local _ .vmem, ⟨2, _⟩ => ⟨S1x128x128, .bf16⟩
  | .local _ .vmem, ⟨3, _⟩ => ⟨S1x128x128, .bf16⟩
  | .local _ .vmem, ⟨4, _⟩ => ⟨S512x128, .bf16⟩
  | .local _ .vmem, ⟨5, _⟩ => ⟨S512x128, .bf16⟩
  | .local _ .vmem, ⟨6, _⟩ => ⟨S512x1, .f32⟩
  | .local _ .vmem, ⟨7, _⟩ => ⟨S512x512, .bf16⟩
  | .local _ .vmem, ⟨8, _⟩ => ⟨S512x1, .f32⟩
  | .local _ .vmem, ⟨9, _⟩ => ⟨S1x512, .bf16⟩
  | .local _ .vmem, ⟨10, _⟩ => ⟨S1x1, .f32⟩
  | .local _ .vmem, ⟨11, _⟩ => ⟨S1x16x128, .f32⟩
  | .local _ .vmem, ⟨12, _⟩ => ⟨S1x16x128, .f32⟩
  | .local _ .vmem, ⟨13, _⟩ => ⟨S512x2048, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_c : Ref sig .tc := ⟨.hbm, 42, rfl⟩
abbrev main_v10 : Ref sig .tc := ⟨.hbm, 43, rfl⟩
abbrev main_v11 : Ref sig .tc := ⟨.hbm, 44, rfl⟩
abbrev main_c_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call0_cst : Ref sig .tc := ⟨.hbm, 66, rfl⟩
abbrev main_call0_v0 : Ref sig .tc := ⟨.hbm, 67, rfl⟩
abbrev main_v31 : Ref sig .tc := ⟨.hbm, 68, rfl⟩
abbrev main_c_4 : Ref sig .tc := ⟨.hbm, 69, rfl⟩
abbrev main_v32 : Ref sig .tc := ⟨.hbm, 70, rfl⟩
abbrev main_v33 : Ref sig .tc := ⟨.hbm, 71, rfl⟩
abbrev main_c_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_call1_cst : Ref sig .tc := ⟨.hbm, 93, rfl⟩
abbrev main_call1_v0 : Ref sig .tc := ⟨.hbm, 94, rfl⟩
abbrev main_v53 : Ref sig .tc := ⟨.hbm, 95, rfl⟩
abbrev main_c_7 : Ref sig .tc := ⟨.hbm, 96, rfl⟩
abbrev main_v54 : Ref sig .tc := ⟨.hbm, 97, rfl⟩
abbrev main_v55 : Ref sig .tc := ⟨.hbm, 98, rfl⟩
abbrev main_c_8 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call2_cst : Ref sig .tc := ⟨.hbm, 120, rfl⟩
abbrev main_call2_v0 : Ref sig .tc := ⟨.hbm, 121, rfl⟩
abbrev main_v75 : Ref sig .tc := ⟨.hbm, 122, rfl⟩
abbrev main_cst_10 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_11 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_call3_cst : Ref sig .tc := ⟨.hbm, 154, rfl⟩
abbrev main_call3_v0 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_call4_v0 : Ref sig .tc := ⟨.hbm, 176, rfl⟩
abbrev main_call4_c : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_cst : Ref sig .tc := ⟨.hbm, 183, rfl⟩
abbrev main_call4_v6 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S4096 : S_.BroadcastsInDim S4096 (![] : Fin 0 → Fin S4096.rank)
  bcast_S65536_S65536x1_0 : S65536.BroadcastsInDim S65536x1 (![0] : Fin 1 → Fin S65536x1.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S256x128_S128x256_1_0 : S256x128.Transposes [1, 0] S128x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  transposes_S256x256_S256x256_1_0 : S256x256.Transposes [1, 0] S256x256
  bcast_S_S16x256 : S_.BroadcastsInDim S16x256 (![] : Fin 0 → Fin S16x256.rank)
  bcast_S1x256_S16x256_0_1 : S1x256.BroadcastsInDim S16x256 (![0, 1] : Fin 2 → Fin S16x256.rank)
  transposes_S64x256_S256x64_1_0 : S64x256.Transposes [1, 0] S256x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  concatenates_S16x64_S16x16_S16x80_d1 : Shape.Concatenates [S16x64, S16x16] S16x80 1
  transposes_S512x80_S80x512_1_0 : S512x80.Transposes [1, 0] S80x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  transposes_S16384x512_S512x16384_1_0 : S16384x512.Transposes [1, 0] S512x16384
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  shapeCasts_S16x16384_S16x128x128 : S16x16384.ShapeCasts S16x128x128
  transposes_S16x128x128_S16x128x128_0_2_1 : S16x128x128.Transposes [0, 2, 1] S16x128x128
  bitsLt_bf16_f32 : FTy.bits .bf16 < FTy.bits .f32
  slices_S512x256_S512x128_0_0 : S512x256.Slices ![0, 0] S512x128
  slices_S512x256_S512x128_0_128 : S512x256.Slices ![0, 128] S512x128
  shapeCasts_S512_S512x1 : S512.ShapeCasts S512x1
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  transposes_S16x128_p1_0_S128x16 : S16x128.Transposes [1, 0] S128x16
  broadcasts_S512x1_S512x128 : S512x1.Broadcasts S512x128
  slices_S512x16_o0_0_S512x1 : S512x16.Slices ![0, 0] S512x1
  inb_S512x2048_S512x128_0_0 : ∀ a, (![0, 0] : Fin 2 → Nat) a + S512x128.size a ≤ S512x2048.size a
  packedbf16_S512x2048_S512x128_0_0 : (Rect.unit (s := S512x2048) ![0, 0] S512x128.size inb_S512x2048_S512x128_0_0).PackedRows (EltTy.packing .bf16)
  slices_S512x16_o0_1_S512x1 : S512x16.Slices ![0, 1] S512x1
  inb_S512x2048_S512x128_0_128 : ∀ a, (![0, 128] : Fin 2 → Nat) a + S512x128.size a ≤ S512x2048.size a
  packedbf16_S512x2048_S512x128_0_128 : (Rect.unit (s := S512x2048) ![0, 128] S512x128.size inb_S512x2048_S512x128_0_128).PackedRows (EltTy.packing .bf16)
  slices_S512x16_o0_2_S512x1 : S512x16.Slices ![0, 2] S512x1
  inb_S512x2048_S512x128_0_256 : ∀ a, (![0, 256] : Fin 2 → Nat) a + S512x128.size a ≤ S512x2048.size a
  packedbf16_S512x2048_S512x128_0_256 : (Rect.unit (s := S512x2048) ![0, 256] S512x128.size inb_S512x2048_S512x128_0_256).PackedRows (EltTy.packing .bf16)
  slices_S512x16_o0_3_S512x1 : S512x16.Slices ![0, 3] S512x1
  inb_S512x2048_S512x128_0_384 : ∀ a, (![0, 384] : Fin 2 → Nat) a + S512x128.size a ≤ S512x2048.size a
  packedbf16_S512x2048_S512x128_0_384 : (Rect.unit (s := S512x2048) ![0, 384] S512x128.size inb_S512x2048_S512x128_0_384).PackedRows (EltTy.packing .bf16)
  slices_S512x16_o0_4_S512x1 : S512x16.Slices ![0, 4] S512x1
  inb_S512x2048_S512x128_0_512 : ∀ a, (![0, 512] : Fin 2 → Nat) a + S512x128.size a ≤ S512x2048.size a
  packedbf16_S512x2048_S512x128_0_512 : (Rect.unit (s := S512x2048) ![0, 512] S512x128.size inb_S512x2048_S512x128_0_512).PackedRows (EltTy.packing .bf16)
  slices_S512x16_o0_5_S512x1 : S512x16.Slices ![0, 5] S512x1
  inb_S512x2048_S512x128_0_640 : ∀ a, (![0, 640] : Fin 2 → Nat) a + S512x128.size a ≤ S512x2048.size a
  packedbf16_S512x2048_S512x128_0_640 : (Rect.unit (s := S512x2048) ![0, 640] S512x128.size inb_S512x2048_S512x128_0_640).PackedRows (EltTy.packing .bf16)
  slices_S512x16_o0_6_S512x1 : S512x16.Slices ![0, 6] S512x1
  inb_S512x2048_S512x128_0_768 : ∀ a, (![0, 768] : Fin 2 → Nat) a + S512x128.size a ≤ S512x2048.size a
  packedbf16_S512x2048_S512x128_0_768 : (Rect.unit (s := S512x2048) ![0, 768] S512x128.size inb_S512x2048_S512x128_0_768).PackedRows (EltTy.packing .bf16)
  slices_S512x16_o0_7_S512x1 : S512x16.Slices ![0, 7] S512x1
  inb_S512x2048_S512x128_0_896 : ∀ a, (![0, 896] : Fin 2 → Nat) a + S512x128.size a ≤ S512x2048.size a
  packedbf16_S512x2048_S512x128_0_896 : (Rect.unit (s := S512x2048) ![0, 896] S512x128.size inb_S512x2048_S512x128_0_896).PackedRows (EltTy.packing .bf16)
  slices_S512x16_o0_8_S512x1 : S512x16.Slices ![0, 8] S512x1
  inb_S512x2048_S512x128_0_1024 : ∀ a, (![0, 1024] : Fin 2 → Nat) a + S512x128.size a ≤ S512x2048.size a
  packedbf16_S512x2048_S512x128_0_1024 : (Rect.unit (s := S512x2048) ![0, 1024] S512x128.size inb_S512x2048_S512x128_0_1024).PackedRows (EltTy.packing .bf16)
  slices_S512x16_o0_9_S512x1 : S512x16.Slices ![0, 9] S512x1
  inb_S512x2048_S512x128_0_1152 : ∀ a, (![0, 1152] : Fin 2 → Nat) a + S512x128.size a ≤ S512x2048.size a
  packedbf16_S512x2048_S512x128_0_1152 : (Rect.unit (s := S512x2048) ![0, 1152] S512x128.size inb_S512x2048_S512x128_0_1152).PackedRows (EltTy.packing .bf16)
  slices_S512x16_o0_10_S512x1 : S512x16.Slices ![0, 10] S512x1
  inb_S512x2048_S512x128_0_1280 : ∀ a, (![0, 1280] : Fin 2 → Nat) a + S512x128.size a ≤ S512x2048.size a
  packedbf16_S512x2048_S512x128_0_1280 : (Rect.unit (s := S512x2048) ![0, 1280] S512x128.size inb_S512x2048_S512x128_0_1280).PackedRows (EltTy.packing .bf16)
  slices_S512x16_o0_11_S512x1 : S512x16.Slices ![0, 11] S512x1
  inb_S512x2048_S512x128_0_1408 : ∀ a, (![0, 1408] : Fin 2 → Nat) a + S512x128.size a ≤ S512x2048.size a
  packedbf16_S512x2048_S512x128_0_1408 : (Rect.unit (s := S512x2048) ![0, 1408] S512x128.size inb_S512x2048_S512x128_0_1408).PackedRows (EltTy.packing .bf16)
  slices_S512x16_o0_12_S512x1 : S512x16.Slices ![0, 12] S512x1
  inb_S512x2048_S512x128_0_1536 : ∀ a, (![0, 1536] : Fin 2 → Nat) a + S512x128.size a ≤ S512x2048.size a
  packedbf16_S512x2048_S512x128_0_1536 : (Rect.unit (s := S512x2048) ![0, 1536] S512x128.size inb_S512x2048_S512x128_0_1536).PackedRows (EltTy.packing .bf16)
  slices_S512x16_o0_13_S512x1 : S512x16.Slices ![0, 13] S512x1
  inb_S512x2048_S512x128_0_1664 : ∀ a, (![0, 1664] : Fin 2 → Nat) a + S512x128.size a ≤ S512x2048.size a
  packedbf16_S512x2048_S512x128_0_1664 : (Rect.unit (s := S512x2048) ![0, 1664] S512x128.size inb_S512x2048_S512x128_0_1664).PackedRows (EltTy.packing .bf16)
  slices_S512x16_o0_14_S512x1 : S512x16.Slices ![0, 14] S512x1
  inb_S512x2048_S512x128_0_1792 : ∀ a, (![0, 1792] : Fin 2 → Nat) a + S512x128.size a ≤ S512x2048.size a
  packedbf16_S512x2048_S512x128_0_1792 : (Rect.unit (s := S512x2048) ![0, 1792] S512x128.size inb_S512x2048_S512x128_0_1792).PackedRows (EltTy.packing .bf16)
  slices_S512x16_o0_15_S512x1 : S512x16.Slices ![0, 15] S512x1
  inb_S512x2048_S512x128_0_1920 : ∀ a, (![0, 1920] : Fin 2 → Nat) a + S512x128.size a ≤ S512x2048.size a
  packedbf16_S512x2048_S512x128_0_1920 : (Rect.unit (s := S512x2048) ![0, 1920] S512x128.size inb_S512x2048_S512x128_0_1920).PackedRows (EltTy.packing .bf16)
  inb_S512x2048_S512x2048_0_0 : ∀ a, (![0, 0] : Fin 2 → Nat) a + S512x2048.size a ≤ S512x2048.size a
  h_S512x2048 : 0 < S512x2048.numel
  broadcasts_S512x1_S512x2048 : S512x1.Broadcasts S512x2048
  slices_S512x2048_o0_0_S512x128 : S512x2048.Slices ![0, 0] S512x128
  broadcasts_S1x1_S1x128 : S1x1.Broadcasts S1x128
  shapeCasts_S1x128_S128 : S1x128.ShapeCasts S128
  inb_S1x16x128_S1x1x128_0_0_0 : ∀ a, (![0, 0, 0] : Fin 3 → Nat) a + S1x1x128.size a ≤ S1x16x128.size a
  h_S1x1x128 : 0 < S1x1x128.numel
  shapeCasts_S1x1x128_S128 : S1x1x128.ShapeCasts S128
  shapeCasts_S128_S1x1x128 : S128.ShapeCasts S1x1x128
  slices_S512x2048_o0_128_S512x128 : S512x2048.Slices ![0, 128] S512x128
  inb_S1x16x128_S1x1x128_0_1_0 : ∀ a, (![0, 1, 0] : Fin 3 → Nat) a + S1x1x128.size a ≤ S1x16x128.size a
  slices_S512x2048_o0_256_S512x128 : S512x2048.Slices ![0, 256] S512x128
  inb_S1x16x128_S1x1x128_0_2_0 : ∀ a, (![0, 2, 0] : Fin 3 → Nat) a + S1x1x128.size a ≤ S1x16x128.size a
  slices_S512x2048_o0_384_S512x128 : S512x2048.Slices ![0, 384] S512x128
  inb_S1x16x128_S1x1x128_0_3_0 : ∀ a, (![0, 3, 0] : Fin 3 → Nat) a + S1x1x128.size a ≤ S1x16x128.size a
  slices_S512x2048_o0_512_S512x128 : S512x2048.Slices ![0, 512] S512x128
  inb_S1x16x128_S1x1x128_0_4_0 : ∀ a, (![0, 4, 0] : Fin 3 → Nat) a + S1x1x128.size a ≤ S1x16x128.size a
  slices_S512x2048_o0_640_S512x128 : S512x2048.Slices ![0, 640] S512x128
  inb_S1x16x128_S1x1x128_0_5_0 : ∀ a, (![0, 5, 0] : Fin 3 → Nat) a + S1x1x128.size a ≤ S1x16x128.size a
  slices_S512x2048_o0_768_S512x128 : S512x2048.Slices ![0, 768] S512x128
  inb_S1x16x128_S1x1x128_0_6_0 : ∀ a, (![0, 6, 0] : Fin 3 → Nat) a + S1x1x128.size a ≤ S1x16x128.size a
  slices_S512x2048_o0_896_S512x128 : S512x2048.Slices ![0, 896] S512x128
  inb_S1x16x128_S1x1x128_0_7_0 : ∀ a, (![0, 7, 0] : Fin 3 → Nat) a + S1x1x128.size a ≤ S1x16x128.size a
  slices_S512x2048_o0_1024_S512x128 : S512x2048.Slices ![0, 1024] S512x128
  inb_S1x16x128_S1x1x128_0_8_0 : ∀ a, (![0, 8, 0] : Fin 3 → Nat) a + S1x1x128.size a ≤ S1x16x128.size a
  slices_S512x2048_o0_1152_S512x128 : S512x2048.Slices ![0, 1152] S512x128
  inb_S1x16x128_S1x1x128_0_9_0 : ∀ a, (![0, 9, 0] : Fin 3 → Nat) a + S1x1x128.size a ≤ S1x16x128.size a
  slices_S512x2048_o0_1280_S512x128 : S512x2048.Slices ![0, 1280] S512x128
  inb_S1x16x128_S1x1x128_0_10_0 : ∀ a, (![0, 10, 0] : Fin 3 → Nat) a + S1x1x128.size a ≤ S1x16x128.size a
  slices_S512x2048_o0_1408_S512x128 : S512x2048.Slices ![0, 1408] S512x128
  inb_S1x16x128_S1x1x128_0_11_0 : ∀ a, (![0, 11, 0] : Fin 3 → Nat) a + S1x1x128.size a ≤ S1x16x128.size a
  slices_S512x2048_o0_1536_S512x128 : S512x2048.Slices ![0, 1536] S512x128
  inb_S1x16x128_S1x1x128_0_12_0 : ∀ a, (![0, 12, 0] : Fin 3 → Nat) a + S1x1x128.size a ≤ S1x16x128.size a
  slices_S512x2048_o0_1664_S512x128 : S512x2048.Slices ![0, 1664] S512x128
  inb_S1x16x128_S1x1x128_0_13_0 : ∀ a, (![0, 13, 0] : Fin 3 → Nat) a + S1x1x128.size a ≤ S1x16x128.size a
  slices_S512x2048_o0_1792_S512x128 : S512x2048.Slices ![0, 1792] S512x128
  inb_S1x16x128_S1x1x128_0_14_0 : ∀ a, (![0, 14, 0] : Fin 3 → Nat) a + S1x1x128.size a ≤ S1x16x128.size a
  slices_S512x2048_o0_1920_S512x128 : S512x2048.Slices ![0, 1920] S512x128
  inb_S1x16x128_S1x1x128_0_15_0 : ∀ a, (![0, 15, 0] : Fin 3 → Nat) a + S1x1x128.size a ≤ S1x16x128.size a
  bcast_S_S128x128 : S_.BroadcastsInDim S128x128 (![] : Fin 0 → Fin S128x128.rank)
  bcast_S128x128_S16x128x128_1_2 : S128x128.BroadcastsInDim S16x128x128 (![1, 2] : Fin 2 → Fin S16x128x128.rank)
  bcast_S_S16x128x128 : S_.BroadcastsInDim S16x128x128 (![] : Fin 0 → Fin S16x128x128.rank)
  scatter_S4096_S65536x1_S65536_n_0_0_1_wf : ScatterDims.WF S4096 S65536x1 S65536 [] [0] [0] 1
  gather_S4096x128_S65536x1_S65536x128_1_0_n_n_0_1_1128_wf : GatherDims.WF S4096x128 S65536x1 S65536x128 [1] [0] [] [0] [] 1 ![1, 128]
  scatter_S4096x128_S65536x1_S65536x128_1_0_0_1_wf : ScatterDims.WF S4096x128 S65536x1 S65536x128 [1] [0] [0] 1
  dot_S4096x128_S128x256_S4096x256_1_0_0_1_n_n_wf : DotDims.WF S4096x128 S128x256 S4096x256 [1] [0] [0] [1] [] []
  gather_S4096x256_S65536x1_S65536x256_1_0_n_n_0_1_1256_wf : GatherDims.WF S4096x256 S65536x1 S65536x256 [1] [0] [] [0] [] 1 ![1, 256]
  scatter_S4096x256_S65536x1_S65536x256_1_0_0_1_wf : ScatterDims.WF S4096x256 S65536x1 S65536x256 [1] [0] [0] 1
  dot_S4096x256_S256x256_S4096x256_1_0_0_1_n_n_wf : DotDims.WF S4096x256 S256x256 S4096x256 [1] [0] [0] [1] [] []
  scatter_S16x256_S4096x1_S4096x256_1_0_0_1_wf : ScatterDims.WF S16x256 S4096x1 S4096x256 [1] [0] [0] 1
  dot_S16x256_S256x256_S16x256_1_0_0_1_n_n_wf : DotDims.WF S16x256 S256x256 S16x256 [1] [0] [0] [1] [] []
  dot_S16x256_S256x64_S16x64_1_0_0_1_n_n_wf : DotDims.WF S16x256 S256x64 S16x64 [1] [0] [0] [1] [] []
  dot_S16x80_S80x512_S16x512_1_0_0_1_n_n_wf : DotDims.WF S16x80 S80x512 S16x512 [1] [0] [0] [1] [] []
  dot_S16x512_S512x16384_S16x16384_1_0_0_1_n_n_wf : DotDims.WF S16x512 S512x16384 S16x16384 [1] [0] [0] [1] [] []
  dot_S512x128_S128x16_S512x16_1_0_0_1_n_n_wf : DotDims.WF S512x128 S128x16 S512x16 [1] [0] [0] [1] [] []
  dot_S512x128_S128x128_S512x128_1_0_0_1_n_n_wf : DotDims.WF S512x128 S128x128 S512x128 [1] [0] [0] [1] [] []
  dot_S512x512_S512x2048_S512x2048_1_0_0_1_n_n_wf : DotDims.WF S512x512 S512x2048 S512x2048 [1] [0] [0] [1] [] []
  dot_S1x512_S512x128_S1x128_1_0_0_1_n_n_wf : DotDims.WF S1x512 S512x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128.size a ≤ S16x128x128.size a
  hwx0_0 : ∀ i : grid0.Coords, EltTy.bits .bf16 = 32 ∨ (Rect.block (s := S16x128x128) S1x16x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S16x128x128.size a
  hwx0_1 : ∀ i : grid0.Coords, EltTy.bits .bf16 = 32 ∨ (Rect.block (s := S16x128x128) S1x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .bf16 = 32 ∨ (Rect.block (s := S1x512) S1x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x128.size a ≤ S16x128x128.size a
  hwx0_9 : ∀ i : grid0.Coords, EltTy.bits .f32 = 32 ∨ (Rect.block (s := S16x128x128) S1x16x128.size (cc0_transform_9 i) (hinb0_9 i)).WholeWords (EltTy.packing .f32)

variable [Facts₀]

def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def gather_S4096x128_S65536x1_S65536x128_1_0_n_n_0_1_1128 : GatherDims S4096x128 S65536x1 S65536x128 where
  offsetDims := [1]
  collapsedSliceDims := [0]
  operandBatchingDims := []
  startIndicesBatchingDims := []
  startIndexMap := [0]
  indexVectorDim := 1
  sliceSizes := ![1, 128]
  wf := gather_S4096x128_S65536x1_S65536x128_1_0_n_n_0_1_1128_wf
def scatter_S4096x128_S65536x1_S65536x128_1_0_0_1 : ScatterDims S4096x128 S65536x1 S65536x128 where
  updateWindowDims := [1]
  insertedWindowDims := [0]
  scatterDimsToOperandDims := [0]
  indexVectorDim := 1
  wf := scatter_S4096x128_S65536x1_S65536x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S4096x256_S65536x1_S65536x256_1_0_0_1 : ScatterDims S4096x256 S65536x1 S65536x256 where
  updateWindowDims := [1]
  insertedWindowDims := [0]
  scatterDimsToOperandDims := [0]
  indexVectorDim := 1
  wf := scatter_S4096x256_S65536x1_S65536x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S16x256_S4096x1_S4096x256_1_0_0_1 : ScatterDims S16x256 S4096x1 S4096x256 where
  updateWindowDims := [1]
  insertedWindowDims := [0]
  scatterDimsToOperandDims := [0]
  indexVectorDim := 1
  wf := scatter_S16x256_S4096x1_S4096x256_1_0_0_1_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x80_S80x512_S16x512_1_0_0_1_n_n : DotDims S16x80 S80x512 S16x512 where
  lhsContracting := [1]
  rhsContracting := [0]
  lhsNonContracting := [0]
  rhsNonContracting := [1]
  lhsBatch := []
  rhsBatch := []
  wf := dot_S16x80_S80x512_S16x512_1_0_0_1_n_n_wf
def dot_S16x512_S512x16384_S16x16384_1_0_0_1_n_n : DotDims S16x512 S512x16384 S16x16384 where
  lhsContracting := [1]
  rhsContracting := [0]
  lhsNonContracting := [0]
  rhsNonContracting := [1]
  lhsBatch := []
  rhsBatch := []
  wf := dot_S16x512_S512x16384_S16x16384_1_0_0_1_n_n_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf

abbrev win0_0 : Pipeline.Window sig grid0 :=
  Pipeline.Window.ofSpec (Memref.whole main_v113) S1x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v114) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v116) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v118) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v121) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v119) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v122) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v120) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v123) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v124) S1x16x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128 : Shape := ⟨2, ![4096, 128]⟩
abbrev S16x16 : Shape := ⟨2, ![16, 16]⟩
abbrev S2x65536 : Shape := ⟨2, ![2, 65536]⟩
abbrev S4096 : Shape := ⟨1, ![4096]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S512x80 : Shape := ⟨2, ![512, 80]⟩
abbrev S512 : Shape := ⟨1, ![512]⟩
abbrev S16384x512 : Shape := ⟨2, ![16384, 512]⟩
abbrev S16384 : Shape := ⟨1, ![16384]⟩
abbrev S512x256 : Shape := ⟨2, ![512, 256]⟩
abbrev S512x512 : Shape := ⟨2, ![512, 512]⟩
abbrev S1x512 : Shape := ⟨2, ![1, 512]⟩
abbrev S1 : Shape := ⟨1, ![1]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x128 : Shape := ⟨2, ![65536, 128]⟩
abbrev S4096x1 : Shape := ⟨2, ![4096, 1]⟩
abbrev S128x256 : Shape := ⟨2, ![128, 256]⟩
abbrev S4096x256 : Shape := ⟨2, ![4096, 256]⟩
abbrev S1x256 : Shape := ⟨2, ![1, 256]⟩
abbrev S65536x256 : Shape := ⟨2, ![65536, 256]⟩
abbrev S16x256 : Shape := ⟨2, ![16, 256]⟩
abbrev S256x64 : Shape := ⟨2, ![256, 64]⟩
abbrev S16x64 : Shape := ⟨2, ![16, 64]⟩
abbrev S1x64 : Shape := ⟨2, ![1, 64]⟩
abbrev S16x80 : Shape := ⟨2, ![16, 80]⟩
abbrev S80x512 : Shape := ⟨2, ![80, 512]⟩
abbrev S16x512 : Shape := ⟨2, ![16, 512]⟩
abbrev S512x16384 : Shape := ⟨2, ![512, 16384]⟩
abbrev S16x16384 : Shape := ⟨2, ![16, 16384]⟩
abbrev S1x16384 : Shape := ⟨2, ![1, 16384]⟩
abbrev S16x128x128 : Shape := ⟨3, ![16, 128, 128]⟩
abbrev S16x128x1x128 : Shape := ⟨4, ![16, 128, 1, 128]⟩
abbrev S16x128x128x128 : Shape := ⟨4, ![16, 128, 128, 128]⟩
abbrev S16x1x128x128 : Shape := ⟨4, ![16, 1, 128, 128]⟩
abbrev S16x128x128x256 : Shape := ⟨4, ![16, 128, 128, 256]⟩
abbrev S16x128x128x512 : Shape := ⟨4, ![16, 128, 128, 512]⟩
abbrev S1x1x1x512 : Shape := ⟨4, ![1, 1, 1, 512]⟩
abbrev S16x128x128x1 : Shape := ⟨4, ![16, 128, 128, 1]⟩
abbrev S1x1x1x1 : Shape := ⟨4, ![1, 1, 1, 1]⟩
abbrev S128x128 : Shape := ⟨2, ![128, 128]⟩

abbrev nBuf : Space → Nat
  | .hbm => 217
  | .vmem => 0
  | .smem => 0
  | _ => 0

abbrev hbmTy0_0 (i : Nat) : BufTy := match i % 128 with
  | 0 => ⟨S4096x128, .f32⟩
  | 1 => ⟨S16x16, .f32⟩
  | 2 => ⟨S2x65536, .i32⟩
  | 3 => ⟨S4096, .i32⟩
  | 4 => ⟨S256x128, .f32⟩
  | 5 => ⟨S256, .f32⟩
  | 6 => ⟨S256x128, .f32⟩
  | 7 => ⟨S256x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256x256, .f32⟩
  | 16 => ⟨S256, .f32⟩
  | 17 => ⟨S64x256, .f32⟩
  | 18 => ⟨S64, .f32⟩
  | 19 => ⟨S512x80, .f32⟩
  | 20 => ⟨S512, .f32⟩
  | 21 => ⟨S16384x512, .f32⟩
  | 22 => ⟨S16384, .f32⟩
  | 23 => ⟨S512x256, .f32⟩
  | 24 => ⟨S512, .f32⟩
  | 25 => ⟨S512x512, .f32⟩
  | 26 => ⟨S512, .f32⟩
  | 27 => ⟨S1x512, .f32⟩
  | 28 => ⟨S1, .f32⟩
  | 29 => ⟨S1x65536, .i32⟩
  | 30 => ⟨S65536, .i32⟩
  | 31 => ⟨S1x65536, .i32⟩
  | 32 => ⟨S65536, .i32⟩
  | 33 => ⟨S_, .i32⟩
  | 34 => ⟨S65536, .i32⟩
  | 35 => ⟨S65536, .i1⟩
  | 36 => ⟨S_, .i32⟩
  | 37 => ⟨S65536, .i32⟩
  | 38 => ⟨S65536, .i32⟩
  | 39 => ⟨S65536, .i32⟩
  | 40 => ⟨S65536x1, .i32⟩
  | 41 => ⟨S65536x128, .f32⟩
  | 42 => ⟨S_, .f32⟩
  | 43 => ⟨S4096x128, .f32⟩
  | 44 => ⟨S65536x1, .i32⟩
  | 45 => ⟨S4096x128, .f32⟩
  | 46 => ⟨S_, .f32⟩
  | 47 => ⟨S65536, .f32⟩
  | 48 => ⟨S_, .f32⟩
  | 49 => ⟨S4096, .f32⟩
  | 50 => ⟨S65536x1, .i32⟩
  | 51 => ⟨S4096, .f32⟩
  | 52 => ⟨S_, .f32⟩
  | 53 => ⟨S4096, .f32⟩
  | 54 => ⟨S4096, .f32⟩
  | 55 => ⟨S4096x1, .f32⟩
  | 56 => ⟨S4096x128, .f32⟩
  | 57 => ⟨S4096x128, .f32⟩
  | 58 => ⟨S128x256, .f32⟩
  | 59 => ⟨S4096x256, .f32⟩
  | 60 => ⟨S1x256, .f32⟩
  | 61 => ⟨S4096x256, .f32⟩
  | 62 => ⟨S4096x256, .f32⟩
  | 63 => ⟨S128x256, .f32⟩
  | 64 => ⟨S4096x256, .f32⟩
  | 65 => ⟨S4096x256, .f32⟩
  | 66 => ⟨S_, .f32⟩
  | 67 => ⟨S4096x256, .f32⟩
  | 68 => ⟨S4096x256, .f32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536x256, .f32⟩
  | 78 => ⟨S_, .f32⟩
  | 79 => ⟨S4096x256, .f32⟩
  | 80 => ⟨S65536x1, .i32⟩
  | 81 => ⟨S4096x256, .f32⟩
  | 82 => ⟨S_, .f32⟩
  | 83 => ⟨S65536, .f32⟩
  | 84 => ⟨S_, .f32⟩
  | 85 => ⟨S4096, .f32⟩
  | 86 => ⟨S65536x1, .i32⟩
  | 87 => ⟨S4096, .f32⟩
  | 88 => ⟨S_, .f32⟩
  | 89 => ⟨S4096, .f32⟩
  | 90 => ⟨S4096, .f32⟩
  | 91 => ⟨S4096x1, .f32⟩
  | 92 => ⟨S4096x256, .f32⟩
  | 93 => ⟨S4096x256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S256x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .i32⟩
  | 106 => ⟨S65536, .i32⟩
  | 107 => ⟨S65536, .i1⟩
  | 108 => ⟨S_, .i32⟩
  | 109 => ⟨S65536, .i32⟩
  | 110 => ⟨S65536, .i32⟩
  | 111 => ⟨S65536, .i32⟩
  | 112 => ⟨S65536x1, .i32⟩
  | 113 => ⟨S65536x256, .f32⟩
  | 114 => ⟨S_, .f32⟩
  | 115 => ⟨S4096x256, .f32⟩
  | 116 => ⟨S65536x1, .i32⟩
  | 117 => ⟨S4096x256, .f32⟩
  | 118 => ⟨S_, .f32⟩
  | 119 => ⟨S65536, .f32⟩
  | 120 => ⟨S_, .f32⟩
  | 121 => ⟨S4096, .f32⟩
  | 122 => ⟨S65536x1, .i32⟩
  | 123 => ⟨S4096, .f32⟩
  | 124 => ⟨S_, .f32⟩
  | 125 => ⟨S4096, .f32⟩
  | 126 => ⟨S4096, .f32⟩
  | 127 => ⟨S4096x1, .f32⟩
  | _ => ⟨S4096x128, .f32⟩

abbrev hbmTy0_1 (i : Nat) : BufTy := match i % 128 with
  | 0 => ⟨S4096x256, .f32⟩
  | 1 => ⟨S4096x256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S256x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S16x256, .f32⟩
  | 15 => ⟨S4096x1, .i32⟩
  | 16 => ⟨S16x256, .f32⟩
  | 17 => ⟨S_, .f32⟩
  | 18 => ⟨S_, .f32⟩
  | 19 => ⟨S_, .f32⟩
  | 20 => ⟨S16x256, .f32⟩
  | 21 => ⟨S16x256, .f32⟩
  | 22 => ⟨S1x256, .f32⟩
  | 23 => ⟨S16x256, .f32⟩
  | 24 => ⟨S16x256, .f32⟩
  | 25 => ⟨S1x256, .f32⟩
  | 26 => ⟨S16x256, .f32⟩
  | 27 => ⟨S16x256, .f32⟩
  | 28 => ⟨S256x256, .f32⟩
  | 29 => ⟨S16x256, .f32⟩
  | 30 => ⟨S1x256, .f32⟩
  | 31 => ⟨S16x256, .f32⟩
  | 32 => ⟨S16x256, .f32⟩
  | 33 => ⟨S256x64, .f32⟩
  | 34 => ⟨S16x64, .f32⟩
  | 35 => ⟨S1x64, .f32⟩
  | 36 => ⟨S16x64, .f32⟩
  | 37 => ⟨S16x64, .f32⟩
  | 38 => ⟨S16x80, .f32⟩
  | 39 => ⟨S80x512, .f32⟩
  | 40 => ⟨S16x512, .f32⟩
  | 41 => ⟨S1x512, .f32⟩
  | 42 => ⟨S16x512, .f32⟩
  | 43 => ⟨S16x512, .f32⟩
  | 44 => ⟨S_, .f32⟩
  | 45 => ⟨S16x512, .f32⟩
  | 46 => ⟨S16x512, .f32⟩
  | 47 => ⟨S512x16384, .f32⟩
  | 48 => ⟨S16x16384, .f32⟩
  | 49 => ⟨S1x16384, .f32⟩
  | 50 => ⟨S16x16384, .f32⟩
  | 51 => ⟨S16x16384, .f32⟩
  | 52 => ⟨S16x128x128, .f32⟩
  | 53 => ⟨S16x128x1x128, .f32⟩
  | 54 => ⟨S16x128x128x128, .f32⟩
  | 55 => ⟨S16x1x128x128, .f32⟩
  | 56 => ⟨S16x128x128x128, .f32⟩
  | 57 => ⟨S16x128x128x256, .f32⟩
  | 58 => ⟨S16x128x128x512, .f32⟩
  | 59 => ⟨S1x1x1x512, .f32⟩
  | 60 => ⟨S16x128x128x512, .f32⟩
  | 61 => ⟨S16x128x128x512, .f32⟩
  | 62 => ⟨S_, .f32⟩
  | 63 => ⟨S16x128x128x512, .f32⟩
  | 64 => ⟨S16x128x128x512, .f32⟩
  | 65 => ⟨S16x128x128x512, .f32⟩
  | 66 => ⟨S1x1x1x512, .f32⟩
  | 67 => ⟨S16x128x128x512, .f32⟩
  | 68 => ⟨S16x128x128x512, .f32⟩
  | 69 => ⟨S_, .f32⟩
  | 70 => ⟨S16x128x128x512, .f32⟩
  | 71 => ⟨S16x128x128x512, .f32⟩
  | 72 => ⟨S16x128x128x1, .f32⟩
  | 73 => ⟨S1x1x1x1, .f32⟩
  | 74 => ⟨S16x128x128x1, .f32⟩
  | 75 => ⟨S16x128x128x1, .f32⟩
  | 76 => ⟨S16x128x128, .f32⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S16x128x128, .i1⟩
  | 84 => ⟨S_, .f32⟩
  | 85 => ⟨S16x128x128, .f32⟩
  | 86 => ⟨S16x128x128, .f32⟩
  | 87 => ⟨S16x128x128, .f32⟩
  | 88 => ⟨S16x128x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call0_cst : Ref sig .tc := ⟨.hbm, 66, rfl⟩
abbrev main_call0_v0 : Ref sig .tc := ⟨.hbm, 67, rfl⟩
abbrev main_v31 : Ref sig .tc := ⟨.hbm, 68, rfl⟩
abbrev main_c_4 : Ref sig .tc := ⟨.hbm, 69, rfl⟩
abbrev main_v32 : Ref sig .tc := ⟨.hbm, 70, rfl⟩
abbrev main_v33 : Ref sig .tc := ⟨.hbm, 71, rfl⟩
abbrev main_c_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_7 : Ref sig .tc := ⟨.hbm, 82, rfl⟩
abbrev main_v42 : Ref sig .tc := ⟨.hbm, 83, rfl⟩
abbrev main_cst_8 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_9 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call1_cst : Ref sig .tc := ⟨.hbm, 102, rfl⟩
abbrev main_call1_v0 : Ref sig .tc := ⟨.hbm, 103, rfl⟩
abbrev main_v59 : Ref sig .tc := ⟨.hbm, 104, rfl⟩
abbrev main_c_10 : Ref sig .tc := ⟨.hbm, 105, rfl⟩
abbrev main_v60 : Ref sig .tc := ⟨.hbm, 106, rfl⟩
abbrev main_v61 : Ref sig .tc := ⟨.hbm, 107, rfl⟩
abbrev main_c_11 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_12 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call2_cst : Ref sig .tc := ⟨.hbm, 138, rfl⟩
abbrev main_call2_v0 : Ref sig .tc := ⟨.hbm, 139, rfl⟩
abbrev main_v87 : Ref sig .tc := ⟨.hbm, 140, rfl⟩
abbrev main_cst_16 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_17 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_call3_cst : Ref sig .tc := ⟨.hbm, 172, rfl⟩
abbrev main_call3_v0 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_call4_cst : Ref sig .tc := ⟨.hbm, 190, rfl⟩
abbrev main_call4_v0 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_call5_cst : Ref sig .tc := ⟨.hbm, 197, rfl⟩
abbrev main_call5_v0 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_call6_v0 : Ref sig .tc := ⟨.hbm, 205, rfl⟩
abbrev main_call6_c : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_cst : Ref sig .tc := ⟨.hbm, 212, rfl⟩
abbrev main_call6_v6 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S256x128_S128x256_1_0 : S256x128.Transposes [1, 0] S128x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  transposes_S256x256_S256x256_1_0 : S256x256.Transposes [1, 0] S256x256
  bcast_S_S16x256 : S_.BroadcastsInDim S16x256 (![] : Fin 0 → Fin S16x256.rank)
  bcast_S1x256_S16x256_0_1 : S1x256.BroadcastsInDim S16x256 (![0, 1] : Fin 2 → Fin S16x256.rank)
  transposes_S64x256_S256x64_1_0 : S64x256.Transposes [1, 0] S256x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  concatenates_S16x64_S16x16_S16x80_d1 : Shape.Concatenates [S16x64, S16x16] S16x80 1
  transposes_S512x80_S80x512_1_0 : S512x80.Transposes [1, 0] S80x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  transposes_S16384x512_S512x16384_1_0 : S16384x512.Transposes [1, 0] S512x16384
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  shapeCasts_S16x16384_S16x128x128 : S16x16384.ShapeCasts S16x128x128
  bcast_S16x128x128_S16x128x1x128_0_1_3 : S16x128x128.BroadcastsInDim S16x128x1x128 (![0, 1, 3] : Fin 3 → Fin S16x128x1x128.rank)
  bcast_S16x128x1x128_S16x128x128x128_0_1_2_3 : S16x128x1x128.BroadcastsInDim S16x128x128x128 (![0, 1, 2, 3] : Fin 4 → Fin S16x128x128x128.rank)
  bcast_S16x128x128_S16x1x128x128_0_2_3 : S16x128x128.BroadcastsInDim S16x1x128x128 (![0, 2, 3] : Fin 3 → Fin S16x1x128x128.rank)
  bcast_S16x1x128x128_S16x128x128x128_0_1_2_3 : S16x1x128x128.BroadcastsInDim S16x128x128x128 (![0, 1, 2, 3] : Fin 4 → Fin S16x128x128x128.rank)
  concatenates_S16x128x128x128_S16x128x128x128_S16x128x128x256_d3 : Shape.Concatenates [S16x128x128x128, S16x128x128x128] S16x128x128x256 3
  bcast_S512_S1x1x1x512_3 : S512.BroadcastsInDim S1x1x1x512 (![3] : Fin 1 → Fin S1x1x1x512.rank)
  bcast_S1x1x1x512_S16x128x128x512_0_1_2_3 : S1x1x1x512.BroadcastsInDim S16x128x128x512 (![0, 1, 2, 3] : Fin 4 → Fin S16x128x128x512.rank)
  bcast_S_S16x128x128x512 : S_.BroadcastsInDim S16x128x128x512 (![] : Fin 0 → Fin S16x128x128x512.rank)
  bcast_S1_S1x1x1x1_3 : S1.BroadcastsInDim S1x1x1x1 (![3] : Fin 1 → Fin S1x1x1x1.rank)
  bcast_S1x1x1x1_S16x128x128x1_0_1_2_3 : S1x1x1x1.BroadcastsInDim S16x128x128x1 (![0, 1, 2, 3] : Fin 4 → Fin S16x128x128x1.rank)
  shapeCasts_S16x128x128x1_S16x128x128 : S16x128x128x1.ShapeCasts S16x128x128
  bcast_S_S128x128 : S_.BroadcastsInDim S128x128 (![] : Fin 0 → Fin S128x128.rank)
  bcast_S128x128_S16x128x128_1_2 : S128x128.BroadcastsInDim S16x128x128 (![1, 2] : Fin 2 → Fin S16x128x128.rank)
  bcast_S_S16x128x128 : S_.BroadcastsInDim S16x128x128 (![] : Fin 0 → Fin S16x128x128.rank)
  transposes_S16x128x128_S16x128x128_0_2_1 : S16x128x128.Transposes [0, 2, 1] S16x128x128
  gather_S4096x128_S65536x1_S65536x128_1_0_n_n_0_1_1128_wf : GatherDims.WF S4096x128 S65536x1 S65536x128 [1] [0] [] [0] [] 1 ![1, 128]
  scatter_S4096x128_S65536x1_S65536x128_1_0_0_1_wf : ScatterDims.WF S4096x128 S65536x1 S65536x128 [1] [0] [0] 1
  scatter_S4096_S65536x1_S65536_n_0_0_1_wf : ScatterDims.WF S4096 S65536x1 S65536 [] [0] [0] 1
  dot_S4096x128_S128x256_S4096x256_1_0_0_1_n_n_wf : DotDims.WF S4096x128 S128x256 S4096x256 [1] [0] [0] [1] [] []
  gather_S4096x256_S65536x1_S65536x256_1_0_n_n_0_1_1256_wf : GatherDims.WF S4096x256 S65536x1 S65536x256 [1] [0] [] [0] [] 1 ![1, 256]
  scatter_S4096x256_S65536x1_S65536x256_1_0_0_1_wf : ScatterDims.WF S4096x256 S65536x1 S65536x256 [1] [0] [0] 1
  dot_S4096x256_S256x256_S4096x256_1_0_0_1_n_n_wf : DotDims.WF S4096x256 S256x256 S4096x256 [1] [0] [0] [1] [] []
  scatter_S16x256_S4096x1_S4096x256_1_0_0_1_wf : ScatterDims.WF S16x256 S4096x1 S4096x256 [1] [0] [0] 1
  dot_S16x256_S256x256_S16x256_1_0_0_1_n_n_wf : DotDims.WF S16x256 S256x256 S16x256 [1] [0] [0] [1] [] []
  dot_S16x256_S256x64_S16x64_1_0_0_1_n_n_wf : DotDims.WF S16x256 S256x64 S16x64 [1] [0] [0] [1] [] []
  dot_S16x80_S80x512_S16x512_1_0_0_1_n_n_wf : DotDims.WF S16x80 S80x512 S16x512 [1] [0] [0] [1] [] []
  dot_S16x512_S512x16384_S16x16384_1_0_0_1_n_n_wf : DotDims.WF S16x512 S512x16384 S16x16384 [1] [0] [0] [1] [] []
  dot_S16x128x128x256_S512x256_S16x128x128x512_3_1_012_0_n_n_wf : DotDims.WF S16x128x128x256 S512x256 S16x128x128x512 [3] [1] [0, 1, 2] [0] [] []
  dot_S16x128x128x512_S512x512_S16x128x128x512_3_1_012_0_n_n_wf : DotDims.WF S16x128x128x512 S512x512 S16x128x128x512 [3] [1] [0, 1, 2] [0] [] []
  dot_S16x128x128x512_S1x512_S16x128x128x1_3_1_012_0_n_n_wf : DotDims.WF S16x128x128x512 S1x512 S16x128x128x1 [3] [1] [0, 1, 2] [0] [] []

variable [Facts₀]

def gather_S4096x128_S65536x1_S65536x128_1_0_n_n_0_1_1128 : GatherDims S4096x128 S65536x1 S65536x128 where
  offsetDims := [1]
  collapsedSliceDims := [0]
  operandBatchingDims := []
  startIndicesBatchingDims := []
  startIndexMap := [0]
  indexVectorDim := 1
  sliceSizes := ![1, 128]
  wf := gather_S4096x128_S65536x1_S65536x128_1_0_n_n_0_1_1128_wf
def scatter_S4096x128_S65536x1_S65536x128_1_0_0_1 : ScatterDims S4096x128 S65536x1 S65536x128 where
  updateWindowDims := [1]
  insertedWindowDims := [0]
  scatterDimsToOperandDims := [0]
  indexVectorDim := 1
  wf := scatter_S4096x128_S65536x1_S65536x128_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S4096x256_S65536x1_S65536x256_1_0_0_1 : ScatterDims S4096x256 S65536x1 S65536x256 where
  updateWindowDims := [1]
  insertedWindowDims := [0]
  scatterDimsToOperandDims := [0]
  indexVectorDim := 1
  wf := scatter_S4096x256_S65536x1_S65536x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S16x256_S4096x1_S4096x256_1_0_0_1 : ScatterDims S16x256 S4096x1 S4096x256 where
  updateWindowDims := [1]
  insertedWindowDims := [0]
  scatterDimsToOperandDims := [0]
  indexVectorDim := 1
  wf := scatter_S16x256_S4096x1_S4096x256_1_0_0_1_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x80_S80x512_S16x512_1_0_0_1_n_n : DotDims S16x80 S80x512 S16x512 where
  lhsContracting := [1]
  rhsContracting := [0]
  lhsNonContracting := [0]
  rhsNonContracting := [1]
  lhsBatch := []
  rhsBatch := []
  wf := dot_S16x80_S80x512_S16x512_1_0_0_1_n_n_wf
def dot_S16x512_S512x16384_S16x16384_1_0_0_1_n_n : DotDims S16x512 S512x16384 S16x16384 where
  lhsContracting := [1]
  rhsContracting := [0]
  lhsNonContracting := [0]
  rhsNonContracting := [1]
  lhsBatch := []
  rhsBatch := []
  wf := dot_S16x512_S512x16384_S16x16384_1_0_0_1_n_n_wf
def dot_S16x128x128x256_S512x256_S16x128x128x512_3_1_012_0_n_n : DotDims S16x128x128x256 S512x256 S16x128x128x512 where
  lhsContracting := [3]
  rhsContracting := [1]
  lhsNonContracting := [0, 1, 2]
  rhsNonContracting := [0]
  lhsBatch := []
  rhsBatch := []
  wf := dot_S16x128x128x256_S512x256_S16x128x128x512_3_1_012_0_n_n_wf
def dot_S16x128x128x512_S512x512_S16x128x128x512_3_1_012_0_n_n : DotDims S16x128x128x512 S512x512 S16x128x128x512 where
  lhsContracting := [3]
  rhsContracting := [1]
  lhsNonContracting := [0, 1, 2]
  rhsNonContracting := [0]
  lhsBatch := []
  rhsBatch := []
  wf := dot_S16x128x128x512_S512x512_S16x128x128x512_3_1_012_0_n_n_wf
def dot_S16x128x128x512_S1x512_S16x128x128x1_3_1_012_0_n_n : DotDims S16x128x128x512 S1x512 S16x128x128x1 where
  lhsContracting := [3]
  rhsContracting := [1]
  lhsNonContracting := [0, 1, 2]
  rhsNonContracting := [0]
  lhsBatch := []
  rhsBatch := []
  wf := dot_S16x128x128x512_S1x512_S16x128x128x1_3_1_012_0_n_n_wf

class Facts : Prop extends Facts₀ where

variable [Facts]
-- ==== Proof.BodyOps.lean ====
/-
  The layout steps of the edge network's block computation, read at an index.

  A 512 × 16 block holds, in column r, the first-layer contribution of the r-th query node of a tile; the block
  computation cuts that column out, repeats it along 128 lanes, and adds it to a 512 × 128 block that holds the
  contribution of every key node.  A 512 × 1 column of biases is repeated along the lanes in the same way, a 1 × 1
  bias along a row.  The second layer's 512 × 2048 result is cut into sixteen 512 × 128 panels, panel r holding the
  pairs of query node r, and each one-row product with the last layer's weights is re-laid as row r of a 1 × 16 × 128
  output block.  Each lemma says which entry of its operand such a step reads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.BodyOps

open Idealize.ShloMosaic Idealize.ShloMosaic.ValueIdx

variable {α : Type}

/-- Column r of a 512 × 16 block, repeated along 128 lanes, at (h, j): the block at (h, r). -/
theorem colRepeat_apply (r : ℕ) (hr : r < 16) (x : (⟨2, ![512, 16]⟩ : Shape).Idx → α)
    (hs : (⟨2, ![512, 16]⟩ : Shape).Slices ![0, r] ⟨2, ![512, 1]⟩)
    (hb : (⟨2, ![512, 1]⟩ : Shape).Broadcasts ⟨2, ![512, 128]⟩) (h : Fin 512) (j : Fin 128) :
    broadcastTo ⟨2, ![512, 128]⟩ (extractStridedSlice ⟨2, ![512, 1]⟩ ![0, r] x hs) hb (ix2 h j) = x (ix2 h ⟨r, hr⟩) := by
  rw [broadcastTo_apply _ hb (ix2 h j) (ix2 h (0 : Fin 1)) (fun a => by
    match a with
    | ⟨0, _⟩ => show h.val = if (512 : ℕ) = 1 then 0 else h.val; rw [if_neg (by decide)]
    | ⟨1, _⟩ => show 0 = if (1 : ℕ) = 1 then 0 else j.val; rw [if_pos rfl])]
  exact extractStridedSlice_apply _ _ hs (ix2 h (0 : Fin 1)) (ix2 h ⟨r, hr⟩) (fun a => by
    match a with
    | ⟨0, _⟩ => show h.val = 0 + h.val; omega
    | ⟨1, _⟩ => show r = r + 0; omega)

/-- A 512 × 1 column repeated along n lanes, at (h, j): the column at (h, 0). -/
theorem biasCol_apply {n : ℕ} (x : (⟨2, ![512, 1]⟩ : Shape).Idx → α)
    (hb : (⟨2, ![512, 1]⟩ : Shape).Broadcasts ⟨2, ![512, n]⟩) (h : Fin 512) (j : Fin n) :
    broadcastTo ⟨2, ![512, n]⟩ x hb (ix2 h j) = x (ix2 h (0 : Fin 1)) :=
  broadcastTo_apply _ hb (ix2 h j) (ix2 h (0 : Fin 1)) (fun a => by
    match a with
    | ⟨0, _⟩ => show h.val = if (512 : ℕ) = 1 then 0 else h.val; rw [if_neg (by decide)]
    | ⟨1, _⟩ => show 0 = if (1 : ℕ) = 1 then 0 else j.val; rw [if_pos rfl])

/-- A 1 × 1 entry repeated along a row of 128, at (0, j): the entry. -/
theorem biasRow_apply (x : (⟨2, ![1, 1]⟩ : Shape).Idx → α)
    (hb : (⟨2, ![1, 1]⟩ : Shape).Broadcasts ⟨2, ![1, 128]⟩) (j : Fin 128) :
    broadcastTo ⟨2, ![1, 128]⟩ x hb (ix2 (0 : Fin 1) j) = x (ix2 (0 : Fin 1) (0 : Fin 1)) :=
  broadcastTo_apply _ hb (ix2 (0 : Fin 1) j) (ix2 (0 : Fin 1) (0 : Fin 1)) (fun a => by
    match a with
    | ⟨0, _⟩ => show 0 = if (1 : ℕ) = 1 then 0 else 0; rw [if_pos rfl]
    | ⟨1, _⟩ => show 0 = if (1 : ℕ) = 1 then 0 else j.val; rw [if_pos rfl])

/-- Panel o, …, o + 127 of a 512 × 2048 block, at (g, j): the block at (g, o + j). -/
theorem panel_apply (o : ℕ) (x : (⟨2, ![512, 2048]⟩ : Shape).Idx → α)
    (hs : (⟨2, ![512, 2048]⟩ : Shape).Slices ![0, o] ⟨2, ![512, 128]⟩) (g : Fin 512) (j : Fin 128)
    (hj : o + j.val < 2048) :
    extractStridedSlice ⟨2, ![512, 128]⟩ ![0, o] x hs (ix2 g j) = x (ix2 g ⟨o + j.val, hj⟩) :=
  extractStridedSlice_apply _ _ hs (ix2 g j) (ix2 g ⟨o + j.val, hj⟩) (fun a => by
    match a with
    | ⟨0, _⟩ => show g.val = 0 + g.val; omega
    | ⟨1, _⟩ => rfl)

/-- A 1 × 128 row flattened and re-laid as a 1 × 1 × 128 block, at (0, 0, j): the row at (0, j). -/
theorem rowRelay_apply (y : (⟨2, ![1, 128]⟩ : Shape).Idx → α)
    (h1 : (⟨2, ![1, 128]⟩ : Shape).ShapeCasts ⟨1, ![128]⟩) (h2 : (⟨1, ![128]⟩ : Shape).ShapeCasts ⟨3, ![1, 1, 128]⟩)
    (j : Fin 128) :
    shapeCast ⟨3, ![1, 1, 128]⟩ (shapeCast ⟨1, ![128]⟩ y h1) h2 (ix3 (0 : Fin 1) (0 : Fin 1) j) = y (ix2 (0 : Fin 1) j) := by
  rw [shapeCast_apply _ h2 (ix3 (0 : Fin 1) (0 : Fin 1) j) (ix1 j) (by
    rw [Shape.rowMajor_val_one, Shape.rowMajor_val_three]
    show j.val = (0 * 1 + 0) * 128 + j.val; omega)]
  exact shapeCast_1a_a_apply y h1 j

/-- A flattened 128-vector re-laid as a 1 × 1 × 128 block, at (0, 0, j): the vector at j. -/
theorem vecRelay_apply (y : (⟨1, ![128]⟩ : Shape).Idx → α) (h2 : (⟨1, ![128]⟩ : Shape).ShapeCasts ⟨3, ![1, 1, 128]⟩)
    (j : Fin 128) :
    shapeCast ⟨3, ![1, 1, 128]⟩ y h2 (ix3 (0 : Fin 1) (0 : Fin 1) j) = y (ix1 j) :=
  shapeCast_apply _ h2 (ix3 (0 : Fin 1) (0 : Fin 1) j) (ix1 j) (by
    rw [Shape.rowMajor_val_one, Shape.rowMajor_val_three]
    show j.val = (0 * 1 + 0) * 128 + j.val; omega)

/-- A 1 × a × b block with its unit axis dropped, then transposed, at (d, r): the block at (0, r, d). -/
theorem dropTranspose_apply {a b : ℕ} (x : (⟨3, ![1, a, b]⟩ : Shape).Idx → α)
    (hc : (⟨3, ![1, a, b]⟩ : Shape).ShapeCasts ⟨2, ![a, b]⟩)
    (ht : (⟨2, ![a, b]⟩ : Shape).Transposes [1, 0] ⟨2, ![b, a]⟩) (d : Fin b) (r : Fin a) :
    transpose ⟨2, ![b, a]⟩ [1, 0] (shapeCast ⟨2, ![a, b]⟩ x hc) ht (ix2 d r) = x (ix3 (0 : Fin 1) r d) := by
  rw [transpose_apply [1, 0] _ ht (ix2 d r) (ix2 r d) (fun q => by
    match q with
    | ⟨0, _⟩ => rfl
    | ⟨1, _⟩ => rfl)]
  exact shapeCast_1ab_ab_apply x hc r d

end Cert.BodyOps

end
-- ==== Proof.LibMatmulZero.lean ====
/-
  A kernel matrix product into a zero accumulator, read at an index.

  The matrix unit's product of an m×k block by a k×n block, contracting the first operand's second axis with the
  second operand's first axis and with no batch axis, accumulated into the all-zero block, read at row `a` and column
  `b` at the exact instance, is the sum over the contracted coordinate `c` of the products of the entries `(a, c)`
  and `(c, b)`: the zero it starts from is the additive unit of the extended reals, and no rounding or chunk order is
  left.  Stated for the record spelt out with its well-formedness evidence as a variable, which is the shape a printed
  program's product records take once unfolded.
-/
import Idealize.ShloMosaic.Lib.ValueIdx
import Idealize.ShloMosaic.Lib.Pipeline.Value
import Idealize.ShloMosaic.PureOps.Ideal.Laws

noncomputable section

namespace Cert.LibMatmulZero

open Idealize.ShloMosaic Idealize.ShloMosaic.ValueIdx

/-- The product of an m×k by a k×n block into the zero block, at `(a, b)`, is `∑ c, A (a, c) * B (c, b)`. -/
theorem matmulZero_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero

end
-- ==== Proof.BodyVals.lean ====
/-
  The edge network's block computation, value by value.

  One grid point holds a tile of 16 query nodes (a 1 × 16 × 128 block of embeddings) and all 128 key nodes of the same
  graph (a 1 × 128 × 128 block, channel-major).  The first layer is computed in two halves: the left half of the
  weights against the transposed query tile, a 512 × 16 block whose column r belongs to query node r, and the right
  half against the key block plus the bias, a 512 × 128 block.  For every query node r the rectified sum of column r,
  repeated along the lanes, and the key block is one 512 × 128 panel; the sixteen panels side by side are the second
  layer's 512 × 2048 operand.  The second layer is one product with the bias repeated along the lanes, rectified; the
  third multiplies the last layer's row of weights with panel r of that result and adds the scalar bias, giving row r
  of the output block.  Each lemma reads one of these values at an entry; narrowing to and widening from the
  half-width format changes no value on the extended reals.
-/
import proofs.«103251_j26508538151540_2_alg».proof.Proof.Gen.KernelIdeal.Skeleton
import proofs.«103251_j26508538151540_2_alg».proof.Proof.BodyOps
import proofs.«103251_j26508538151540_2_alg».proof.Proof.LibMatmulZero

noncomputable section

namespace Cert.KernelIdeal.BodyVals

open Cert.KernelIdeal Cert.KernelIdeal.Gen Idealize.ShloMosaic Idealize.ShloMosaic.ValueIdx Cert.BodyOps

/-- The zero a rectifier compares against, as the all-zero single-precision word. -/
abbrev zw : EReal := Ideal.ofBits .f32 0x00000000#32

/-- The query half of the first layer at (h, r): the left weights' row h against query node r's embedding. -/
theorem ai_apply (v2 : Vec Ideal S512x128 .bf16) (v16 : Vec Ideal S1x16x128 .bf16) (h : Fin 512) (r : Fin 16) :
    k0_pay6 (F := Ideal) v2 v16 (ix2 h r) = ∑ d : Fin 128, v2 (ix2 h d) * v16 (ix3 (0 : Fin 1) r d) := by
  unfold k0_pay6
  simp only [shapeCast_self]
  refine (Cert.LibMatmulZero.matmulZero_nn_apply _ none _ _ h r).trans ?_
  refine Finset.sum_congr rfl fun d _ => ?_
  congr 1
  exact dropTranspose_apply v16 _ _ d r

/-- The key half of the first layer at (h, j): the right weights' row h against key node j's embedding, plus the
    bias of unit h. -/
theorem aj_apply (v0 : Vec Ideal S1x128x128 .bf16) (v4 : Vec Ideal S512x128 .bf16) (v6 : Vec Ideal S512x1 .f32)
    (h : Fin 512) (j : Fin 128) :
    k0_pay7 (F := Ideal) v0 v4 v6 (ix2 h j)
      = (∑ d : Fin 128, v4 (ix2 h d) * v0 (ix3 (0 : Fin 1) d j)) + v6 (ix2 h (0 : Fin 1)) := by
  unfold k0_pay7
  simp only [shapeCast_self]
  refine (addf_apply _ _ _).trans ?_
  refine congrArg₂ (· + ·) ?_ (biasCol_apply v6 _ h j)
  refine (Cert.LibMatmulZero.matmulZero_nn_apply _ none _ _ h j).trans ?_
  refine Finset.sum_congr rfl fun d _ => ?_
  congr 1
  exact shapeCast_1ab_ab_apply v0 _ d j

/-- The common form of a first-layer panel, at (h, j): column r of the query half plus the key half, rectified. -/
theorem slabForm_apply (r : ℕ) (hr : r < 16) (hs : S512x16.Slices ![0, r] S512x1) (hb : S512x1.Broadcasts S512x128)
    (v21 : FVec Ideal S512x16 .f32) (v24 : FVec Ideal S512x128 .f32) (h : Fin 512) (j : Fin 128) :
    (truncf .bf16 (maximumf (addf (broadcastTo S512x128 (extractStridedSlice S512x1 ![0, r] v21 hs) hb) v24)
        (broadcast S512x128 (Scalar.ofBits (F := Ideal) .f32 0x00000000#32))) bitsLt_bf16_f32 : FVec Ideal S512x128 .bf16) (ix2 h j)
      = max (v21 (ix2 h ⟨r, hr⟩) + v24 (ix2 h j)) zw := by
  refine (maximumf_apply _ _ _).trans ?_
  refine congrArg₂ max ?_ rfl
  refine (addf_apply _ _ _).trans ?_
  exact congrArg₂ (· + ·) (colRepeat_apply r hr v21 hs hb h j) rfl

theorem slab1_apply (v21 : FVec Ideal S512x16 .f32) (v24 : FVec Ideal S512x128 .f32) (h : Fin 512) (j : Fin 128) :
    k0_pay10 (F := Ideal) v21 v24 (ix2 h j) = max (v21 (ix2 h ⟨1, by decide⟩) + v24 (ix2 h j)) zw := by
  unfold k0_pay10
  simp only [shapeCast_self]
  exact slabForm_apply 1 (by decide) _ _ v21 v24 h j

theorem slab2_apply (v21 : FVec Ideal S512x16 .f32) (v24 : FVec Ideal S512x128 .f32) (h : Fin 512) (j : Fin 128) :
    k0_pay11 (F := Ideal) v21 v24 (ix2 h j) = max (v21 (ix2 h ⟨2, by decide⟩) + v24 (ix2 h j)) zw := by
  unfold k0_pay11
  simp only [shapeCast_self]
  exact slabForm_apply 2 (by decide) _ _ v21 v24 h j

theorem slab3_apply (v21 : FVec Ideal S512x16 .f32) (v24 : FVec Ideal S512x128 .f32) (h : Fin 512) (j : Fin 128) :
    k0_pay12 (F := Ideal) v21 v24 (ix2 h j) = max (v21 (ix2 h ⟨3, by decide⟩) + v24 (ix2 h j)) zw := by
  unfold k0_pay12
  simp only [shapeCast_self]
  exact slabForm_apply 3 (by decide) _ _ v21 v24 h j

theorem slab4_apply (v21 : FVec Ideal S512x16 .f32) (v24 : FVec Ideal S512x128 .f32) (h : Fin 512) (j : Fin 128) :
    k0_pay13 (F := Ideal) v21 v24 (ix2 h j) = max (v21 (ix2 h ⟨4, by decide⟩) + v24 (ix2 h j)) zw := by
  unfold k0_pay13
  simp only [shapeCast_self]
  exact slabForm_apply 4 (by decide) _ _ v21 v24 h j

theorem slab6_apply (v21 : FVec Ideal S512x16 .f32) (v24 : FVec Ideal S512x128 .f32) (h : Fin 512) (j : Fin 128) :
    k0_pay16 (F := Ideal) v21 v24 (ix2 h j) = max (v21 (ix2 h ⟨6, by decide⟩) + v24 (ix2 h j)) zw := by
  unfold k0_pay16
  simp only [shapeCast_self]
  exact slabForm_apply 6 (by decide) _ _ v21 v24 h j

theorem slab7_apply (v21 : FVec Ideal S512x16 .f32) (v24 : FVec Ideal S512x128 .f32) (h : Fin 512) (j : Fin 128) :
    k0_pay17 (F := Ideal) v21 v24 (ix2 h j) = max (v21 (ix2 h ⟨7, by decide⟩) + v24 (ix2 h j)) zw := by
  unfold k0_pay17
  simp only [shapeCast_self]
  exact slabForm_apply 7 (by decide) _ _ v21 v24 h j

theorem slab8_apply (v21 : FVec Ideal S512x16 .f32) (v24 : FVec Ideal S512x128 .f32) (h : Fin 512) (j : Fin 128) :
    k0_pay18 (F := Ideal) v21 v24 (ix2 h j) = max (v21 (ix2 h ⟨8, by decide⟩) + v24 (ix2 h j)) zw := by
  unfold k0_pay18
  simp only [shapeCast_self]
  exact slabForm_apply 8 (by decide) _ _ v21 v24 h j

theorem slab10_apply (v21 : FVec Ideal S512x16 .f32) (v24 : FVec Ideal S512x128 .f32) (h : Fin 512) (j : Fin 128) :
    k0_pay21 (F := Ideal) v21 v24 (ix2 h j) = max (v21 (ix2 h ⟨10, by decide⟩) + v24 (ix2 h j)) zw := by
  unfold k0_pay21
  simp only [shapeCast_self]
  exact slabForm_apply 10 (by decide) _ _ v21 v24 h j

theorem slab11_apply (v21 : FVec Ideal S512x16 .f32) (v24 : FVec Ideal S512x128 .f32) (h : Fin 512) (j : Fin 128) :
    k0_pay22 (F := Ideal) v21 v24 (ix2 h j) = max (v21 (ix2 h ⟨11, by decide⟩) + v24 (ix2 h j)) zw := by
  unfold k0_pay22
  simp only [shapeCast_self]
  exact slabForm_apply 11 (by decide) _ _ v21 v24 h j

theorem slab12_apply (v21 : FVec Ideal S512x16 .f32) (v24 : FVec Ideal S512x128 .f32) (h : Fin 512) (j : Fin 128) :
    k0_pay23 (F := Ideal) v21 v24 (ix2 h j) = max (v21 (ix2 h ⟨12, by decide⟩) + v24 (ix2 h j)) zw := by
  unfold k0_pay23
  simp only [shapeCast_self]
  exact slabForm_apply 12 (by decide) _ _ v21 v24 h j

theorem slab14_apply (v21 : FVec Ideal S512x16 .f32) (v24 : FVec Ideal S512x128 .f32) (h : Fin 512) (j : Fin 128) :
    k0_pay26 (F := Ideal) v21 v24 (ix2 h j) = max (v21 (ix2 h ⟨14, by decide⟩) + v24 (ix2 h j)) zw := by
  unfold k0_pay26
  simp only [shapeCast_self]
  exact slabForm_apply 14 (by decide) _ _ v21 v24 h j

theorem slab15_apply (v21 : FVec Ideal S512x16 .f32) (v24 : FVec Ideal S512x128 .f32) (h : Fin 512) (j : Fin 128) :
    k0_pay27 (F := Ideal) v21 v24 (ix2 h j) = max (v21 (ix2 h ⟨15, by decide⟩) + v24 (ix2 h j)) zw := by
  unfold k0_pay27
  simp only [shapeCast_self]
  exact slabForm_apply 15 (by decide) _ _ v21 v24 h j

/-- Panel 0 is computed from the loaded blocks directly. -/
theorem slab0_apply (v0 : Vec Ideal S1x128x128 .bf16) (v2 v4 : Vec Ideal S512x128 .bf16) (v6 : Vec Ideal S512x1 .f32)
    (v16 : Vec Ideal S1x16x128 .bf16) (h : Fin 512) (j : Fin 128) :
    k0_pay9 (F := Ideal) (k0_pay8 v0 v2 v4 v6 v16) (ix2 h j)
      = max (k0_pay6 (F := Ideal) v2 v16 (ix2 h ⟨0, by decide⟩) + k0_pay7 (F := Ideal) v0 v4 v6 (ix2 h j)) zw := by
  unfold k0_pay9 k0_pay8
  simp only [shapeCast_self]
  exact slabForm_apply 0 (by decide) _ _ _ _ h j

/-- Panel 5: its column is cut in one step and used in the next. -/
theorem slab5_apply (v21 : FVec Ideal S512x16 .f32) (v24 : FVec Ideal S512x128 .f32) (h : Fin 512) (j : Fin 128) :
    k0_pay15 (F := Ideal) v24 (k0_pay14 v21) (ix2 h j) = max (v21 (ix2 h ⟨5, by decide⟩) + v24 (ix2 h j)) zw := by
  unfold k0_pay15 k0_pay14
  simp only [shapeCast_self]
  exact slabForm_apply 5 (by decide) _ _ v21 v24 h j

/-- Panel 9: the sum is formed in one step and rectified in the next. -/
theorem slab9_apply (v21 : FVec Ideal S512x16 .f32) (v24 : FVec Ideal S512x128 .f32) (h : Fin 512) (j : Fin 128) :
    k0_pay20 (F := Ideal) (k0_pay19 v21 v24) (FloatOps.ofBits .f32 0#32) (ix2 h j)
      = max (v21 (ix2 h ⟨9, by decide⟩) + v24 (ix2 h j)) zw := by
  unfold k0_pay20 k0_pay19
  simp only [shapeCast_self]
  exact slabForm_apply 9 (by decide) _ _ v21 v24 h j

/-- Panel 13: computed in one step and stored in the next. -/
theorem slab13_apply (v21 : FVec Ideal S512x16 .f32) (v24 : FVec Ideal S512x128 .f32) (h : Fin 512) (j : Fin 128) :
    k0_pay25 (F := Ideal) (k0_pay24 v21 v24) (ix2 h j) = max (v21 (ix2 h ⟨13, by decide⟩) + v24 (ix2 h j)) zw := by
  unfold k0_pay25 k0_pay24
  simp only [shapeCast_self]
  exact slabForm_apply 13 (by decide) _ _ v21 v24 h j

/-- The second layer at (g, col): row g of its weights against column col of the panels, plus the bias, rectified. -/
theorem h2_apply (v9 : FVec Ideal S512x512 .bf16) (v11 : FVec Ideal S512x1 .f32) (v185 : Vec Ideal S512x2048 .bf16)
    (g : Fin 512) (col : Fin 2048) :
    k0_pay28 (F := Ideal) v9 v11 v185 (ix2 g col)
      = max ((∑ h : Fin 512, v9 (ix2 g h) * v185 (ix2 h col)) + v11 (ix2 g (0 : Fin 1))) zw := by
  unfold k0_pay28
  refine (maximumf_apply _ _ _).trans ?_
  refine congrArg₂ max ?_ rfl
  refine (addf_apply _ _ _).trans ?_
  exact congrArg₂ (· + ·) (Cert.LibMatmulZero.matmulZero_nn_apply _ none _ _ g col) (biasCol_apply v11 _ g col)

/-- The common form of an output row, at lane j: the last layer's weights against column o + j of the second
    layer's result, plus the scalar bias. -/
theorem rowForm_apply (o : ℕ) (hs : S512x2048.Slices ![0, o] S512x128) (hb : S1x1.Broadcasts S1x128)
    (h1 : S1x128.ShapeCasts S128) (h2 : S128.ShapeCasts S1x1x128)
    (v13 : FVec Ideal S1x512 .bf16) (v15 : FVec Ideal S1x1 .f32) (v191 : FVec Ideal S512x2048 .bf16) (j : Fin 128)
    (hj : o + j.val < 2048) :
    shapeCast S1x1x128 (shapeCast S128 (addf
        (matmul dot_S1x512_S512x128_S1x128_1_0_0_1_n_n none v13 (extractStridedSlice S512x128 ![0, o] v191 hs)
          (constant (F := Ideal) S1x128 .f32 0x00000000#32))
        (broadcastTo S1x128 v15 hb)) h1) h2 (ix3 (0 : Fin 1) (0 : Fin 1) j)
      = (∑ g : Fin 512, v13 (ix2 (0 : Fin 1) g) * v191 (ix2 g ⟨o + j.val, hj⟩)) + v15 (ix2 (0 : Fin 1) (0 : Fin 1)) := by
  refine (rowRelay_apply _ h1 h2 j).trans ?_
  refine (addf_apply _ _ _).trans ?_
  refine congrArg₂ (· + ·) ?_ (biasRow_apply v15 hb j)
  refine (Cert.LibMatmulZero.matmulZero_nn_apply _ none _ _ (0 : Fin 1) j).trans ?_
  refine Finset.sum_congr rfl fun g _ => ?_
  congr 1
  exact panel_apply o v191 hs g j hj

theorem row2_apply (v13 : FVec Ideal S1x512 .bf16) (v15 : FVec Ideal S1x1 .f32) (v191 : FVec Ideal S512x2048 .bf16) (j : Fin 128) :
    k0_pay32 (F := Ideal) v13 v15 v191 (ix3 (0 : Fin 1) (0 : Fin 1) j)
      = (∑ g : Fin 512, v13 (ix2 (0 : Fin 1) g) * v191 (ix2 g ⟨256 + j.val, by have := j.isLt; omega⟩)) + v15 (ix2 (0 : Fin 1) (0 : Fin 1)) := by
  unfold k0_pay32
  exact rowForm_apply 256 _ _ _ _ v13 v15 v191 j _

theorem row3_apply (v13 : FVec Ideal S1x512 .bf16) (v15 : FVec Ideal S1x1 .f32) (v191 : FVec Ideal S512x2048 .bf16) (j : Fin 128) :
    k0_pay33 (F := Ideal) v13 v15 v191 (ix3 (0 : Fin 1) (0 : Fin 1) j)
      = (∑ g : Fin 512, v13 (ix2 (0 : Fin 1) g) * v191 (ix2 g ⟨384 + j.val, by have := j.isLt; omega⟩)) + v15 (ix2 (0 : Fin 1) (0 : Fin 1)) := by
  unfold k0_pay33
  exact rowForm_apply 384 _ _ _ _ v13 v15 v191 j _

theorem row4_apply (v13 : FVec Ideal S1x512 .bf16) (v15 : FVec Ideal S1x1 .f32) (v191 : FVec Ideal S512x2048 .bf16) (j : Fin 128) :
    k0_pay34 (F := Ideal) v13 v15 v191 (ix3 (0 : Fin 1) (0 : Fin 1) j)
      = (∑ g : Fin 512, v13 (ix2 (0 : Fin 1) g) * v191 (ix2 g ⟨512 + j.val, by have := j.isLt; omega⟩)) + v15 (ix2 (0 : Fin 1) (0 : Fin 1)) := by
  unfold k0_pay34
  exact rowForm_apply 512 _ _ _ _ v13 v15 v191 j _

theorem row6_apply (v13 : FVec Ideal S1x512 .bf16) (v15 : FVec Ideal S1x1 .f32) (v191 : FVec Ideal S512x2048 .bf16) (j : Fin 128) :
    k0_pay37 (F := Ideal) v13 v15 v191 (ix3 (0 : Fin 1) (0 : Fin 1) j)
      = (∑ g : Fin 512, v13 (ix2 (0 : Fin 1) g) * v191 (ix2 g ⟨768 + j.val, by have := j.isLt; omega⟩)) + v15 (ix2 (0 : Fin 1) (0 : Fin 1)) := by
  unfold k0_pay37
  exact rowForm_apply 768 _ _ _ _ v13 v15 v191 j _

theorem row7_apply (v13 : FVec Ideal S1x512 .bf16) (v15 : FVec Ideal S1x1 .f32) (v191 : FVec Ideal S512x2048 .bf16) (j : Fin 128) :
    k0_pay38 (F := Ideal) v13 v15 v191 (ix3 (0 : Fin 1) (0 : Fin 1) j)
      = (∑ g : Fin 512, v13 (ix2 (0 : Fin 1) g) * v191 (ix2 g ⟨896 + j.val, by have := j.isLt; omega⟩)) + v15 (ix2 (0 : Fin 1) (0 : Fin 1)) := by
  unfold k0_pay38
  exact rowForm_apply 896 _ _ _ _ v13 v15 v191 j _

theorem row8_apply (v13 : FVec Ideal S1x512 .bf16) (v15 : FVec Ideal S1x1 .f32) (v191 : FVec Ideal S512x2048 .bf16) (j : Fin 128) :
    k0_pay39 (F := Ideal) v13 v15 v191 (ix3 (0 : Fin 1) (0 : Fin 1) j)
      = (∑ g : Fin 512, v13 (ix2 (0 : Fin 1) g) * v191 (ix2 g ⟨1024 + j.val, by have := j.isLt; omega⟩)) + v15 (ix2 (0 : Fin 1) (0 : Fin 1)) := by
  unfold k0_pay39
  exact rowForm_apply 1024 _ _ _ _ v13 v15 v191 j _

theorem row9_apply (v13 : FVec Ideal S1x512 .bf16) (v15 : FVec Ideal S1x1 .f32) (v191 : FVec Ideal S512x2048 .bf16) (j : Fin 128) :
    k0_pay40 (F := Ideal) v13 v15 v191 (ix3 (0 : Fin 1) (0 : Fin 1) j)
      = (∑ g : Fin 512, v13 (ix2 (0 : Fin 1) g) * v191 (ix2 g ⟨1152 + j.val, by have := j.isLt; omega⟩)) + v15 (ix2 (0 : Fin 1) (0 : Fin 1)) := by
  unfold k0_pay40
  exact rowForm_apply 1152 _ _ _ _ v13 v15 v191 j _

theorem row11_apply (v13 : FVec Ideal S1x512 .bf16) (v15 : FVec Ideal S1x1 .f32) (v191 : FVec Ideal S512x2048 .bf16) (j : Fin 128) :
    k0_pay43 (F := Ideal) v13 v15 v191 (ix3 (0 : Fin 1) (0 : Fin 1) j)
      = (∑ g : Fin 512, v13 (ix2 (0 : Fin 1) g) * v191 (ix2 g ⟨1408 + j.val, by have := j.isLt; omega⟩)) + v15 (ix2 (0 : Fin 1) (0 : Fin 1)) := by
  unfold k0_pay43
  exact rowForm_apply 1408 _ _ _ _ v13 v15 v191 j _

theorem row12_apply (v13 : FVec Ideal S1x512 .bf16) (v15 : FVec Ideal S1x1 .f32) (v191 : FVec Ideal S512x2048 .bf16) (j : Fin 128) :
    k0_pay44 (F := Ideal) v13 v15 v191 (ix3 (0 : Fin 1) (0 : Fin 1) j)
      = (∑ g : Fin 512, v13 (ix2 (0 : Fin 1) g) * v191 (ix2 g ⟨1536 + j.val, by have := j.isLt; omega⟩)) + v15 (ix2 (0 : Fin 1) (0 : Fin 1)) := by
  unfold k0_pay44
  exact rowForm_apply 1536 _ _ _ _ v13 v15 v191 j _

theorem row13_apply (v13 : FVec Ideal S1x512 .bf16) (v15 : FVec Ideal S1x1 .f32) (v191 : FVec Ideal S512x2048 .bf16) (j : Fin 128) :
    k0_pay45 (F := Ideal) v13 v15 v191 (ix3 (0 : Fin 1) (0 : Fin 1) j)
      = (∑ g : Fin 512, v13 (ix2 (0 : Fin 1) g) * v191 (ix2 g ⟨1664 + j.val, by have := j.isLt; omega⟩)) + v15 (ix2 (0 : Fin 1) (0 : Fin 1)) := by
  unfold k0_pay45
  exact rowForm_apply 1664 _ _ _ _ v13 v15 v191 j _

theorem row14_apply (v13 : FVec Ideal S1x512 .bf16) (v15 : FVec Ideal S1x1 .f32) (v191 : FVec Ideal S512x2048 .bf16) (j : Fin 128) :
    k0_pay46 (F := Ideal) v13 v15 v191 (ix3 (0 : Fin 1) (0 : Fin 1) j)
      = (∑ g : Fin 512, v13 (ix2 (0 : Fin 1) g) * v191 (ix2 g ⟨1792 + j.val, by have := j.isLt; omega⟩)) + v15 (ix2 (0 : Fin 1) (0 : Fin 1)) := by
  unfold k0_pay46
  exact rowForm_apply 1792 _ _ _ _ v13 v15 v191 j _

/-- Row 0 cuts its panel from the second layer's result where it is formed. -/
theorem row0_apply (v9 : FVec Ideal S512x512 .bf16) (v11 : FVec Ideal S512x1 .f32) (v13 : FVec Ideal S1x512 .bf16)
    (v15 : FVec Ideal S1x1 .f32) (v185 : Vec Ideal S512x2048 .bf16) (j : Fin 128) :
    k0_pay29 (F := Ideal) v9 v11 v13 v15 v185 (ix3 (0 : Fin 1) (0 : Fin 1) j)
      = (∑ g : Fin 512, v13 (ix2 (0 : Fin 1) g) * k0_pay28 (F := Ideal) v9 v11 v185 (ix2 g ⟨0 + j.val, by have := j.isLt; omega⟩))
        + v15 (ix2 (0 : Fin 1) (0 : Fin 1)) := by
  unfold k0_pay29
  exact rowForm_apply 0 _ _ _ _ v13 v15 (k0_pay28 (F := Ideal) v9 v11 v185) j _

/-- Row 1: the product is formed in one step, the bias added and the row re-laid in the next. -/
theorem row1_apply (v9 : FVec Ideal S512x512 .bf16) (v11 : FVec Ideal S512x1 .f32) (v13 : FVec Ideal S1x512 .bf16)
    (v15 : FVec Ideal S1x1 .f32) (v185 : Vec Ideal S512x2048 .bf16) (j : Fin 128) :
    k0_pay31 (F := Ideal) v15 (k0_pay30 v9 v11 v13 v185) (ix3 (0 : Fin 1) (0 : Fin 1) j)
      = (∑ g : Fin 512, v13 (ix2 (0 : Fin 1) g) * k0_pay28 (F := Ideal) v9 v11 v185 (ix2 g ⟨128 + j.val, by have := j.isLt; omega⟩))
        + v15 (ix2 (0 : Fin 1) (0 : Fin 1)) := by
  unfold k0_pay31 k0_pay30
  exact rowForm_apply 128 _ _ _ _ v13 v15 (k0_pay28 (F := Ideal) v9 v11 v185) j _

/-- Row 5: flattened in one step, re-laid in the next. -/
theorem row5_apply (v13 : FVec Ideal S1x512 .bf16) (v15 : FVec Ideal S1x1 .f32) (v191 : FVec Ideal S512x2048 .bf16) (j : Fin 128) :
    k0_pay36 (F := Ideal) (k0_pay35 v13 v15 v191) (ix3 (0 : Fin 1) (0 : Fin 1) j)
      = (∑ g : Fin 512, v13 (ix2 (0 : Fin 1) g) * v191 (ix2 g ⟨640 + j.val, by have := j.isLt; omega⟩)) + v15 (ix2 (0 : Fin 1) (0 : Fin 1)) := by
  unfold k0_pay36 k0_pay35
  exact rowForm_apply 640 _ _ _ _ v13 v15 v191 j _

/-- Row 10: flattened in one step, re-laid in the next. -/
theorem row10_apply (v13 : FVec Ideal S1x512 .bf16) (v15 : FVec Ideal S1x1 .f32) (v191 : FVec Ideal S512x2048 .bf16) (j : Fin 128) :
    k0_pay42 (F := Ideal) (k0_pay41 v13 v15 v191) (ix3 (0 : Fin 1) (0 : Fin 1) j)
      = (∑ g : Fin 512, v13 (ix2 (0 : Fin 1) g) * v191 (ix2 g ⟨1280 + j.val, by have := j.isLt; omega⟩)) + v15 (ix2 (0 : Fin 1) (0 : Fin 1)) := by
  unfold k0_pay42 k0_pay41
  exact rowForm_apply 1280 _ _ _ _ v13 v15 v191 j _

/-- Row 15: its panel is cut in one step and multiplied in the next. -/
theorem row15_apply (v13 : FVec Ideal S1x512 .bf16) (v15 : FVec Ideal S1x1 .f32) (v191 : FVec Ideal S512x2048 .bf16) (j : Fin 128) :
    k0_pay1 (F := Ideal) v13 v15 (k0_pay47 v191) (ix3 (0 : Fin 1) (0 : Fin 1) j)
      = (∑ g : Fin 512, v13 (ix2 (0 : Fin 1) g) * v191 (ix2 g ⟨1920 + j.val, by have := j.isLt; omega⟩)) + v15 (ix2 (0 : Fin 1) (0 : Fin 1)) := by
  unfold k0_pay1 k0_pay47
  exact rowForm_apply 1920 _ _ _ _ v13 v15 v191 j _

/-! ## The block computation as one function of its loaded blocks -/

/-- The second layer's result for hidden unit g, query node k of the tile and key node jj. -/
def hidden2 (x0 : Vec Ideal S1x16x128 .bf16) (x1 : Vec Ideal S1x128x128 .bf16) (x2 x3 : Vec Ideal S512x128 .bf16)
    (x4 : Vec Ideal S512x1 .f32) (x5 : Vec Ideal S512x512 .bf16) (x6 : Vec Ideal S512x1 .f32)
    (g : Fin 512) (k : Fin 16) (jj : Fin 128) : EReal :=
  max ((∑ h : Fin 512, x5 (ix2 g h) * max (k0_pay6 (F := Ideal) x2 x0 (ix2 h k) + k0_pay7 (F := Ideal) x1 x3 x4 (ix2 h jj)) zw)
    + x6 (ix2 g (0 : Fin 1))) zw

/-- What a grid point computes for query node r of its tile and key node j. -/
def blockLogit (x0 : Vec Ideal S1x16x128 .bf16) (x1 : Vec Ideal S1x128x128 .bf16) (x2 x3 : Vec Ideal S512x128 .bf16)
    (x4 : Vec Ideal S512x1 .f32) (x5 : Vec Ideal S512x512 .bf16) (x6 : Vec Ideal S512x1 .f32)
    (x7 : Vec Ideal S1x512 .bf16) (x8 : Vec Ideal S1x1 .f32) (r : Fin 16) (j : Fin 128) : EReal :=
  (∑ g : Fin 512, x7 (ix2 (0 : Fin 1) g) * hidden2 x0 x1 x2 x3 x4 x5 x6 g r j) + x8 (ix2 (0 : Fin 1) (0 : Fin 1))

end Cert.KernelIdeal.BodyVals

end
-- ==== Proof.BodyRun.lean ====
/-
  What one grid point of the edge network leaves in its output block.

  The block computation writes the sixteen first-layer panels side by side into a 512 × 2048 work area, reads the
  whole area back, applies the second layer to it at once, and writes the sixteen rows of its 1 × 16 × 128 output
  block one after the other.  Read back, the work area is ONE function of its index: column 128 r + j of row h is
  the rectified sum of the query half at (h, r) and the key half at (h, j).  And the output block is one function
  of its index: entry (0, r, j) is the three-layer network applied to query node r of the tile and key node j.
-/
import proofs.«103251_j26508538151540_2_alg».proof.Proof.Gen.KernelIdeal.Frame
import proofs.«103251_j26508538151540_2_alg».proof.Proof.BodyVals

set_option maxRecDepth 16384

noncomputable section

namespace Cert.KernelIdeal.BodyRun

open Cert.KernelIdeal Cert.KernelIdeal.Gen Idealize.ShloMosaic Idealize.ShloMosaic.TcCoe Idealize.ShloMosaic.Tactic
open Idealize.ShloMosaic.ValueIdx Idealize.SL.Sem
open Cert.KernelIdeal.BodyVals (zw hidden2 blockLogit)

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## The loaded blocks -/

theorem r_eq (c : Dev nD) (arg7 : Memref sig .tc .vmem S512x512 .bf16) (harg7 : arg7.IsWhole) (x5 : Vec Ideal S512x512 .bf16) : kernelRun0_A.sl.r (F := Ideal) c arg7 harg7 x5 = x5 := by
  unfold kernelRun0_A.sl.r k0_pay2
  simp only [View.readAt_eq_ld, harg7.read_unread, View.ld_unit_zero (S := S512x512) hz2, shapeCast_self]

theorem r1_eq (c : Dev nD) (arg8 : Memref sig .tc .vmem S512x1 .f32) (harg8 : arg8.IsWhole) (x6 : Vec Ideal S512x1 .f32) : kernelRun0_A.sl.r_1 (F := Ideal) c arg8 harg8 x6 = x6 := by
  unfold kernelRun0_A.sl.r_1 k0_pay3
  simp only [View.readAt_eq_ld, harg8.read_unread, View.ld_unit_zero (S := S512x1) hz2, shapeCast_self]

theorem r2_eq (c : Dev nD) (arg9 : Memref sig .tc .vmem S1x512 .bf16) (harg9 : arg9.IsWhole) (x7 : Vec Ideal S1x512 .bf16) : kernelRun0_A.sl.r_2 (F := Ideal) c arg9 harg9 x7 = x7 := by
  unfold kernelRun0_A.sl.r_2 k0_pay4
  simp only [View.readAt_eq_ld, harg9.read_unread, View.ld_unit_zero (S := S1x512) hz2, shapeCast_self]

theorem r3_eq (c : Dev nD) (arg10 : Memref sig .tc .vmem S1x1 .f32) (harg10 : arg10.IsWhole) (x8 : Vec Ideal S1x1 .f32) : kernelRun0_A.sl.r_3 (F := Ideal) c arg10 harg10 x8 = x8 := by
  unfold kernelRun0_A.sl.r_3 k0_pay5
  simp only [View.readAt_eq_ld, harg10.read_unread, View.ld_unit_zero (S := S1x1) hz2, shapeCast_self]

/-- The query half of the first layer, over the loaded blocks. -/
theorem r4_eq (c : Dev nD) (arg2 : Memref sig .tc .vmem S1x16x128 .bf16) (harg2 : arg2.IsWhole) (arg4 : Memref sig .tc .vmem S512x128 .bf16) (harg4 : arg4.IsWhole) (x0 : Vec Ideal S1x16x128 .bf16) (x2 : Vec Ideal S512x128 .bf16) : kernelRun0_A.sl.r_4 (F := Ideal) c arg2 harg2 arg4 harg4 x0 x2 = k0_pay6 (F := Ideal) x2 x0 := by
  unfold kernelRun0_A.sl.r_4
  simp only [View.readAt_eq_ld, harg2.read_unread, harg4.read_unread, View.ld_unit_zero (S := S512x128) hz2,
    View.ld_unit_zero (S := S1x16x128) hz3]

/-- The key half of the first layer, over the loaded blocks. -/
theorem r5_eq (c : Dev nD) (arg3 : Memref sig .tc .vmem S1x128x128 .bf16) (harg3 : arg3.IsWhole) (arg5 : Memref sig .tc .vmem S512x128 .bf16) (harg5 : arg5.IsWhole) (arg6 : Memref sig .tc .vmem S512x1 .f32) (harg6 : arg6.IsWhole) (x1 : Vec Ideal S1x128x128 .bf16) (x3 : Vec Ideal S512x128 .bf16) (x4 : Vec Ideal S512x1 .f32) : kernelRun0_A.sl.r_5 (F := Ideal) c arg3 harg3 arg5 harg5 arg6 harg6 x1 x3 x4 = k0_pay7 (F := Ideal) x1 x3 x4 := by
  unfold kernelRun0_A.sl.r_5
  simp only [View.readAt_eq_ld, harg3.read_unread, harg5.read_unread, harg6.read_unread, View.ld_unit_zero (S := S512x128) hz2,
    View.ld_unit_zero (S := S512x1) hz2, View.ld_unit_zero (S := S1x128x128) hz3]

/-! ## The work area read back as one function -/

/-- Column q of the work area belongs to query node q / 128 and key node q % 128. -/
def panels (AI : S512x16.Idx → EReal) (AJ : S512x128.Idx → EReal) : S512x2048.Idx → EReal :=
  fun y => max (AI (ix2 (y 0) ⟨(y 1).val / 128, by have h : (y 1).val < 2048 := (y 1).isLt; omega⟩)
      + AJ (ix2 (y 0) ⟨(y 1).val % 128, Nat.mod_lt _ (by decide)⟩)) zw

theorem panels_at (AI : S512x16.Idx → EReal) (AJ : S512x128.Idx → EReal) (o k : ℕ) (ho : o = 128 * k) (hk : k < 16)
    (h : Fin 512) (jj : Fin 128) (hc : o + jj.val < 2048) :
    panels AI AJ (ix2 h ⟨o + jj.val, hc⟩) = max (AI (ix2 h ⟨k, hk⟩) + AJ (ix2 h jj)) zw := by
  subst ho
  unfold panels
  have e1 : (⟨(128 * k + jj.val) / 128, by have := jj.isLt; omega⟩ : Fin 16) = ⟨k, hk⟩ := Fin.ext (by
    show (128 * k + jj.val) / 128 = k; have := jj.isLt; omega)
  have e2 : (⟨(128 * k + jj.val) % 128, Nat.mod_lt _ (by decide)⟩ : Fin 128) = jj := Fin.ext (by
    show (128 * k + jj.val) % 128 = jj.val; have := jj.isLt; omega)
  show max (AI (ix2 h ⟨(128 * k + jj.val) / 128, _⟩) + AJ (ix2 h ⟨(128 * k + jj.val) % 128, _⟩)) zw = _
  rw [e1, e2]

/-- A panel whose entries are the rectified sums for query node k is the block of `panels` its rectangle names. -/
theorem slab_piece (o k : ℕ) (ho : o = 128 * k) (hk : k < 16) (inb : ∀ a, (![0, o] : Fin 2 → ℕ) a + S512x128.size a ≤ S512x2048.size a)
    (P : S512x128.Idx → EReal) (AI : S512x16.Idx → EReal) (AJ : S512x128.Idx → EReal)
    (hP : ∀ (h : Fin 512) (jj : Fin 128), P (ix2 h jj) = max (AI (ix2 h ⟨k, hk⟩) + AJ (ix2 h jj)) zw) :
    ∀ x : (Rect.unit (s := S512x2048) ![0, o] S512x128.size inb).shape.Idx,
      P x = panels AI AJ ((Rect.unit (s := S512x2048) ![0, o] S512x128.size inb).emb x) := by
  intro x
  obtain ⟨h, jj, rfl⟩ : ∃ (h : Fin 512) (jj : Fin 128), x = ix2 h jj := ⟨x 0, x 1, eq_ix2 x⟩
  have hc : o + jj.val < 2048 := by have := jj.isLt; omega
  have he : (Rect.unit (s := S512x2048) ![0, o] S512x128.size inb).emb (ix2 h jj) = ix2 h ⟨o + jj.val, hc⟩ :=
    funext fun a => Fin.ext (by
      match a with
      | ⟨0, _⟩ => show 0 + 1 * h.val = h.val; omega
      | ⟨1, _⟩ => show o + 1 * jj.val = o + jj.val; omega)
  rw [he, panels_at AI AJ o k ho hk h jj hc]
  exact hP h jj

/-- The sixteen panels written into the work area are the blocks of ONE function. -/
theorem workArea_canon (c : Dev nD) (arg2 : Memref sig .tc .vmem S1x16x128 .bf16) (harg2 : arg2.IsWhole) (arg3 : Memref sig .tc .vmem S1x128x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (x0 : Vec Ideal S1x16x128 .bf16) (x1 : Vec Ideal S1x128x128 .bf16) (x2 : Vec Ideal S512x128 .bf16) (x3 : Vec Ideal S512x128 .bf16) (x4 : Vec Ideal S512x1 .f32) (y : S512x2048.Idx) :
    View.canon (kernelRun0_A.sl.HS0_16 (F := Ideal) c arg2 harg2 arg3 harg3 arg4 harg4 arg5 harg5 arg6 harg6 x0 x1 x2 x3 x4) y = panels (k0_pay6 (F := Ideal) x2 x0) (k0_pay7 (F := Ideal) x1 x3 x4) y := by
  refine View.canon_apply_of_pieces (panels (k0_pay6 (F := Ideal) x2 x0) (k0_pay7 (F := Ideal) x1 x3 x4)) _ ?_ y
    (View.cover_of_tiledL (kernelRun0_A.sl.HS0_16 (F := Ideal) c arg2 harg2 arg3 harg3 arg4 harg4 arg5 harg5 arg6 harg6 x0 x1 x2 x3 x4) S512x128.size (by sl_kernel_rfl) y)
  unfold kernelRun0_A.sl.HS0_16
  intro p hp
  simp only [List.mem_cons, List.mem_nil_iff, or_false] at hp
  rcases hp with rfl | rfl | rfl | rfl | rfl | rfl | rfl | rfl | rfl | rfl | rfl | rfl | rfl | rfl | rfl | rfl
  all_goals dsimp only
  · -- panel 15
    refine slab_piece 1920 15 rfl (by decide) _ _ (k0_pay6 (F := Ideal) x2 x0) (k0_pay7 (F := Ideal) x1 x3 x4) (fun h jj => ?_)
    rw [r4_eq, r5_eq]
    exact BodyVals.slab15_apply _ _ h jj
  · -- panel 14
    refine slab_piece 1792 14 rfl (by decide) _ _ (k0_pay6 (F := Ideal) x2 x0) (k0_pay7 (F := Ideal) x1 x3 x4) (fun h jj => ?_)
    rw [r4_eq, r5_eq]
    exact BodyVals.slab14_apply _ _ h jj
  · -- panel 13
    refine slab_piece 1664 13 rfl (by decide) _ _ (k0_pay6 (F := Ideal) x2 x0) (k0_pay7 (F := Ideal) x1 x3 x4) (fun h jj => ?_)
    unfold kernelRun0_A.sl.r_10
    rw [r4_eq, r5_eq]
    exact BodyVals.slab13_apply _ _ h jj
  · -- panel 12
    refine slab_piece 1536 12 rfl (by decide) _ _ (k0_pay6 (F := Ideal) x2 x0) (k0_pay7 (F := Ideal) x1 x3 x4) (fun h jj => ?_)
    rw [r4_eq, r5_eq]
    exact BodyVals.slab12_apply _ _ h jj
  · -- panel 11
    refine slab_piece 1408 11 rfl (by decide) _ _ (k0_pay6 (F := Ideal) x2 x0) (k0_pay7 (F := Ideal) x1 x3 x4) (fun h jj => ?_)
    rw [r4_eq, r5_eq]
    exact BodyVals.slab11_apply _ _ h jj
  · -- panel 10
    refine slab_piece 1280 10 rfl (by decide) _ _ (k0_pay6 (F := Ideal) x2 x0) (k0_pay7 (F := Ideal) x1 x3 x4) (fun h jj => ?_)
    rw [r4_eq, r5_eq]
    exact BodyVals.slab10_apply _ _ h jj
  · -- panel 9
    refine slab_piece 1152 9 rfl (by decide) _ _ (k0_pay6 (F := Ideal) x2 x0) (k0_pay7 (F := Ideal) x1 x3 x4) (fun h jj => ?_)
    unfold kernelRun0_A.sl.r_9 kernelRun0_A.sl.cst_39
    rw [r4_eq, r5_eq]
    exact BodyVals.slab9_apply _ _ h jj
  · -- panel 8
    refine slab_piece 1024 8 rfl (by decide) _ _ (k0_pay6 (F := Ideal) x2 x0) (k0_pay7 (F := Ideal) x1 x3 x4) (fun h jj => ?_)
    rw [r4_eq, r5_eq]
    exact BodyVals.slab8_apply _ _ h jj
  · -- panel 7
    refine slab_piece 896 7 rfl (by decide) _ _ (k0_pay6 (F := Ideal) x2 x0) (k0_pay7 (F := Ideal) x1 x3 x4) (fun h jj => ?_)
    rw [r4_eq, r5_eq]
    exact BodyVals.slab7_apply _ _ h jj
  · -- panel 6
    refine slab_piece 768 6 rfl (by decide) _ _ (k0_pay6 (F := Ideal) x2 x0) (k0_pay7 (F := Ideal) x1 x3 x4) (fun h jj => ?_)
    rw [r4_eq, r5_eq]
    exact BodyVals.slab6_apply _ _ h jj
  · -- panel 5
    refine slab_piece 640 5 rfl (by decide) _ _ (k0_pay6 (F := Ideal) x2 x0) (k0_pay7 (F := Ideal) x1 x3 x4) (fun h jj => ?_)
    unfold kernelRun0_A.sl.r_8
    rw [r4_eq, r5_eq]
    exact BodyVals.slab5_apply _ _ h jj
  · -- panel 4
    refine slab_piece 512 4 rfl (by decide) _ _ (k0_pay6 (F := Ideal) x2 x0) (k0_pay7 (F := Ideal) x1 x3 x4) (fun h jj => ?_)
    rw [r4_eq, r5_eq]
    exact BodyVals.slab4_apply _ _ h jj
  · -- panel 3
    refine slab_piece 384 3 rfl (by decide) _ _ (k0_pay6 (F := Ideal) x2 x0) (k0_pay7 (F := Ideal) x1 x3 x4) (fun h jj => ?_)
    rw [r4_eq, r5_eq]
    exact BodyVals.slab3_apply _ _ h jj
  · -- panel 2
    refine slab_piece 256 2 rfl (by decide) _ _ (k0_pay6 (F := Ideal) x2 x0) (k0_pay7 (F := Ideal) x1 x3 x4) (fun h jj => ?_)
    rw [r4_eq, r5_eq]
    exact BodyVals.slab2_apply _ _ h jj
  · -- panel 1
    refine slab_piece 128 1 rfl (by decide) _ _ (k0_pay6 (F := Ideal) x2 x0) (k0_pay7 (F := Ideal) x1 x3 x4) (fun h jj => ?_)
    rw [r4_eq, r5_eq]
    exact BodyVals.slab1_apply _ _ h jj
  · -- panel 0
    refine slab_piece 0 0 rfl (by decide) _ _ (k0_pay6 (F := Ideal) x2 x0) (k0_pay7 (F := Ideal) x1 x3 x4) (fun h jj => ?_)
    unfold kernelRun0_A.sl.r_6
    simp only [View.readAt_eq_ld, harg2.read_unread, harg3.read_unread, harg4.read_unread, harg5.read_unread, harg6.read_unread, View.ld_unit_zero (S := S512x128) hz2, View.ld_unit_zero (S := S512x1) hz2, View.ld_unit_zero (S := S1x16x128) hz3, View.ld_unit_zero (S := S1x128x128) hz3]
    exact BodyVals.slab0_apply x1 x2 x3 x4 x0 h jj

/-- So the whole-area load reads that function. -/
theorem v185_eq (c : Dev nD) (arg2 : Memref sig .tc .vmem S1x16x128 .bf16) (harg2 : arg2.IsWhole) (arg3 : Memref sig .tc .vmem S1x128x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg12 : Memref sig .tc .vmem S512x2048 .bf16) (x0 : Vec Ideal S1x16x128 .bf16) (x1 : Vec Ideal S1x128x128 .bf16) (x2 : Vec Ideal S512x128 .bf16) (x3 : Vec Ideal S512x128 .bf16) (x4 : Vec Ideal S512x1 .f32) :
    kernelRun0_A.sl.v185 (F := Ideal) c arg2 harg2 arg3 harg3 arg4 harg4 arg5 harg5 arg6 harg6 arg12 x0 x1 x2 x3 x4 = panels (k0_pay6 (F := Ideal) x2 x0) (k0_pay7 (F := Ideal) x1 x3 x4) := by
  unfold kernelRun0_A.sl.v185
  rw [View.readCov_eq_canon']
  funext y
  have hy : (Rect.unit (s := S512x2048) ![0, 0] S512x2048.size inb_S512x2048_S512x2048_0_0).toLoadRect.idx y = y :=
    funext fun a => Fin.ext (by
      match a with
      | ⟨0, _⟩ => show 0 + 1 * (y 0).val = (y 0).val; omega
      | ⟨1, _⟩ => show 0 + 1 * (y 1).val = (y 1).val; omega)
  show View.canon _ ((Rect.unit (s := S512x2048) ![0, 0] S512x2048.size inb_S512x2048_S512x2048_0_0).toLoadRect.idx y) = _
  rw [hy]
  exact workArea_canon c arg2 harg2 arg3 harg3 arg4 harg4 arg5 harg5 arg6 harg6 x0 x1 x2 x3 x4 y

/-! ## The second layer and the output rows -/

theorem h2_at (c : Dev nD) (arg2 : Memref sig .tc .vmem S1x16x128 .bf16) (harg2 : arg2.IsWhole) (arg3 : Memref sig .tc .vmem S1x128x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S512x512 .bf16) (harg7 : arg7.IsWhole) (arg8 : Memref sig .tc .vmem S512x1 .f32) (harg8 : arg8.IsWhole) (arg12 : Memref sig .tc .vmem S512x2048 .bf16) (x0 : Vec Ideal S1x16x128 .bf16) (x1 : Vec Ideal S1x128x128 .bf16) (x2 : Vec Ideal S512x128 .bf16) (x3 : Vec Ideal S512x128 .bf16) (x4 : Vec Ideal S512x1 .f32) (x5 : Vec Ideal S512x512 .bf16) (x6 : Vec Ideal S512x1 .f32) (o k : ℕ) (ho : o = 128 * k) (hk : k < 16) (g : Fin 512) (jj : Fin 128) (hc : o + jj.val < 2048) :
    k0_pay28 (F := Ideal) (kernelRun0_A.sl.r (F := Ideal) c arg7 harg7 x5) (kernelRun0_A.sl.r_1 (F := Ideal) c arg8 harg8 x6) (kernelRun0_A.sl.v185 (F := Ideal) c arg2 harg2 arg3 harg3 arg4 harg4 arg5 harg5 arg6 harg6 arg12 x0 x1 x2 x3 x4) (ix2 g ⟨o + jj.val, hc⟩)
      = hidden2 x0 x1 x2 x3 x4 x5 x6 g ⟨k, hk⟩ jj := by
  rw [r_eq, r1_eq, v185_eq, BodyVals.h2_apply]
  unfold BodyVals.hidden2
  exact congrArg₂ max (congrArg₂ (· + ·) (Finset.sum_congr rfl fun h _ =>
    congrArg (x5 (ix2 g h) * ·) (panels_at _ _ o k ho hk h jj hc)) rfl) rfl

theorem r11_at (c : Dev nD) (arg2 : Memref sig .tc .vmem S1x16x128 .bf16) (harg2 : arg2.IsWhole) (arg3 : Memref sig .tc .vmem S1x128x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S512x512 .bf16) (harg7 : arg7.IsWhole) (arg8 : Memref sig .tc .vmem S512x1 .f32) (harg8 : arg8.IsWhole) (arg12 : Memref sig .tc .vmem S512x2048 .bf16) (x0 : Vec Ideal S1x16x128 .bf16) (x1 : Vec Ideal S1x128x128 .bf16) (x2 : Vec Ideal S512x128 .bf16) (x3 : Vec Ideal S512x128 .bf16) (x4 : Vec Ideal S512x1 .f32) (x5 : Vec Ideal S512x512 .bf16) (x6 : Vec Ideal S512x1 .f32) (o k : ℕ) (ho : o = 128 * k) (hk : k < 16) (g : Fin 512) (jj : Fin 128) (hc : o + jj.val < 2048) :
    kernelRun0_A.sl.r_11 (F := Ideal) c arg2 harg2 arg3 harg3 arg4 harg4 arg5 harg5 arg6 harg6 arg7 harg7 arg8 harg8 arg12 x0 x1 x2 x3 x4 x5 x6 (ix2 g ⟨o + jj.val, hc⟩) = hidden2 x0 x1 x2 x3 x4 x5 x6 g ⟨k, hk⟩ jj := by
  unfold kernelRun0_A.sl.r_11
  exact h2_at c arg2 harg2 arg3 harg3 arg4 harg4 arg5 harg5 arg6 harg6 arg7 harg7 arg8 harg8 arg12 x0 x1 x2 x3 x4 x5 x6 o k ho hk g jj hc

/-- A row whose lanes are the logits of query node k is the block of the output function its rectangle names. -/
theorem row_piece (k : ℕ) (hk : k < 16) (inb : ∀ a, (![0, k, 0] : Fin 3 → ℕ) a + S1x1x128.size a ≤ S1x16x128.size a)
    (P : S1x1x128.Idx → EReal) (Gf : Fin 16 → Fin 128 → EReal)
    (hP : ∀ jj : Fin 128, P (ix3 (0 : Fin 1) (0 : Fin 1) jj) = Gf ⟨k, hk⟩ jj) :
    ∀ x : (Rect.unit (s := S1x16x128) ![0, k, 0] S1x1x128.size inb).shape.Idx,
      P x = (fun y : S1x16x128.Idx => Gf (y 1) (y 2)) ((Rect.unit (s := S1x16x128) ![0, k, 0] S1x1x128.size inb).emb x) := by
  intro x
  obtain ⟨a, b, jj, rfl⟩ : ∃ (a b : Fin 1) (jj : Fin 128), x = ix3 a b jj := ⟨x 0, x 1, x 2, eq_ix3 x⟩
  obtain rfl : a = 0 := Subsingleton.elim _ _
  obtain rfl : b = 0 := Subsingleton.elim _ _
  rw [hP jj]
  have e1 : ((Rect.unit (s := S1x16x128) ![0, k, 0] S1x1x128.size inb).emb (ix3 (0 : Fin 1) (0 : Fin 1) jj)) 1 = ⟨k, hk⟩ :=
    Fin.ext (by show k + 1 * 0 = k; omega)
  have e2 : ((Rect.unit (s := S1x16x128) ![0, k, 0] S1x1x128.size inb).emb (ix3 (0 : Fin 1) (0 : Fin 1) jj)) 2 = jj :=
    Fin.ext (by show 0 + 1 * jj.val = jj.val; omega)
  exact (congrArg₂ Gf e1 e2).symm

/-- The output block a grid point leaves, entry by entry. -/
theorem out_apply (c : Dev nD) (i : grid0.Coords) (arg2 : Memref sig .tc .vmem S1x16x128 .bf16) (harg2 : arg2.IsWhole) (arg3 : Memref sig .tc .vmem S1x128x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S1x512 .bf16) (harg9 : arg9.IsWhole) (arg10 : Memref sig .tc .vmem S1x1 .f32) (harg10 : arg10.IsWhole) (arg11 : Memref sig .tc .vmem S1x16x128 .f32) (harg11 : arg11.IsWhole) (arg12 : Memref sig .tc .vmem S512x2048 .bf16) (harg12 : arg12.IsWhole) (x0 : Vec Ideal S1x16x128 .bf16) (x1 : Vec Ideal S1x128x128 .bf16) (x2 : Vec Ideal S512x128 .bf16) (x3 : Vec Ideal S512x128 .bf16) (x4 : Vec Ideal S512x1 .f32) (x5 : Vec Ideal S512x512 .bf16) (x6 : Vec Ideal S512x1 .f32) (x7 : Vec Ideal S1x512 .bf16) (x8 : Vec Ideal S1x1 .f32) (r : Fin 16) (j : Fin 128) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 (ix3 (0 : Fin 1) r j) = blockLogit x0 x1 x2 x3 x4 x5 x6 x7 x8 r j := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  refine View.canon_apply_of_pieces (fun y : S1x16x128.Idx => blockLogit x0 x1 x2 x3 x4 x5 x6 x7 x8 (y 1) (y 2)) _ ?_ (ix3 (0 : Fin 1) r j)
    (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8 (ix3 (0 : Fin 1) r j))
  unfold kernelRun0_A
  dsimp only
  intro p hp
  simp only [List.mem_cons, List.mem_nil_iff, or_false] at hp
  rcases hp with rfl | rfl | rfl | rfl | rfl | rfl | rfl | rfl | rfl | rfl | rfl | rfl | rfl | rfl | rfl | rfl
  all_goals dsimp only
  · -- row 15
    refine row_piece 15 (by decide) _ _ (blockLogit x0 x1 x2 x3 x4 x5 x6 x7 x8) (fun jj => ?_)
    unfold kernelRun0_A.sl.r_15
    rw [BodyVals.row15_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1920 15 rfl (by decide) g jj _)) rfl
  · -- row 14
    refine row_piece 14 (by decide) _ _ (blockLogit x0 x1 x2 x3 x4 x5 x6 x7 x8) (fun jj => ?_)
    rw [BodyVals.row14_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1792 14 rfl (by decide) g jj _)) rfl
  · -- row 13
    refine row_piece 13 (by decide) _ _ (blockLogit x0 x1 x2 x3 x4 x5 x6 x7 x8) (fun jj => ?_)
    rw [BodyVals.row13_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1664 13 rfl (by decide) g jj _)) rfl
  · -- row 12
    refine row_piece 12 (by decide) _ _ (blockLogit x0 x1 x2 x3 x4 x5 x6 x7 x8) (fun jj => ?_)
    rw [BodyVals.row12_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1536 12 rfl (by decide) g jj _)) rfl
  · -- row 11
    refine row_piece 11 (by decide) _ _ (blockLogit x0 x1 x2 x3 x4 x5 x6 x7 x8) (fun jj => ?_)
    rw [BodyVals.row11_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1408 11 rfl (by decide) g jj _)) rfl
  · -- row 10
    refine row_piece 10 (by decide) _ _ (blockLogit x0 x1 x2 x3 x4 x5 x6 x7 x8) (fun jj => ?_)
    unfold kernelRun0_A.sl.r_14
    rw [BodyVals.row10_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1280 10 rfl (by decide) g jj _)) rfl
  · -- row 9
    refine row_piece 9 (by decide) _ _ (blockLogit x0 x1 x2 x3 x4 x5 x6 x7 x8) (fun jj => ?_)
    rw [BodyVals.row9_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1152 9 rfl (by decide) g jj _)) rfl
  · -- row 8
    refine row_piece 8 (by decide) _ _ (blockLogit x0 x1 x2 x3 x4 x5 x6 x7 x8) (fun jj => ?_)
    rw [BodyVals.row8_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 1024 8 rfl (by decide) g jj _)) rfl
  · -- row 7
    refine row_piece 7 (by decide) _ _ (blockLogit x0 x1 x2 x3 x4 x5 x6 x7 x8) (fun jj => ?_)
    rw [BodyVals.row7_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 896 7 rfl (by decide) g jj _)) rfl
  · -- row 6
    refine row_piece 6 (by decide) _ _ (blockLogit x0 x1 x2 x3 x4 x5 x6 x7 x8) (fun jj => ?_)
    rw [BodyVals.row6_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 768 6 rfl (by decide) g jj _)) rfl
  · -- row 5
    refine row_piece 5 (by decide) _ _ (blockLogit x0 x1 x2 x3 x4 x5 x6 x7 x8) (fun jj => ?_)
    unfold kernelRun0_A.sl.r_13
    rw [BodyVals.row5_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 640 5 rfl (by decide) g jj _)) rfl
  · -- row 4
    refine row_piece 4 (by decide) _ _ (blockLogit x0 x1 x2 x3 x4 x5 x6 x7 x8) (fun jj => ?_)
    rw [BodyVals.row4_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 512 4 rfl (by decide) g jj _)) rfl
  · -- row 3
    refine row_piece 3 (by decide) _ _ (blockLogit x0 x1 x2 x3 x4 x5 x6 x7 x8) (fun jj => ?_)
    rw [BodyVals.row3_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 384 3 rfl (by decide) g jj _)) rfl
  · -- row 2
    refine row_piece 2 (by decide) _ _ (blockLogit x0 x1 x2 x3 x4 x5 x6 x7 x8) (fun jj => ?_)
    rw [BodyVals.row2_apply, r2_eq, r3_eq]
    exact congrArg₂ (· + ·) (Finset.sum_congr rfl fun g _ => congrArg (x7 (ix2 (0 : Fin 1) g) * ·) (r11_at c arg2 harg2 arg3 harg3 arg4 harg4 arg5 harg5 arg6 harg6 arg7 harg7 arg8 harg8 arg12 x0 x1 x2 x3 x4 x5 x6 256 2 rfl (by decide) g jj _)) rfl
  · -- row 1
    refine row_piece 1 (by decide) _ _ (blockLogit x0 x1 x2 x3 x4 x5 x6 x7 x8) (fun jj => ?_)
    unfold kernelRun0_A.sl.r_12
    rw [BodyVals.row1_apply, r2_eq, r3_eq]
    exact congrArg₂ (· + ·) (Finset.sum_congr rfl fun g _ => congrArg (x7 (ix2 (0 : Fin 1) g) * ·) (h2_at c arg2 harg2 arg3 harg3 arg4 harg4 arg5 harg5 arg6 harg6 arg7 harg7 arg8 harg8 arg12 x0 x1 x2 x3 x4 x5 x6 128 1 rfl (by decide) g jj _)) rfl
  · -- row 0
    refine row_piece 0 (by decide) _ _ (blockLogit x0 x1 x2 x3 x4 x5 x6 x7 x8) (fun jj => ?_)
    rw [BodyVals.row0_apply, r2_eq, r3_eq]
    exact congrArg₂ (· + ·) (Finset.sum_congr rfl fun g _ => congrArg (x7 (ix2 (0 : Fin 1) g) * ·) (h2_at c arg2 harg2 arg3 harg3 arg4 harg4 arg5 harg5 arg6 harg6 arg7 harg7 arg8 harg8 arg12 x0 x1 x2 x3 x4 x5 x6 0 0 rfl (by decide) g jj _)) rfl

end Cert.KernelIdeal.BodyRun

end
-- ==== Proof.EdgeSpec.lean ====
/-
  The pairwise edge network of a graph decoder, as one function on the extended reals.

  A batch holds 16 graphs of 128 nodes, every node carrying a 128-dimensional embedding e(b, n, ·).  The logit of the
  ordered pair (i, j) of graph b is a three-layer rectified network applied to the two embeddings laid side by side.
  The first layer's weight matrix W1 (512 × 256) meets the first 128 coordinates of that pair, node i's embedding,
  through its left half and the last 128, node j's, through its right half; so the first layer's pre-activation is a
  term that depends on i only plus a term that depends on j only plus the bias.  The second layer is a full
  512 × 512 product plus a bias, rectified; the third a single row of weights plus a scalar bias.
-/
import Idealize.ShloMosaic.Lib.ValueIdx
import Idealize.ShloMosaic.PureOps.Ideal

noncomputable section

namespace Cert.EdgeSpec

open Idealize.ShloMosaic Idealize.ShloMosaic.ValueIdx

abbrev SEmb : Shape := ⟨3, ![16, 128, 128]⟩
abbrev SW1 : Shape := ⟨2, ![512, 256]⟩
abbrev SB : Shape := ⟨1, ![512]⟩
abbrev SW2 : Shape := ⟨2, ![512, 512]⟩
abbrev SW3 : Shape := ⟨2, ![1, 512]⟩
abbrev SB3 : Shape := ⟨1, ![1]⟩

/-- The zero a rectifier compares against, kept as the all-zero single-precision word. -/
abbrev zw : EReal := Ideal.ofBits .f32 0x00000000#32

/-- Column d of the left half of the first layer's weights. -/
abbrev colL (d : Fin 128) : Fin 256 := ⟨d.val, Nat.lt_of_lt_of_le d.isLt (by decide)⟩

/-- Column d of the right half of the first layer's weights. -/
abbrev colR (d : Fin 128) : Fin 256 := ⟨128 + d.val, by have := d.isLt; omega⟩

/-- The first layer at hidden unit h for the pair (i, j) of graph b: the left half of W1 against node i's embedding,
    plus the right half against node j's embedding and the bias, rectified. -/
def layer1 (E : SEmb.Idx → EReal) (W1 : SW1.Idx → EReal) (b1 : SB.Idx → EReal)
    (b : Fin 16) (i j : Fin 128) (h : Fin 512) : EReal :=
  max ((∑ d : Fin 128, W1 (ix2 h (colL d)) * E (ix3 b i d))
        + ((∑ d : Fin 128, W1 (ix2 h (colR d)) * E (ix3 b j d)) + b1 (ix1 h))) zw

/-- The second layer at hidden unit g. -/
def layer2 (E : SEmb.Idx → EReal) (W1 : SW1.Idx → EReal) (b1 : SB.Idx → EReal)
    (W2 : SW2.Idx → EReal) (b2 : SB.Idx → EReal) (b : Fin 16) (i j : Fin 128) (g : Fin 512) : EReal :=
  max ((∑ h : Fin 512, W2 (ix2 g h) * layer1 E W1 b1 b i j h) + b2 (ix1 g)) zw

/-- The logit of the ordered pair (i, j) of graph b. -/
def logit (E : SEmb.Idx → EReal) (W1 : SW1.Idx → EReal) (b1 : SB.Idx → EReal)
    (W2 : SW2.Idx → EReal) (b2 : SB.Idx → EReal) (W3 : SW3.Idx → EReal) (b3 : SB3.Idx → EReal)
    (b : Fin 16) (i j : Fin 128) : EReal :=
  (∑ g : Fin 512, W3 (ix2 (0 : Fin 1) g) * layer2 E W1 b1 W2 b2 b i j g) + b3 (ix1 (0 : Fin 1))

/-- All the logits as one array over (graph, i, j). -/
def logits (E : SEmb.Idx → EReal) (W1 : SW1.Idx → EReal) (b1 : SB.Idx → EReal)
    (W2 : SW2.Idx → EReal) (b2 : SB.Idx → EReal) (W3 : SW3.Idx → EReal) (b3 : SB3.Idx → EReal) :
    SEmb.Idx → EReal :=
  fun q => logit E W1 b1 W2 b2 W3 b3 (q 0) (q 1) (q 2)

theorem logits_apply (E : SEmb.Idx → EReal) (W1 : SW1.Idx → EReal) (b1 : SB.Idx → EReal)
    (W2 : SW2.Idx → EReal) (b2 : SB.Idx → EReal) (W3 : SW3.Idx → EReal) (b3 : SB3.Idx → EReal)
    (b : Fin 16) (i j : Fin 128) :
    logits E W1 b1 W2 b2 W3 b3 (ix3 b i j) = logit E W1 b1 W2 b2 W3 b3 b i j := rfl

end Cert.EdgeSpec

end
-- ==== Proof.BlockSpec.lean ====
/-
  A grid point's block computation is the edge network on the entries its blocks hold.

  If the query tile holds rows 16·it, …, 16·it + 15 of graph b's embeddings, the key block holds all of graph b's
  embeddings with the node index on the lanes, the two weight blocks hold the left and right halves of the first
  layer's weights, and the remaining blocks hold the biases as columns and the other weights as they are, then what
  the point computes for query node r of its tile and key node j is the network's logit for the pair (16·it + r, j) of
  graph b.  The proof only renames entries: both sides are the same sums of the same products.
-/
import proofs.«103251_j26508538151540_2_alg».proof.Proof.BodyVals
import proofs.«103251_j26508538151540_2_alg».proof.Proof.EdgeSpec

noncomputable section

namespace Cert.KernelIdeal.BlockSpec

open Cert.KernelIdeal Cert.KernelIdeal.Gen Idealize.ShloMosaic Idealize.ShloMosaic.ValueIdx
open Cert.KernelIdeal.BodyVals Cert.EdgeSpec

theorem blockLogit_eq_logit (x0 : Vec Ideal S1x16x128 .bf16) (x1 : Vec Ideal S1x128x128 .bf16) (x2 x3 : Vec Ideal S512x128 .bf16)
    (x4 : Vec Ideal S512x1 .f32) (x5 : Vec Ideal S512x512 .bf16) (x6 : Vec Ideal S512x1 .f32)
    (x7 : Vec Ideal S1x512 .bf16) (x8 : Vec Ideal S1x1 .f32)
    (E : SEmb.Idx → EReal) (W1 : SW1.Idx → EReal) (b1 : SB.Idx → EReal) (W2 : SW2.Idx → EReal) (b2 : SB.Idx → EReal)
    (W3 : SW3.Idx → EReal) (b3 : SB3.Idx → EReal) (b : Fin 16) (q : Fin 16 → Fin 128)
    (h0 : ∀ (r : Fin 16) (d : Fin 128), x0 (ix3 (0 : Fin 1) r d) = E (ix3 b (q r) d))
    (h1 : ∀ (d j : Fin 128), x1 (ix3 (0 : Fin 1) d j) = E (ix3 b j d))
    (h2 : ∀ (h : Fin 512) (d : Fin 128), x2 (ix2 h d) = W1 (ix2 h (colL d)))
    (h3 : ∀ (h : Fin 512) (d : Fin 128), x3 (ix2 h d) = W1 (ix2 h (colR d)))
    (h4 : ∀ h : Fin 512, x4 (ix2 h (0 : Fin 1)) = b1 (ix1 h))
    (h5 : ∀ g h : Fin 512, x5 (ix2 g h) = W2 (ix2 g h))
    (h6 : ∀ g : Fin 512, x6 (ix2 g (0 : Fin 1)) = b2 (ix1 g))
    (h7 : ∀ g : Fin 512, x7 (ix2 (0 : Fin 1) g) = W3 (ix2 (0 : Fin 1) g))
    (h8 : x8 (ix2 (0 : Fin 1) (0 : Fin 1)) = b3 (ix1 (0 : Fin 1))) (r : Fin 16) (j : Fin 128) :
    blockLogit x0 x1 x2 x3 x4 x5 x6 x7 x8 r j = logit E W1 b1 W2 b2 W3 b3 b (q r) j := by
  unfold blockLogit hidden2 logit layer2 layer1
  simp only [ai_apply, aj_apply, h0, h1, h2, h3, h4, h5, h6, h7, h8]

end Cert.KernelIdeal.BlockSpec

end
-- ==== Proof.KernelPre.lean ====
/-
  The kernel program's host operations before its region, from the decoder's hidden layer on.

  Before the region the kernel program computes, on the host, the same node embeddings as the reference and then
  prepares the region's operands.  Everything up to the decoder's rectified hidden layer h (16 × 512) is kept as one
  opaque valuation of the buffers; from there on the eighteen remaining operations are read off:

  • the embeddings e = reshape (h · Wᵀ + bias) to 16 × 128 × 128, with W the 16384 × 512 output weights and the bias
    broadcast over the 16 graphs;
  • the region's operands: e and its transpose in the last two axes, the two 128-column halves of the first edge
    layer's weights, the second and third layers' weights, each narrowed to the 16-bit format (at the extended reals
    a narrowing is the identity, but the term keeps it), and the three biases reshaped to columns.

  No operation before the region writes an argument, so the valuation reads every argument as launched.
-/
import proofs.«103251_j26508538151540_2_alg».proof.Proof.Gen.KernelIdeal.Frame.Runs
import Idealize.ShloMosaic.Lib.StableHlo.Run
import Idealize.ShloMosaic.Lib.Pipeline.Frame
import Idealize.ShloMosaic.PureOps.Ideal

set_option maxRecDepth 16384

noncomputable section

namespace Cert.KernelIdeal.KernelPre

open Cert.KernelIdeal Cert.KernelIdeal.Gen
open Idealize.ShloMosaic Idealize.ShloMosaic.TcCoe Idealize.SL.Sem

/-- A line of lines with one more line behind it runs as the line of lines, then the last line. -/
theorem after_flatten_snoc {τ : Topo} {sig : RefSig} {Val : EltTy → Type} (ls : List (List (HloOp τ sig Val)))
    (l : List (HloOp τ sig Val)) (V : Valuation τ sig Val) :
    StableHlo.after (List.flatten (ls ++ [l])) V = StableHlo.after l (StableHlo.after (List.flatten ls) V) := by
  rw [List.flatten_append, List.flatten_cons, List.flatten_nil, List.append_nil, StableHlo.after_append]

variable (m : (ℓ : Loc nD τ sig) → Buf (Elt Ideal) ℓ) (c : Dev nD)

/-- Core c's buffer contents after the host operations up to the decoder's rectified hidden layer. -/
def preK : Valuation τ sig (Elt Ideal) :=
  StableHlo.after (List.flatten [hostOps0 (F := Ideal), hostOps0_1, hostOps0_2, hostOps0_3, hostOps0_4, hostOps0_5,
    hostOps0_6, hostOps0_7]) (fun b => m (c, b))

/-- The decoder's rectified hidden layer, 16 × 512: kept opaque. -/
def hidK : (⟨S16x512, .f32⟩ : BufTy).Contents (Elt Ideal) := preK m c (Proc.devRef .tc main_v105)

/-- The node embeddings, 16 × 128 × 128: the hidden layer against the transposed output weights plus the bias
    broadcast over the graphs, reshaped. -/
def embK : (⟨S16x128x128, .f32⟩ : BufTy).Contents (Elt Ideal) :=
  shapeCast S16x128x128
    (addf (F := Ideal) (s := S16x16384) (φ := .f32)
      (Host.dotGeneral (φ₁ := .f32) (φ₂ := .f32) dot_S16x512_S512x16384_S16x16384_1_0_0_1_n_n none (hidK m c)
        (transpose S512x16384 [1, 0] (m ((c : Thread nD τ).loc main_arg21) : (⟨S16384x512, .f32⟩ : BufTy).Contents (Elt Ideal))
          transposes_S16384x512_S512x16384_1_0))
      (broadcastInDim S16x16384 ![0, 1] bcast_S1x16384_S16x16384_0_1
        (broadcastInDim S1x16384 ![1] bcast_S16384_S1x16384_1
          (m ((c : Thread nD τ).loc main_arg22) : (⟨S16384, .f32⟩ : BufTy).Contents (Elt Ideal)))))
    shapeCasts_S16x16384_S16x128x128

/-- The contents when the region is entered are the last eighteen operations over the contents before them. -/
theorem V0_eq : V0 m c = StableHlo.after (hostOps0_8 (F := Ideal)) (preK m c) :=
  after_flatten_snoc [hostOps0 (F := Ideal), hostOps0_1, hostOps0_2, hostOps0_3, hostOps0_4, hostOps0_5, hostOps0_6,
    hostOps0_7] hostOps0_8 (fun b => m (c, b))

/-! ## The last eighteen operations over any contents -/

section Tail
variable (W : Valuation τ sig (Elt Ideal))

/-- Each of the eighteen operations writes its own result buffer only, and that is no argument. -/
local macro "tail_unwritten" : tactic =>
  `(tactic| (simp only [hostOps0_8, List.Forall, StableHlo.nullary_writes, StableHlo.unary_writes, StableHlo.binary_writes,
      StableHlo.reshape_writes, Finset.mem_singleton]
             repeat' apply And.intro
             all_goals exact StableHlo.devRef_ne_of_ne (by decide)))

theorem tail_arg21 :
    StableHlo.after (hostOps0_8 (F := Ideal)) W (Proc.devRef .tc main_arg21) = W (Proc.devRef .tc main_arg21) :=
  StableHlo.after_of_forall_not_mem (b := Proc.devRef .tc main_arg21) _ _ (List.forall_iff_forall_mem.mp (by tail_unwritten))
theorem tail_arg22 :
    StableHlo.after (hostOps0_8 (F := Ideal)) W (Proc.devRef .tc main_arg22) = W (Proc.devRef .tc main_arg22) :=
  StableHlo.after_of_forall_not_mem (b := Proc.devRef .tc main_arg22) _ _ (List.forall_iff_forall_mem.mp (by tail_unwritten))
theorem tail_arg23 :
    StableHlo.after (hostOps0_8 (F := Ideal)) W (Proc.devRef .tc main_arg23) = W (Proc.devRef .tc main_arg23) :=
  StableHlo.after_of_forall_not_mem (b := Proc.devRef .tc main_arg23) _ _ (List.forall_iff_forall_mem.mp (by tail_unwritten))
theorem tail_arg24 :
    StableHlo.after (hostOps0_8 (F := Ideal)) W (Proc.devRef .tc main_arg24) = W (Proc.devRef .tc main_arg24) :=
  StableHlo.after_of_forall_not_mem (b := Proc.devRef .tc main_arg24) _ _ (List.forall_iff_forall_mem.mp (by tail_unwritten))
theorem tail_arg25 :
    StableHlo.after (hostOps0_8 (F := Ideal)) W (Proc.devRef .tc main_arg25) = W (Proc.devRef .tc main_arg25) :=
  StableHlo.after_of_forall_not_mem (b := Proc.devRef .tc main_arg25) _ _ (List.forall_iff_forall_mem.mp (by tail_unwritten))
theorem tail_arg26 :
    StableHlo.after (hostOps0_8 (F := Ideal)) W (Proc.devRef .tc main_arg26) = W (Proc.devRef .tc main_arg26) :=
  StableHlo.after_of_forall_not_mem (b := Proc.devRef .tc main_arg26) _ _ (List.forall_iff_forall_mem.mp (by tail_unwritten))
theorem tail_arg27 :
    StableHlo.after (hostOps0_8 (F := Ideal)) W (Proc.devRef .tc main_arg27) = W (Proc.devRef .tc main_arg27) :=
  StableHlo.after_of_forall_not_mem (b := Proc.devRef .tc main_arg27) _ _ (List.forall_iff_forall_mem.mp (by tail_unwritten))
theorem tail_arg28 :
    StableHlo.after (hostOps0_8 (F := Ideal)) W (Proc.devRef .tc main_arg28) = W (Proc.devRef .tc main_arg28) :=
  StableHlo.after_of_forall_not_mem (b := Proc.devRef .tc main_arg28) _ _ (List.forall_iff_forall_mem.mp (by tail_unwritten))

/-- The embeddings narrowed: the region's first operand. -/
theorem tail_v113 :
    StableHlo.after (hostOps0_8 (F := Ideal)) W (Proc.devRef .tc main_v113)
      = truncf (F := Ideal) (s := S16x128x128) (φ := .f32) .bf16
          (shapeCast S16x128x128
            (addf (F := Ideal) (s := S16x16384) (φ := .f32)
              (Host.dotGeneral (φ₁ := .f32) (φ₂ := .f32) dot_S16x512_S512x16384_S16x16384_1_0_0_1_n_n none (W (Proc.devRef .tc main_v105))
                (transpose S512x16384 [1, 0] (W (Proc.devRef .tc main_arg21) : (⟨S16384x512, .f32⟩ : BufTy).Contents (Elt Ideal))
                  transposes_S16384x512_S512x16384_1_0))
              (broadcastInDim S16x16384 ![0, 1] bcast_S1x16384_S16x16384_0_1
                (broadcastInDim S1x16384 ![1] bcast_S16384_S1x16384_1
                  (W (Proc.devRef .tc main_arg22) : (⟨S16384, .f32⟩ : BufTy).Contents (Elt Ideal)))))
            shapeCasts_S16x16384_S16x128x128) bitsLt_bf16_f32 := by
  dsimp only [hostOps0_8]
  after_results
  rfl

/-- The embeddings transposed in their last two axes, narrowed: the region's second operand. -/
theorem tail_v114 :
    StableHlo.after (hostOps0_8 (F := Ideal)) W (Proc.devRef .tc main_v114)
      = truncf (F := Ideal) (s := S16x128x128) (φ := .f32) .bf16
          (transpose S16x128x128 [0, 2, 1]
        (shapeCast S16x128x128
            (addf (F := Ideal) (s := S16x16384) (φ := .f32)
              (Host.dotGeneral (φ₁ := .f32) (φ₂ := .f32) dot_S16x512_S512x16384_S16x16384_1_0_0_1_n_n none (W (Proc.devRef .tc main_v105))
                (transpose S512x16384 [1, 0] (W (Proc.devRef .tc main_arg21) : (⟨S16384x512, .f32⟩ : BufTy).Contents (Elt Ideal))
                  transposes_S16384x512_S512x16384_1_0))
              (broadcastInDim S16x16384 ![0, 1] bcast_S1x16384_S16x16384_0_1
                (broadcastInDim S1x16384 ![1] bcast_S16384_S1x16384_1
                  (W (Proc.devRef .tc main_arg22) : (⟨S16384, .f32⟩ : BufTy).Contents (Elt Ideal)))))
            shapeCasts_S16x16384_S16x128x128) transposes_S16x128x128_S16x128x128_0_2_1) bitsLt_bf16_f32 := by
  dsimp only [hostOps0_8]
  after_results
  rfl

/-- The left 128 columns of the first edge layer's weights, narrowed. -/
theorem tail_v116 :
    StableHlo.after (hostOps0_8 (F := Ideal)) W (Proc.devRef .tc main_v116)
      = truncf (F := Ideal) (s := S512x128) (φ := .f32) .bf16
          (extractStridedSlice S512x128 ![0, 0] (W (Proc.devRef .tc main_arg23) : (⟨S512x256, .f32⟩ : BufTy).Contents (Elt Ideal)) slices_S512x256_S512x128_0_0) bitsLt_bf16_f32 := by
  dsimp only [hostOps0_8]
  after_results

/-- The right 128 columns of the first edge layer's weights, narrowed. -/
theorem tail_v118 :
    StableHlo.after (hostOps0_8 (F := Ideal)) W (Proc.devRef .tc main_v118)
      = truncf (F := Ideal) (s := S512x128) (φ := .f32) .bf16
          (extractStridedSlice S512x128 ![0, 128] (W (Proc.devRef .tc main_arg23) : (⟨S512x256, .f32⟩ : BufTy).Contents (Elt Ideal)) slices_S512x256_S512x128_0_128) bitsLt_bf16_f32 := by
  dsimp only [hostOps0_8]
  after_results

/-- The second edge layer's weights, narrowed. -/
theorem tail_v119 :
    StableHlo.after (hostOps0_8 (F := Ideal)) W (Proc.devRef .tc main_v119)
      = truncf (F := Ideal) (s := S512x512) (φ := .f32) .bf16 (W (Proc.devRef .tc main_arg25) : (⟨S512x512, .f32⟩ : BufTy).Contents (Elt Ideal)) bitsLt_bf16_f32 := by
  dsimp only [hostOps0_8]
  after_results

/-- The third edge layer's row of weights, narrowed. -/
theorem tail_v120 :
    StableHlo.after (hostOps0_8 (F := Ideal)) W (Proc.devRef .tc main_v120)
      = truncf (F := Ideal) (s := S1x512) (φ := .f32) .bf16 (W (Proc.devRef .tc main_arg27) : (⟨S1x512, .f32⟩ : BufTy).Contents (Elt Ideal)) bitsLt_bf16_f32 := by
  dsimp only [hostOps0_8]
  after_results

/-- The first edge layer's bias as a column. -/
theorem tail_v121 :
    StableHlo.after (hostOps0_8 (F := Ideal)) W (Proc.devRef .tc main_v121)
      = shapeCast S512x1 (W (Proc.devRef .tc main_arg24) : (⟨S512, .f32⟩ : BufTy).Contents (Elt Ideal)) shapeCasts_S512_S512x1 := by
  dsimp only [hostOps0_8]
  after_results
  rfl

/-- The second edge layer's bias as a column. -/
theorem tail_v122 :
    StableHlo.after (hostOps0_8 (F := Ideal)) W (Proc.devRef .tc main_v122)
      = shapeCast S512x1 (W (Proc.devRef .tc main_arg26) : (⟨S512, .f32⟩ : BufTy).Contents (Elt Ideal)) shapeCasts_S512_S512x1 := by
  dsimp only [hostOps0_8]
  after_results
  rfl

/-- The third edge layer's scalar bias as a 1 × 1 array. -/
theorem tail_v123 :
    StableHlo.after (hostOps0_8 (F := Ideal)) W (Proc.devRef .tc main_v123)
      = shapeCast S1x1 (W (Proc.devRef .tc main_arg28) : (⟨S1, .f32⟩ : BufTy).Contents (Elt Ideal)) shapeCasts_S1_S1x1 := by
  dsimp only [hostOps0_8]
  after_results
  rfl

end Tail

/-! ## The arguments are read as launched -/

theorem pre_arg21 : preK m c (Proc.devRef .tc main_arg21) = m ((c : Thread nD τ).loc main_arg21) :=
  (tail_arg21 (preK m c)).symm.trans ((congrFun (V0_eq m c) _).symm.trans (V_main_arg21 m c))
theorem pre_arg22 : preK m c (Proc.devRef .tc main_arg22) = m ((c : Thread nD τ).loc main_arg22) :=
  (tail_arg22 (preK m c)).symm.trans ((congrFun (V0_eq m c) _).symm.trans (V_main_arg22 m c))
theorem pre_arg23 : preK m c (Proc.devRef .tc main_arg23) = m ((c : Thread nD τ).loc main_arg23) :=
  (tail_arg23 (preK m c)).symm.trans ((congrFun (V0_eq m c) _).symm.trans (V_main_arg23 m c))
theorem pre_arg24 : preK m c (Proc.devRef .tc main_arg24) = m ((c : Thread nD τ).loc main_arg24) :=
  (tail_arg24 (preK m c)).symm.trans ((congrFun (V0_eq m c) _).symm.trans (V_main_arg24 m c))
theorem pre_arg25 : preK m c (Proc.devRef .tc main_arg25) = m ((c : Thread nD τ).loc main_arg25) :=
  (tail_arg25 (preK m c)).symm.trans ((congrFun (V0_eq m c) _).symm.trans (V_main_arg25 m c))
theorem pre_arg26 : preK m c (Proc.devRef .tc main_arg26) = m ((c : Thread nD τ).loc main_arg26) :=
  (tail_arg26 (preK m c)).symm.trans ((congrFun (V0_eq m c) _).symm.trans (V_main_arg26 m c))
theorem pre_arg27 : preK m c (Proc.devRef .tc main_arg27) = m ((c : Thread nD τ).loc main_arg27) :=
  (tail_arg27 (preK m c)).symm.trans ((congrFun (V0_eq m c) _).symm.trans (V_main_arg27 m c))
theorem pre_arg28 : preK m c (Proc.devRef .tc main_arg28) = m ((c : Thread nD τ).loc main_arg28) :=
  (tail_arg28 (preK m c)).symm.trans ((congrFun (V0_eq m c) _).symm.trans (V_main_arg28 m c))

/-- The region's first operand is the embeddings, narrowed. -/
theorem V_v113 :
    V m c main_v113 = truncf (F := Ideal) (s := S16x128x128) (φ := .f32) .bf16 (embK m c) bitsLt_bf16_f32 := by
  show V0 m c (Proc.devRef .tc main_v113) = _
  rw [V0_eq, tail_v113, pre_arg21, pre_arg22]
  rfl

/-- The region's second operand is the embeddings transposed in their last two axes, narrowed. -/
theorem V_v114 :
    V m c main_v114 = truncf (F := Ideal) (s := S16x128x128) (φ := .f32) .bf16
      (transpose S16x128x128 [0, 2, 1] (embK m c) transposes_S16x128x128_S16x128x128_0_2_1) bitsLt_bf16_f32 := by
  show V0 m c (Proc.devRef .tc main_v114) = _
  rw [V0_eq, tail_v114, pre_arg21, pre_arg22]
  rfl

/-- The left 128 columns of the first edge layer's weights, narrowed. -/
theorem V_v116 :
    V m c main_v116
      = truncf (F := Ideal) (s := S512x128) (φ := .f32) .bf16
          (extractStridedSlice S512x128 ![0, 0] (m ((c : Thread nD τ).loc main_arg23) : (⟨S512x256, .f32⟩ : BufTy).Contents (Elt Ideal)) slices_S512x256_S512x128_0_0) bitsLt_bf16_f32 := by
  show V0 m c (Proc.devRef .tc main_v116) = _
  rw [V0_eq, tail_v116, pre_arg23]

/-- The right 128 columns of the first edge layer's weights, narrowed. -/
theorem V_v118 :
    V m c main_v118
      = truncf (F := Ideal) (s := S512x128) (φ := .f32) .bf16
          (extractStridedSlice S512x128 ![0, 128] (m ((c : Thread nD τ).loc main_arg23) : (⟨S512x256, .f32⟩ : BufTy).Contents (Elt Ideal)) slices_S512x256_S512x128_0_128) bitsLt_bf16_f32 := by
  show V0 m c (Proc.devRef .tc main_v118) = _
  rw [V0_eq, tail_v118, pre_arg23]

/-- The second edge layer's weights, narrowed. -/
theorem V_v119 :
    V m c main_v119
      = truncf (F := Ideal) (s := S512x512) (φ := .f32) .bf16 (m ((c : Thread nD τ).loc main_arg25) : (⟨S512x512, .f32⟩ : BufTy).Contents (Elt Ideal)) bitsLt_bf16_f32 := by
  show V0 m c (Proc.devRef .tc main_v119) = _
  rw [V0_eq, tail_v119, pre_arg25]

/-- The third edge layer's row of weights, narrowed. -/
theorem V_v120 :
    V m c main_v120
      = truncf (F := Ideal) (s := S1x512) (φ := .f32) .bf16 (m ((c : Thread nD τ).loc main_arg27) : (⟨S1x512, .f32⟩ : BufTy).Contents (Elt Ideal)) bitsLt_bf16_f32 := by
  show V0 m c (Proc.devRef .tc main_v120) = _
  rw [V0_eq, tail_v120, pre_arg27]

/-- The first edge layer's bias as a column. -/
theorem V_v121 :
    V m c main_v121
      = shapeCast S512x1 (m ((c : Thread nD τ).loc main_arg24) : (⟨S512, .f32⟩ : BufTy).Contents (Elt Ideal)) shapeCasts_S512_S512x1 := by
  show V0 m c (Proc.devRef .tc main_v121) = _
  rw [V0_eq, tail_v121, pre_arg24]

/-- The second edge layer's bias as a column. -/
theorem V_v122 :
    V m c main_v122
      = shapeCast S512x1 (m ((c : Thread nD τ).loc main_arg26) : (⟨S512, .f32⟩ : BufTy).Contents (Elt Ideal)) shapeCasts_S512_S512x1 := by
  show V0 m c (Proc.devRef .tc main_v122) = _
  rw [V0_eq, tail_v122, pre_arg26]

/-- The third edge layer's scalar bias as a 1 × 1 array. -/
theorem V_v123 :
    V m c main_v123
      = shapeCast S1x1 (m ((c : Thread nD τ).loc main_arg28) : (⟨S1, .f32⟩ : BufTy).Contents (Elt Ideal)) shapeCasts_S1_S1x1 := by
  show V0 m c (Proc.devRef .tc main_v123) = _
  rw [V0_eq, tail_v123, pre_arg28]

end Cert.KernelIdeal.KernelPre

end
-- ==== Proof.KernelBlocks.lean ====
/-
  From the grid's blocks to the whole array of logits.

  The grid has 16 × 8 points; point (b, it) reads rows 16·it, …, 16·it + 15 of graph b's embeddings as its query
  tile, all of graph b's embeddings (channel-major) as its key block, and the weights and biases whole; it writes
  rows 16·it, …, 16·it + 15 of graph b's 128 × 128 logits.  Every entry of the 16 × 128 × 128 result lies in exactly
  the block of the point (its graph, its row / 16), and what that point writes there is the network's logit for the
  entry's pair of nodes: so after the run the result array IS the array of logits.
-/
import proofs.«103251_j26508538151540_2_alg».proof.Proof.Gen.KernelIdeal.Frame
import proofs.«103251_j26508538151540_2_alg».proof.Proof.BodyRun
import proofs.«103251_j26508538151540_2_alg».proof.Proof.BlockSpec
import proofs.«103251_j26508538151540_2_alg».proof.Proof.KernelPre
import Idealize.ShloMosaic.Lib.Pipeline.Value

set_option maxRecDepth 16384

noncomputable section

namespace Cert.KernelIdeal.KernelBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.KernelPre (embK)

variable (m : (ℓ : Loc nD τ sig) → Buf (Elt Ideal) ℓ)

/-- The logits of every ordered pair of nodes of every graph, from the embeddings the host prefix computes and the
    network's weights as launched. -/
def logitsK (c : Dev nD) : S16x128x128.Idx → EReal :=
  Cert.EdgeSpec.logits (embK m c) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))

/-- The printed index maps, decided over the grid: the query tile and the output block move together, the key block
    follows the graph only, every other window stays at its one block. -/
theorem idx_facts : ∀ t : Fin cfg0.N,
    win0_0.index t (0 : Fin 3) = win0_9.index t (0 : Fin 3) ∧ win0_0.index t (1 : Fin 3) = win0_9.index t (1 : Fin 3)
    ∧ win0_0.index t (2 : Fin 3) = 0
    ∧ win0_1.index t (0 : Fin 3) = win0_9.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) < 16 ∧ win0_9.index t (1 : Fin 3) < 8 ∧ win0_9.index t (2 : Fin 3) = 0 :=
  (by decide +kernel : ∀ t : Fin grid0.N, _)

/-- Every (graph, row tile) is some point's output block. -/
theorem idx_onto : ∀ (q0 : Fin 16) (q1 : Fin 8), ∃ t : Fin cfg0.N, win0_9.index t = ![q0.val, q1.val, 0] :=
  (by decide +kernel : ∀ (q0 : Fin 16) (q1 : Fin 8), ∃ t : Fin grid0.N, win0_9.index t = ![q0.val, q1.val, 0])

set_option maxHeartbeats 8000000 in
/-- WHAT POINT t WRITES BACK is its block of the logits array. -/
theorem flushed_eq (c : Dev nD) (t : Fin cfg0.N) :
    (dats m 0 c).flushed 9 t = ((cfg0.win 9).blk t).view.read (Elt Ideal) (logitsK m c) := by
  show (cfg0.win 9).cut (grid0.coords t) ((dats m 0 c).after 9 t) = _
  rw [after0_9]
  unfold outsAt0
  obtain ⟨e00, e01, e02, e10, e11, e12, e20, e21, e30, e31, e40, e41, e50, e51, e60, e61, e70, e71, e80, e81, l0, l1, e92⟩ := idx_facts t
  funext y
  obtain ⟨a, r, j, rfl⟩ : ∃ (a : Fin 1) (r : Fin 16) (j : Fin 128), y = ix3 a r j := ⟨y 0, y 1, y 2, eq_ix3 y⟩
  obtain rfl : a = 0 := Subsingleton.elim _ _
  refine (Cert.KernelIdeal.BodyRun.out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) r j).trans ?_
  refine (Cert.KernelIdeal.BlockSpec.blockLogit_eq_logit (iblk m c 0 t) (iblk m c 1 t) (iblk m c 2 t) (iblk m c 3 t) (iblk m c 4 t) (iblk m c 5 t) (iblk m c 6 t) (iblk m c 7 t) (iblk m c 8 t)
    (embK m c) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))
    ⟨win0_9.index t (0 : Fin 3), l0⟩ (fun r => ⟨16 * win0_9.index t (1 : Fin 3) + r.val, by have := r.isLt; omega⟩)
    ?_ ?_ ?_ ?_ ?_ ?_ ?_ ?_ ?_ r j).trans ?_
  · -- the query tile
    intro r d
    unfold iblk
    rw [View.read_apply]
    show V m c main_v113 (((cfg0.win 0).blk t).view.emb (ix3 (0 : Fin 1) r d)) = _
    rw [Cert.KernelIdeal.KernelPre.V_v113]
    show embK m c _ = embK m c _
    congr 1
    funext ax; apply Fin.ext
    match ax with
    | ⟨0, _⟩ => show win0_0.index t (0 : Fin 3) * 1 + 1 * 0 = win0_9.index t (0 : Fin 3); omega
    | ⟨1, _⟩ => show win0_0.index t (1 : Fin 3) * 16 + 1 * r.val = 16 * win0_9.index t (1 : Fin 3) + r.val; omega
    | ⟨2, _⟩ => show win0_0.index t (2 : Fin 3) * 128 + 1 * d.val = d.val; omega
  · -- the key block: channel-major, so the node index is on the lanes
    intro d j
    unfold iblk
    rw [View.read_apply]
    show V m c main_v114 (((cfg0.win 1).blk t).view.emb (ix3 (0 : Fin 1) d j)) = _
    rw [Cert.KernelIdeal.KernelPre.V_v114]
    show transpose S16x128x128 [0, 2, 1] (embK m c) transposes_S16x128x128_S16x128x128_0_2_1 _ = embK m c _
    refine transpose_apply [0, 2, 1] (embK m c) _ _ _ (fun q => ?_)
    match q with
    | ⟨0, _⟩ => show win0_9.index t (0 : Fin 3) = win0_1.index t (0 : Fin 3) * 1 + 1 * 0; omega
    | ⟨1, _⟩ => show d.val = win0_1.index t (1 : Fin 3) * 128 + 1 * d.val; omega
    | ⟨2, _⟩ => show j.val = win0_1.index t (2 : Fin 3) * 128 + 1 * j.val; omega
  · -- the left half of the first layer's weights
    intro h d
    unfold iblk
    rw [View.read_apply]
    show V m c main_v116 (((cfg0.win 2).blk t).view.emb (ix2 h d)) = _
    rw [Cert.KernelIdeal.KernelPre.V_v116]
    refine extractStridedSlice_apply _ _ slices_S512x256_S512x128_0_0 _ _ (fun q => ?_)
    match q with
    | ⟨0, _⟩ => show h.val = 0 + (win0_2.index t (0 : Fin 2) * 512 + 1 * h.val); omega
    | ⟨1, _⟩ => show d.val = 0 + (win0_2.index t (1 : Fin 2) * 128 + 1 * d.val); omega
  · -- the right half
    intro h d
    unfold iblk
    rw [View.read_apply]
    show V m c main_v118 (((cfg0.win 3).blk t).view.emb (ix2 h d)) = _
    rw [Cert.KernelIdeal.KernelPre.V_v118]
    refine extractStridedSlice_apply _ _ slices_S512x256_S512x128_0_128 _ _ (fun q => ?_)
    match q with
    | ⟨0, _⟩ => show h.val = 0 + (win0_3.index t (0 : Fin 2) * 512 + 1 * h.val); omega
    | ⟨1, _⟩ => show 128 + d.val = 128 + (win0_3.index t (1 : Fin 2) * 128 + 1 * d.val); omega
  · -- the first layer's bias as a column
    intro h
    unfold iblk
    rw [View.read_apply]
    show V m c main_v121 (((cfg0.win 4).blk t).view.emb (ix2 h (0 : Fin 1))) = _
    rw [Cert.KernelIdeal.KernelPre.V_v121]
    refine shapeCast_apply _ shapeCasts_S512_S512x1 _ _ ?_
    rw [Shape.rowMajor_val_one, Shape.rowMajor_val_two]
    show h.val = (win0_4.index t (0 : Fin 2) * 512 + 1 * h.val) * 1 + (win0_4.index t (1 : Fin 2) * 1 + 1 * 0); omega
  · -- the second layer's weights
    intro g h
    unfold iblk
    rw [View.read_apply]
    show V m c main_v119 (((cfg0.win 5).blk t).view.emb (ix2 g h)) = _
    rw [Cert.KernelIdeal.KernelPre.V_v119]
    show (m ((c : Thread nD τ).loc main_arg25)) _ = (m ((c : Thread nD τ).loc main_arg25)) _
    congr 1
    funext ax; apply Fin.ext
    match ax with
    | ⟨0, _⟩ => show win0_5.index t (0 : Fin 2) * 512 + 1 * g.val = g.val; omega
    | ⟨1, _⟩ => show win0_5.index t (1 : Fin 2) * 512 + 1 * h.val = h.val; omega
  · -- the second layer's bias as a column
    intro g
    unfold iblk
    rw [View.read_apply]
    show V m c main_v122 (((cfg0.win 6).blk t).view.emb (ix2 g (0 : Fin 1))) = _
    rw [Cert.KernelIdeal.KernelPre.V_v122]
    refine shapeCast_apply _ shapeCasts_S512_S512x1 _ _ ?_
    rw [Shape.rowMajor_val_one, Shape.rowMajor_val_two]
    show g.val = (win0_6.index t (0 : Fin 2) * 512 + 1 * g.val) * 1 + (win0_6.index t (1 : Fin 2) * 1 + 1 * 0); omega
  · -- the last layer's row of weights
    intro g
    unfold iblk
    rw [View.read_apply]
    show V m c main_v120 (((cfg0.win 7).blk t).view.emb (ix2 (0 : Fin 1) g)) = _
    rw [Cert.KernelIdeal.KernelPre.V_v120]
    show (m ((c : Thread nD τ).loc main_arg27)) _ = (m ((c : Thread nD τ).loc main_arg27)) _
    congr 1
    funext ax; apply Fin.ext
    match ax with
    | ⟨0, _⟩ => show win0_7.index t (0 : Fin 2) * 1 + 1 * 0 = 0; omega
    | ⟨1, _⟩ => show win0_7.index t (1 : Fin 2) * 512 + 1 * g.val = g.val; omega
  · -- the last layer's scalar bias
    unfold iblk
    rw [View.read_apply]
    show V m c main_v123 (((cfg0.win 8).blk t).view.emb (ix2 (0 : Fin 1) (0 : Fin 1))) = _
    rw [Cert.KernelIdeal.KernelPre.V_v123]
    refine shapeCast_apply _ shapeCasts_S1_S1x1 _ _ ?_
    rw [Shape.rowMajor_val_one, Shape.rowMajor_val_two]
    show 0 = (win0_8.index t (0 : Fin 2) * 1 + 1 * 0) * 1 + (win0_8.index t (1 : Fin 2) * 1 + 1 * 0); omega
  · -- the entry's place in the result array
    rw [View.read_apply]
    show _ = logitsK m c (((cfg0.win 9).blk t).view.emb (ix3 (0 : Fin 1) r j))
    unfold logitsK Cert.EdgeSpec.logits
    show Cert.EdgeSpec.logit _ _ _ _ _ _ _ _ _ _ = Cert.EdgeSpec.logit _ _ _ _ _ _ _ _ _ _
    congr 1
    · exact Fin.ext (by show win0_9.index t (0 : Fin 3) = win0_9.index t (0 : Fin 3) * 1 + 1 * 0; omega)
    · exact Fin.ext (by show 16 * win0_9.index t (1 : Fin 3) + r.val = win0_9.index t (1 : Fin 3) * 16 + 1 * r.val; omega)
    · exact Fin.ext (by show j.val = win0_9.index t (2 : Fin 3) * 128 + 1 * j.val; omega)

/-- An index of the result array is in point t's block iff each coordinate is in the block's range on its axis. -/
theorem mem_blk (t : Fin cfg0.N) (i : S16x128x128.Idx) :
    i ∈ ((cfg0.win 9).blk t).view.set ↔ ∀ a : Fin 3, win0_9.index t a * S1x16x128.size a ≤ (i a).val
      ∧ (i a).val < win0_9.index t a * S1x16x128.size a + S1x16x128.size a := by
  show i ∈ ((View.whole main_v124).slice (win0_9.rect t)).set ↔ _
  rw [View.set_slice_whole, Rect.mem_set_unit]
  exact Iff.rfl

/-- Every entry of the result array is in some point's block: the point of its graph and of its row divided by 16. -/
theorem cover (i : S16x128x128.Idx) :
    ∃ t : Fin cfg0.N, (cfg0.win 9).flush t = true ∧ i ∈ ((cfg0.win 9).blk t).view.set := by
  have hi0 : (i 0).val < 16 := (i 0).isLt
  have hi1 : (i 1).val < 128 := (i 1).isLt
  have hi2 : (i 2).val < 128 := (i 2).isLt
  obtain ⟨t, ht⟩ := idx_onto ⟨(i 0).val, hi0⟩ ⟨(i 1).val / 16, by omega⟩
  have q0 : win0_9.index t (0 : Fin 3) = (i 0).val := congrFun ht 0
  have q1 : win0_9.index t (1 : Fin 3) = (i 1).val / 16 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 16 ≤ (i 1).val ∧ (i 1).val < win0_9.index t (1 : Fin 3) * 16 + 16; omega
  | ⟨2, _⟩ => show win0_9.index t (2 : Fin 3) * 128 ≤ (i 2).val ∧ (i 2).val < win0_9.index t (2 : Fin 3) * 128 + 128; omega

/-- THE RESULT ARRAY after the region is the array of logits. -/
theorem final (c : Dev nD) : (dats m 0 c).arrAt 9 cfg0.N = logitsK m c :=
  (dats m 0 c).arrAt_eq_of_cover 9 (logitsK m c) (fun t _ => flushed_eq m c t) (cover)

end Cert.KernelIdeal.KernelBlocks

end
-- ==== Proof.RefTail.lean ====
/-
  The symmetric adjacency logits as one function of the array of logits.

  Both programs end the same way on the array L of logits over (graph, i, j): the entries on or below the diagonal of
  each graph's 128 × 128 matrix are replaced by zero (a select on the comparison "row counter ≥ column counter",
  broadcast over the graphs), the result is transposed in its last two axes, and the two arrays are added.  `adjOf L`
  is that function spelt with the reference program's shape names, `adjOfK L` the same spelt with the kernel
  program's; the shapes are the same literals, so the two are one function.
-/
import proofs.«103251_j26508538151540_2_alg».proof.Proof.Gen.KernelIdeal
import proofs.«103251_j26508538151540_2_alg».proof.Proof.Gen.ReferenceIdeal
import Idealize.ShloMosaic.PureOps.Ideal

noncomputable section

namespace Cert.RefTail

open Idealize.ShloMosaic

section Reference
open Cert.ReferenceIdeal Cert.ReferenceIdeal.Gen

/-- The strict upper triangle of each graph's matrix of logits plus its transpose, in the reference program's names. -/
def adjOf (L : (⟨S16x128x128, .f32⟩ : BufTy).Contents (Elt Ideal)) : (⟨S16x128x128, .f32⟩ : BufTy).Contents (Elt Ideal) :=
  addf (F := Ideal) (s := S16x128x128) (φ := .f32)
    (select (broadcastInDim S16x128x128 ![1, 2] bcast_S128x128_S16x128x128_1_2
        (cmpi .sge (addi (iotaInDim S128x128 32 0) (broadcastInDim S128x128 ![] bcast_S_S128x128 (constantI S_ 32 0#32)))
          (iotaInDim S128x128 32 1)))
      (broadcastInDim S16x128x128 ![] bcast_S_S16x128x128 (constant (F := Ideal) S_ .f32 0x00000000#32)) L)
    (transpose S16x128x128 [0, 2, 1]
      (select (broadcastInDim S16x128x128 ![1, 2] bcast_S128x128_S16x128x128_1_2
          (cmpi .sge (addi (iotaInDim S128x128 32 0) (broadcastInDim S128x128 ![] bcast_S_S128x128 (constantI S_ 32 0#32)))
            (iotaInDim S128x128 32 1)))
        (broadcastInDim S16x128x128 ![] bcast_S_S16x128x128 (constant (F := Ideal) S_ .f32 0x00000000#32)) L)
      transposes_S16x128x128_S16x128x128_0_2_1)

end Reference

section Kernel
open Cert.KernelIdeal Cert.KernelIdeal.Gen

/-- The same function in the kernel program's names. -/
def adjOfK (L : (⟨S16x128x128, .f32⟩ : BufTy).Contents (Elt Ideal)) : (⟨S16x128x128, .f32⟩ : BufTy).Contents (Elt Ideal) :=
  addf (F := Ideal) (s := S16x128x128) (φ := .f32)
    (select (broadcastInDim S16x128x128 ![1, 2] bcast_S128x128_S16x128x128_1_2
        (cmpi .sge (addi (iotaInDim S128x128 32 0) (broadcastInDim S128x128 ![] bcast_S_S128x128 (constantI S_ 32 0#32)))
          (iotaInDim S128x128 32 1)))
      (broadcastInDim S16x128x128 ![] bcast_S_S16x128x128 (constant (F := Ideal) S_ .f32 0x00000000#32)) L)
    (transpose S16x128x128 [0, 2, 1]
      (select (broadcastInDim S16x128x128 ![1, 2] bcast_S128x128_S16x128x128_1_2
          (cmpi .sge (addi (iotaInDim S128x128 32 0) (broadcastInDim S128x128 ![] bcast_S_S128x128 (constantI S_ 32 0#32)))
            (iotaInDim S128x128 32 1)))
        (broadcastInDim S16x128x128 ![] bcast_S_S16x128x128 (constant (F := Ideal) S_ .f32 0x00000000#32)) L)
      transposes_S16x128x128_S16x128x128_0_2_1)

end Kernel

/-- The two spellings are one function. -/
theorem adjOf_eq_adjOfK : adjOf = adjOfK := rfl

end Cert.RefTail

end
-- ==== Proof.KernelTail.lean ====
/-
  The host operations after the region, read back.

  After the grid has run, the program keeps the strict upper triangle of every graph's 128 × 128 matrix of logits
  (a select against the comparison of a row counter with a column counter), transposes that in its last two axes, and
  adds the two.  Whatever the region's result array holds, the program's result is that function of it.
-/
import proofs.«103251_j26508538151540_2_alg».proof.Proof.Gen.KernelIdeal.Frame
import proofs.«103251_j26508538151540_2_alg».proof.Proof.RefTail
import Idealize.ShloMosaic.Lib.StableHlo.Run

set_option maxRecDepth 16384

noncomputable section

namespace Cert.KernelIdeal.KernelTail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The program's result from the region's result array. -/
theorem tail_of (c : Dev nD) (L : (⟨S16x128x128, .f32⟩ : BufTy).Contents (Elt Ideal))
    (hL : (dats m 0 c).arrAt 9 cfg0.N = L) :
    Pipeline.afterTail₀ cfgs (dats m) 0 (V0 m) [hostOps1, hostOps1_1] c main_v127 = Cert.RefTail.adjOfK L := by
  unfold Pipeline.afterTail₀
  simp only [hostOps1, hostOps1_1, List.flatten_cons, List.flatten_nil, List.append_nil, List.cons_append, List.nil_append]
  after_results_simp
  have hw : Pipeline.withArrays (cfgs 0).spec c (V0 m c) (fun w => (dats m 0 c).arrAt w (cfgs 0).N) (Proc.devRef .tc main_v124) = L :=
    (Pipeline.withArrays_arr spec0 launch0.win.arr_inj c _ _ 9).trans hL
  rw [hw]
  rfl

end Cert.KernelIdeal.KernelTail

end
-- ==== Proof.KernelRun.lean ====
/-
  The idealized kernel program's run, with its result named.

  Every weakly fair execution of the program terminates; the region's result array ends at the array of logits (the
  blocks the grid writes tile it, and each is the network applied to its pairs of nodes), the host operations after
  the region turn that into the symmetric adjacency logits, and no argument array is written.
-/
import proofs.«103251_j26508538151540_2_alg».proof.Proof.KernelBlocks
import proofs.«103251_j26508538151540_2_alg».proof.Proof.KernelTail

set_option maxRecDepth 16384

noncomputable section

namespace Cert.KernelIdeal.KernelRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

set_option maxHeartbeats 4000000 in
theorem run : θ_run defs (onTc (τ := τ) (main (F := Ideal))) ⟨m, fun _ => 0, ρ⟩ (fun r => ∀ c : Dev nD,
      r.2.mem ((c.tc : Thread nD τ).loc main_v127) = Cert.RefTail.adjOfK (Cert.KernelIdeal.KernelBlocks.logitsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨
      ((h c).2 main_v127 (Pipeline.mem_restRefs_of main_v127 (by decide) (by decide))).trans
        (Cert.KernelIdeal.KernelTail.tail_of m c _ (Cert.KernelIdeal.KernelBlocks.final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c)⟩) (run_main m ρ)

end Cert.KernelIdeal.KernelRun

end
-- ==== Proof.LibSumSplit.lean ====
/-
  Sums over an initial segment of the naturals, cut into consecutive runs.

  A sum of `a + b` terms is the sum of its first `a` terms plus the sum of its last `b` terms, in any commutative
  additive monoid (no subtraction, no cancellation: the extended reals qualify).  The forms below spell the two halves
  over `Fin a` and `Fin b` with the positions written out as naturals, which is how an index into a concatenation of
  two blocks along one axis presents itself; and the three-run form `a + b + 1` is a contraction over two blocks of
  features followed by one scalar feature.
-/
import Mathlib.Algebra.BigOperators.Fin

namespace Cert.LibSumSplit

open Finset

variable {M : Type*} [AddCommMonoid M]

/-- A sum over `Fin (a + b)` as the sum of the first `a` terms plus the sum of the last `b` terms, positions as naturals. -/
theorem sum_two {a b n : ℕ} (h : a + b = n) (f : Fin n → M) :
    ∑ i : Fin n, f i
      = (∑ i : Fin a, f ⟨i.val, by omega⟩) + ∑ i : Fin b, f ⟨a + i.val, by omega⟩ := by
  subst h
  rw [Fin.sum_univ_add]
  rfl

/-- A sum over `Fin (a + b + 1)`: the first `a` terms, the next `b` terms, and the last term. -/
theorem sum_two_one {a b n : ℕ} (h : a + b + 1 = n) (f : Fin n → M) :
    ∑ i : Fin n, f i
      = ((∑ i : Fin a, f ⟨i.val, by omega⟩) + ∑ i : Fin b, f ⟨a + i.val, by omega⟩) + f ⟨a + b, by omega⟩ := by
  subst h
  rw [Fin.sum_univ_castSucc, sum_two (a := a) (b := b) rfl]
  rfl

/-- A run of terms that are all zero contributes nothing: the sum over `Fin (a + b)` whose first `a` terms vanish
    is the sum of its last `b` terms. -/
theorem sum_two_of_left_zero {a b n : ℕ} (h : a + b = n) (f : Fin n → M)
    (hz : ∀ i : Fin a, f ⟨i.val, by omega⟩ = 0) :
    ∑ i : Fin n, f i = ∑ i : Fin b, f ⟨a + i.val, by omega⟩ := by
  rw [sum_two h f, Finset.sum_eq_zero (fun i _ => hz i), zero_add]

end Cert.LibSumSplit
-- ==== Proof.RefLogits.lean ====
/-
  The reference's pairwise edge network, read index by index, is the edge specification.

  The reference lays the embeddings of nodes i and j of graph b side by side (256 numbers: node i's 128 first, node j's
  128 last), and sends the pair through three affine layers, the first two rectified: a contraction over the 256 joined
  coordinates against a 512 × 256 weight matrix plus a bias; a contraction over 512 hidden units against a 512 × 512
  matrix plus a bias; one row of 512 weights plus a scalar bias.  Read at the index (b, i, j):

  • a joined coordinate below 128 reads node i's embedding, one at or past 128 reads node j's (the two halves of the
    concatenation along the last axis);
  • so the first contraction, cut at coordinate 128, is the left half of the weights against node i's embedding plus
    the right half against node j's; the bias, added by the reference to the whole sum, moves to the second half by
    associativity;
  • the reference multiplies operand by weight where the specification multiplies weight by operand.

  Only commutativity and associativity of the extended reals' sum and product are used: they hold with the infinities,
  where distributivity and cancellation fail.  The embeddings themselves are never opened: every statement is about the
  array of embeddings as a whole.
-/
import proofs.«103251_j26508538151540_2_alg».proof.Proof.Gen.ReferenceIdeal.Read
import proofs.«103251_j26508538151540_2_alg».proof.Proof.EdgeSpec
import proofs.«103251_j26508538151540_2_alg».proof.Proof.LibSumSplit

noncomputable section

namespace Cert.RefLogits

open Cert.ReferenceIdeal Cert.ReferenceIdeal.Gen Cert.ReferenceIdeal.Read Cert.EdgeSpec
open Idealize.ShloMosaic Idealize.ShloMosaic.ValueIdx

/-! ## The pair of embeddings laid side by side -/

/-- A coordinate in the first half of the joined axis reads the first piece at the same coordinates. -/
theorem cat_left (y₁ y₂ : (⟨S16x128x128x128, .f32⟩ : BufTy).Contents (Elt Ideal)) (b : Fin 16) (i j d : Fin 128) :
    concatenate S16x128x128x256 3 [⟨S16x128x128x128, y₁⟩, ⟨S16x128x128x128, y₂⟩]
        concatenates_S16x128x128x128_S16x128x128x128_S16x128x128x256_d3 (ix4 b i j (colL d))
      = y₁ (ix4 b i j d) :=
  concatenate_pair_apply_left (t := S16x128x128x256) (s₁ := S16x128x128x128) (s₂ := S16x128x128x128) 3 y₁ y₂
    concatenates_S16x128x128x128_S16x128x128x128_S16x128x128x256_d3 (ix4 b i j (colL d)) rfl (ix4 b i j d)
    (fun a => match a with
      | ⟨0, _⟩ => rfl
      | ⟨1, _⟩ => rfl
      | ⟨2, _⟩ => rfl
      | ⟨3, _⟩ => rfl)

/-- A coordinate in the second half of the joined axis reads the second piece, the first piece's extent less. -/
theorem cat_right (y₁ y₂ : (⟨S16x128x128x128, .f32⟩ : BufTy).Contents (Elt Ideal)) (b : Fin 16) (i j d : Fin 128) :
    concatenate S16x128x128x256 3 [⟨S16x128x128x128, y₁⟩, ⟨S16x128x128x128, y₂⟩]
        concatenates_S16x128x128x128_S16x128x128x128_S16x128x128x256_d3 (ix4 b i j (colR d))
      = y₂ (ix4 b i j d) :=
  concatenate_pair_apply_right (t := S16x128x128x256) (s₁ := S16x128x128x128) (s₂ := S16x128x128x128) 3 y₁ y₂
    concatenates_S16x128x128x128_S16x128x128x128_S16x128x128x256_d3 (ix4 b i j (colR d)) rfl rfl (ix4 b i j d)
    (fun a => match a with
      | ⟨0, _⟩ => fun _ => rfl
      | ⟨1, _⟩ => fun _ => rfl
      | ⟨2, _⟩ => fun _ => rfl
      | ⟨3, _⟩ => fun h => absurd rfl h)
    (Nat.add_comm _ _)

/-! ## The first layer's contraction, cut at the join

A contraction over the 256 joined coordinates, operand times weight, plus a bias, is the weight's left half against
the first 128 operand values plus (the right half against the last 128, plus the bias).  Only commutativity and
associativity of the extended reals' sum and product are used. -/

theorem first_layer_sum (v w : Fin 256 → EReal) (β : EReal) (eL eR : Fin 128 → EReal)
    (hL : ∀ d, v (colL d) = eL d) (hR : ∀ d, v (colR d) = eR d) :
    (∑ k : Fin 256, v k * w k) + β
      = (∑ d : Fin 128, w (colL d) * eL d) + ((∑ d : Fin 128, w (colR d) * eR d) + β) := by
  rw [Cert.LibSumSplit.sum_two (a := 128) (b := 128) rfl, add_assoc]
  refine congrArg₂ (· + ·) (Finset.sum_congr rfl fun d _ => ?_) (congrArg (· + β) (Finset.sum_congr rfl fun d _ => ?_))
  · show v (colL d) * w (colL d) = w (colL d) * eL d
    rw [hL, mul_comm]
  · show v (colR d) * w (colR d) = w (colR d) * eR d
    rw [hR, mul_comm]

/-! ## The index functions of the generated reads, at an index given by its coordinates -/

theorem idx143 (b : Fin 16) (i j : Fin 128) : idx_main_v143 (ix3 b i j) = ix4 b i j (0 : Fin 1) :=
  funext fun a => Fin.ext (by
    have hb := b.isLt; have hi := i.isLt; have hj := j.isLt
    match a with
    | ⟨0, _⟩ => show ((b.val * 128 + i.val) * 128 + j.val) / 16384 = b.val; omega
    | ⟨1, _⟩ => show ((b.val * 128 + i.val) * 128 + j.val) / 128 % 128 = i.val; omega
    | ⟨2, _⟩ => show ((b.val * 128 + i.val) * 128 + j.val) / 1 % 128 = j.val; omega
    | ⟨3, _⟩ => rfl)

theorem lidx129 (b : Fin 16) (i j : Fin 128) (h : Fin 512) (k : Fin 256) :
    lidx_main_v129 (ix4 b i j h) k = ix4 b i j k :=
  funext fun a => match a with
    | ⟨0, _⟩ => rfl
    | ⟨1, _⟩ => rfl
    | ⟨2, _⟩ => rfl
    | ⟨3, _⟩ => rfl
theorem ridx129 (b : Fin 16) (i j : Fin 128) (h : Fin 512) (k : Fin 256) :
    ridx_main_v129 (ix4 b i j h) k = ix2 h k :=
  funext fun a => match a with
    | ⟨0, _⟩ => rfl
    | ⟨1, _⟩ => rfl
theorem lidx134 (b : Fin 16) (i j : Fin 128) (g : Fin 512) (k : Fin 512) :
    lidx_main_v134 (ix4 b i j g) k = ix4 b i j k :=
  funext fun a => match a with
    | ⟨0, _⟩ => rfl
    | ⟨1, _⟩ => rfl
    | ⟨2, _⟩ => rfl
    | ⟨3, _⟩ => rfl
theorem ridx134 (b : Fin 16) (i j : Fin 128) (g : Fin 512) (k : Fin 512) :
    ridx_main_v134 (ix4 b i j g) k = ix2 g k :=
  funext fun a => match a with
    | ⟨0, _⟩ => rfl
    | ⟨1, _⟩ => rfl
theorem lidx139 (b : Fin 16) (i j : Fin 128) (z : Fin 1) (k : Fin 512) :
    lidx_main_v139 (ix4 b i j z) k = ix4 b i j k :=
  funext fun a => match a with
    | ⟨0, _⟩ => rfl
    | ⟨1, _⟩ => rfl
    | ⟨2, _⟩ => rfl
    | ⟨3, _⟩ => rfl
theorem ridx139 (b : Fin 16) (i j : Fin 128) (z : Fin 1) (k : Fin 512) :
    ridx_main_v139 (ix4 b i j z) k = ix2 z k :=
  funext fun a => match a with
    | ⟨0, _⟩ => rfl
    | ⟨1, _⟩ => rfl

variable (x0 : (⟨S4096x128, .f32⟩ : BufTy).Contents (Elt Ideal))
variable (x1 : (⟨S16x16, .f32⟩ : BufTy).Contents (Elt Ideal))
variable (x2 : (⟨S2x65536, .i32⟩ : BufTy).Contents (Elt Ideal))
variable (x3 : (⟨S4096, .i32⟩ : BufTy).Contents (Elt Ideal))
variable (x4 : (⟨S256x128, .f32⟩ : BufTy).Contents (Elt Ideal))
variable (x5 : (⟨S256, .f32⟩ : BufTy).Contents (Elt Ideal))
variable (x6 : (⟨S256x128, .f32⟩ : BufTy).Contents (Elt Ideal))
variable (x7 : (⟨S256x256, .f32⟩ : BufTy).Contents (Elt Ideal))
variable (x8 : (⟨S256, .f32⟩ : BufTy).Contents (Elt Ideal))
variable (x9 : (⟨S256x256, .f32⟩ : BufTy).Contents (Elt Ideal))
variable (x10 : (⟨S256x256, .f32⟩ : BufTy).Contents (Elt Ideal))
variable (x11 : (⟨S256, .f32⟩ : BufTy).Contents (Elt Ideal))
variable (x12 : (⟨S256x256, .f32⟩ : BufTy).Contents (Elt Ideal))
variable (x13 : (⟨S256, .f32⟩ : BufTy).Contents (Elt Ideal))
variable (x14 : (⟨S256, .f32⟩ : BufTy).Contents (Elt Ideal))
variable (x15 : (⟨S256x256, .f32⟩ : BufTy).Contents (Elt Ideal))
variable (x16 : (⟨S256, .f32⟩ : BufTy).Contents (Elt Ideal))
variable (x17 : (⟨S64x256, .f32⟩ : BufTy).Contents (Elt Ideal))
variable (x18 : (⟨S64, .f32⟩ : BufTy).Contents (Elt Ideal))
variable (x19 : (⟨S512x80, .f32⟩ : BufTy).Contents (Elt Ideal))
variable (x20 : (⟨S512, .f32⟩ : BufTy).Contents (Elt Ideal))
variable (x21 : (⟨S16384x512, .f32⟩ : BufTy).Contents (Elt Ideal))
variable (x22 : (⟨S16384, .f32⟩ : BufTy).Contents (Elt Ideal))
variable (x23 : (⟨S512x256, .f32⟩ : BufTy).Contents (Elt Ideal))
variable (x24 : (⟨S512, .f32⟩ : BufTy).Contents (Elt Ideal))
variable (x25 : (⟨S512x512, .f32⟩ : BufTy).Contents (Elt Ideal))
variable (x26 : (⟨S512, .f32⟩ : BufTy).Contents (Elt Ideal))
variable (x27 : (⟨S1x512, .f32⟩ : BufTy).Contents (Elt Ideal))
variable (x28 : (⟨S1, .f32⟩ : BufTy).Contents (Elt Ideal))

/-! ## The joined pair read at an index -/

/-- The first 128 joined coordinates at (b, i, j) are node i's embedding. -/
theorem read_pair_left (b : Fin 16) (i j d : Fin 128) :
    val_main_v128 (F := Ideal) x0 x1 x2 x3 x4 x5 x6 x7 x8 x9 x10 x11 x12 x13 x14 x15 x16 x17 x18 x19 x20 x21 x22 (ix4 b i j (colL d)) = val_main_v123 (F := Ideal) x0 x1 x2 x3 x4 x5 x6 x7 x8 x9 x10 x11 x12 x13 x14 x15 x16 x17 x18 x19 x20 x21 x22 (ix3 b i d) := by
  unfold val_main_v128
  rw [cat_left, val_main_v125_apply, val_main_v124_apply]
  exact congrArg _ (funext fun a => match a with
    | ⟨0, _⟩ => rfl
    | ⟨1, _⟩ => rfl
    | ⟨2, _⟩ => rfl)

/-- The last 128 joined coordinates at (b, i, j) are node j's embedding. -/
theorem read_pair_right (b : Fin 16) (i j d : Fin 128) :
    val_main_v128 (F := Ideal) x0 x1 x2 x3 x4 x5 x6 x7 x8 x9 x10 x11 x12 x13 x14 x15 x16 x17 x18 x19 x20 x21 x22 (ix4 b i j (colR d)) = val_main_v123 (F := Ideal) x0 x1 x2 x3 x4 x5 x6 x7 x8 x9 x10 x11 x12 x13 x14 x15 x16 x17 x18 x19 x20 x21 x22 (ix3 b j d) := by
  unfold val_main_v128
  rw [cat_right, val_main_v127_apply, val_main_v126_apply]
  exact congrArg _ (funext fun a => match a with
    | ⟨0, _⟩ => rfl
    | ⟨1, _⟩ => rfl
    | ⟨2, _⟩ => rfl)

/-! ## The three layers -/

/-- The rectified first layer of the reference at (b, i, j, h) is the specification's. -/
theorem read_layer1 (b : Fin 16) (i j : Fin 128) (h : Fin 512) :
    val_main_v133 (F := Ideal) x0 x1 x2 x3 x4 x5 x6 x7 x8 x9 x10 x11 x12 x13 x14 x15 x16 x17 x18 x19 x20 x21 x22 x23 x24 (ix4 b i j h)
      = layer1 (val_main_v123 (F := Ideal) x0 x1 x2 x3 x4 x5 x6 x7 x8 x9 x10 x11 x12 x13 x14 x15 x16 x17 x18 x19 x20 x21 x22) x23 x24 b i j h := by
  rw [val_main_v133_apply, val_main_v132_apply, val_main_v129_apply, val_main_call4_v0_apply, val_main_call4_cst_apply,
    val_main_v131_apply, val_main_v130_apply]
  simp only [lidx129, ridx129]
  rw [show idx_main_v130 (idx_main_v131 (ix4 b i j h)) = ix1 h from funext fun a => match a with | ⟨0, _⟩ => rfl]
  exact congrArg (max · zw) (first_layer_sum (fun k => val_main_v128 (F := Ideal) x0 x1 x2 x3 x4 x5 x6 x7 x8 x9 x10 x11 x12 x13 x14 x15 x16 x17 x18 x19 x20 x21 x22 (ix4 b i j k))
    (fun k => x23 (ix2 h k)) (x24 (ix1 h)) (fun d => val_main_v123 (F := Ideal) x0 x1 x2 x3 x4 x5 x6 x7 x8 x9 x10 x11 x12 x13 x14 x15 x16 x17 x18 x19 x20 x21 x22 (ix3 b i d))
    (fun d => val_main_v123 (F := Ideal) x0 x1 x2 x3 x4 x5 x6 x7 x8 x9 x10 x11 x12 x13 x14 x15 x16 x17 x18 x19 x20 x21 x22 (ix3 b j d))
    (read_pair_left x0 x1 x2 x3 x4 x5 x6 x7 x8 x9 x10 x11 x12 x13 x14 x15 x16 x17 x18 x19 x20 x21 x22 b i j) (read_pair_right x0 x1 x2 x3 x4 x5 x6 x7 x8 x9 x10 x11 x12 x13 x14 x15 x16 x17 x18 x19 x20 x21 x22 b i j))

/-- The rectified second layer of the reference at (b, i, j, g) is the specification's. -/
theorem read_layer2 (b : Fin 16) (i j : Fin 128) (g : Fin 512) :
    val_main_v138 (F := Ideal) x0 x1 x2 x3 x4 x5 x6 x7 x8 x9 x10 x11 x12 x13 x14 x15 x16 x17 x18 x19 x20 x21 x22 x23 x24 x25 x26 (ix4 b i j g)
      = layer2 (val_main_v123 (F := Ideal) x0 x1 x2 x3 x4 x5 x6 x7 x8 x9 x10 x11 x12 x13 x14 x15 x16 x17 x18 x19 x20 x21 x22) x23 x24 x25 x26 b i j g := by
  rw [val_main_v138_apply, val_main_v137_apply, val_main_v134_apply, val_main_call5_v0_apply, val_main_call5_cst_apply,
    val_main_v136_apply, val_main_v135_apply]
  rw [show idx_main_v135 (idx_main_v136 (ix4 b i j g)) = ix1 g from funext fun a => match a with | ⟨0, _⟩ => rfl]
  refine congrArg (fun s => max (s + x26 (ix1 g)) zw) (Finset.sum_congr rfl fun k _ => ?_)
  rw [lidx134, ridx134, read_layer1, mul_comm]

/-- The reference's logits are the specification's, as arrays over (graph, i, j). -/
theorem logits_eq :
    val_main_v143 (F := Ideal) x0 x1 x2 x3 x4 x5 x6 x7 x8 x9 x10 x11 x12 x13 x14 x15 x16 x17 x18 x19 x20 x21 x22 x23 x24 x25 x26 x27 x28
      = logits (val_main_v123 (F := Ideal) x0 x1 x2 x3 x4 x5 x6 x7 x8 x9 x10 x11 x12 x13 x14 x15 x16 x17 x18 x19 x20 x21 x22) x23 x24 x25 x26 x27 x28 := by
  funext q
  obtain ⟨b, i, j, rfl⟩ : ∃ b i j, q = ix3 b i j := ⟨q 0, q 1, q 2, eq_ix3 q⟩
  rw [logits_apply, val_main_v143_apply, idx143, val_main_v142_apply, val_main_v139_apply, val_main_v141_apply,
    val_main_v140_apply]
  rw [show idx_main_v140 (idx_main_v141 (ix4 b i j (0 : Fin 1))) = ix1 (0 : Fin 1) from
    funext fun a => match a with | ⟨0, _⟩ => rfl]
  refine congrArg (fun s => s + x28 (ix1 (0 : Fin 1))) (Finset.sum_congr rfl fun k _ => ?_)
  rw [lidx139, ridx139, read_layer2, mul_comm]

end Cert.RefLogits

end
-- ==== Proof.RefRun.lean ====
/-
  The reference's run, its result stated through the edge specification.

  The reference ends with three operations on the array L of logits over (graph, i, j): it keeps the entries strictly
  above the diagonal of each graph's 128 × 128 matrix (a select against the comparison of the row and column
  counters, zero elsewhere), transposes the last two axes of that, and adds the two: the symmetric adjacency logits.
  `adjOf L` is those three operations as one function of L, spelt out once for both programs.  Every weakly fair
  execution of the reference terminates with its result at `adjOf` of the specification's logits of the embeddings,
  and its arguments unchanged.
-/
import proofs.«103251_j26508538151540_2_alg».proof.Proof.RefLogits
import proofs.«103251_j26508538151540_2_alg».proof.Proof.RefTail

noncomputable section

namespace Cert.RefRun

open Cert.ReferenceIdeal Cert.ReferenceIdeal.Gen Cert.ReferenceIdeal.Read Cert.RefTail
open Idealize.ShloMosaic Idealize.ShloMosaic.TcCoe Idealize.SL.Sem Idealize.ShloMosaic.StableHlo

variable (x0 : (⟨S4096x128, .f32⟩ : BufTy).Contents (Elt Ideal))
variable (x1 : (⟨S16x16, .f32⟩ : BufTy).Contents (Elt Ideal))
variable (x2 : (⟨S2x65536, .i32⟩ : BufTy).Contents (Elt Ideal))
variable (x3 : (⟨S4096, .i32⟩ : BufTy).Contents (Elt Ideal))
variable (x4 : (⟨S256x128, .f32⟩ : BufTy).Contents (Elt Ideal))
variable (x5 : (⟨S256, .f32⟩ : BufTy).Contents (Elt Ideal))
variable (x6 : (⟨S256x128, .f32⟩ : BufTy).Contents (Elt Ideal))
variable (x7 : (⟨S256x256, .f32⟩ : BufTy).Contents (Elt Ideal))
variable (x8 : (⟨S256, .f32⟩ : BufTy).Contents (Elt Ideal))
variable (x9 : (⟨S256x256, .f32⟩ : BufTy).Contents (Elt Ideal))
variable (x10 : (⟨S256x256, .f32⟩ : BufTy).Contents (Elt Ideal))
variable (x11 : (⟨S256, .f32⟩ : BufTy).Contents (Elt Ideal))
variable (x12 : (⟨S256x256, .f32⟩ : BufTy).Contents (Elt Ideal))
variable (x13 : (⟨S256, .f32⟩ : BufTy).Contents (Elt Ideal))
variable (x14 : (⟨S256, .f32⟩ : BufTy).Contents (Elt Ideal))
variable (x15 : (⟨S256x256, .f32⟩ : BufTy).Contents (Elt Ideal))
variable (x16 : (⟨S256, .f32⟩ : BufTy).Contents (Elt Ideal))
variable (x17 : (⟨S64x256, .f32⟩ : BufTy).Contents (Elt Ideal))
variable (x18 : (⟨S64, .f32⟩ : BufTy).Contents (Elt Ideal))
variable (x19 : (⟨S512x80, .f32⟩ : BufTy).Contents (Elt Ideal))
variable (x20 : (⟨S512, .f32⟩ : BufTy).Contents (Elt Ideal))
variable (x21 : (⟨S16384x512, .f32⟩ : BufTy).Contents (Elt Ideal))
variable (x22 : (⟨S16384, .f32⟩ : BufTy).Contents (Elt Ideal))
variable (x23 : (⟨S512x256, .f32⟩ : BufTy).Contents (Elt Ideal))
variable (x24 : (⟨S512, .f32⟩ : BufTy).Contents (Elt Ideal))
variable (x25 : (⟨S512x512, .f32⟩ : BufTy).Contents (Elt Ideal))
variable (x26 : (⟨S512, .f32⟩ : BufTy).Contents (Elt Ideal))
variable (x27 : (⟨S1x512, .f32⟩ : BufTy).Contents (Elt Ideal))
variable (x28 : (⟨S1, .f32⟩ : BufTy).Contents (Elt Ideal))

/-- The reference's last array is `adjOf` of its array of logits. -/
theorem v146_eq_adjOf :
    val_main_v146 (F := Ideal) x0 x1 x2 x3 x4 x5 x6 x7 x8 x9 x10 x11 x12 x13 x14 x15 x16 x17 x18 x19 x20 x21 x22 x23 x24 x25 x26 x27 x28 = adjOf (val_main_v143 (F := Ideal) x0 x1 x2 x3 x4 x5 x6 x7 x8 x9 x10 x11 x12 x13 x14 x15 x16 x17 x18 x19 x20 x21 x22 x23 x24 x25 x26 x27 x28) := rfl

/-- The reference's last array is `adjOf` of the specification's logits of the embeddings. -/
theorem v146_eq_spec :
    val_main_v146 (F := Ideal) x0 x1 x2 x3 x4 x5 x6 x7 x8 x9 x10 x11 x12 x13 x14 x15 x16 x17 x18 x19 x20 x21 x22 x23 x24 x25 x26 x27 x28
      = adjOf (Cert.EdgeSpec.logits (val_main_v123 (F := Ideal) x0 x1 x2 x3 x4 x5 x6 x7 x8 x9 x10 x11 x12 x13 x14 x15 x16 x17 x18 x19 x20 x21 x22) x23 x24 x25 x26 x27 x28) := by
  rw [v146_eq_adjOf, Cert.RefLogits.logits_eq]

end Cert.RefRun

namespace Cert.RefRun

open Cert.ReferenceIdeal Cert.ReferenceIdeal.Gen Cert.ReferenceIdeal.Read Cert.RefTail
open Idealize.ShloMosaic Idealize.ShloMosaic.TcCoe Idealize.SL.Sem Idealize.ShloMosaic.StableHlo

/-- On every device, from any memory with zero counters: every weakly fair execution of the reference terminates with
    its result at the symmetric adjacency logits of the specification's edge network applied to the embeddings, and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146) = adjOf (Cert.EdgeSpec.logits (val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
          (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c).1.trans (by rw [val_main_v146_eq, v146_eq_spec]), (h c).2⟩)
    (Cert.ReferenceIdeal.Value.run (F := Ideal) m ρ)

end Cert.RefRun

end
-- ==== Proof.EmbAgree.lean ====
/-
  The two programs compute the same node embeddings.

  Before its region the kernel program computes, on the host, the embeddings the reference computes: the same
  operations on the same arguments (a message-passing encoder, then a two-layer decoder whose rectified hidden layer
  is 16 × 512 and whose output, 16 × 16384, is reshaped to 16 × 128 × 128).  The kernel program computes a node's
  degree once where the reference computes it three times; as a function of the arguments that is no difference.
  So from memories that agree on the arguments the reference's hidden layer is the kernel program's buffer after its
  host operations, and the embeddings follow by the last six operations, which are the same on both sides.
-/
import proofs.«103251_j26508538151540_2_alg».proof.Proof.KernelPre
import proofs.«103251_j26508538151540_2_alg».proof.Proof.Gen.ReferenceIdeal.Read

set_option maxRecDepth 16384

noncomputable section

namespace Cert.EmbAgree

open Idealize.ShloMosaic Idealize.ShloMosaic.TcCoe Idealize.SL.Sem
open Cert.KernelIdeal.KernelPre

/-! ## Over arrays that are the kernel memory's arguments -/

set_option maxHeartbeats 40000000 in
/-- The decoder's rectified hidden layer: the reference's function of the first twenty-one arguments, at the kernel
    memory's arguments, is the kernel program's buffer after its own host operations. -/
theorem hid_agree_at (m : (ℓ : Loc Cert.KernelIdeal.nD Cert.KernelIdeal.τ Cert.KernelIdeal.sig) → Buf (Elt Ideal) ℓ) (c : Dev Cert.KernelIdeal.nD)
    (x0 : (⟨Cert.ReferenceIdeal.S4096x128, .f32⟩ : BufTy).Contents (Elt Ideal))
    (x1 : (⟨Cert.ReferenceIdeal.S16x16, .f32⟩ : BufTy).Contents (Elt Ideal))
    (x2 : (⟨Cert.ReferenceIdeal.S2x65536, .i32⟩ : BufTy).Contents (Elt Ideal))
    (x3 : (⟨Cert.ReferenceIdeal.S4096, .i32⟩ : BufTy).Contents (Elt Ideal))
    (x4 : (⟨Cert.ReferenceIdeal.S256x128, .f32⟩ : BufTy).Contents (Elt Ideal))
    (x5 : (⟨Cert.ReferenceIdeal.S256, .f32⟩ : BufTy).Contents (Elt Ideal))
    (x6 : (⟨Cert.ReferenceIdeal.S256x128, .f32⟩ : BufTy).Contents (Elt Ideal))
    (x7 : (⟨Cert.ReferenceIdeal.S256x256, .f32⟩ : BufTy).Contents (Elt Ideal))
    (x8 : (⟨Cert.ReferenceIdeal.S256, .f32⟩ : BufTy).Contents (Elt Ideal))
    (x9 : (⟨Cert.ReferenceIdeal.S256x256, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S256x256, .f32⟩ : BufTy).Contents (Elt Ideal))
    (x13 : (⟨Cert.ReferenceIdeal.S256, .f32⟩ : BufTy).Contents (Elt Ideal))
    (x14 : (⟨Cert.ReferenceIdeal.S256, .f32⟩ : BufTy).Contents (Elt Ideal))
    (x15 : (⟨Cert.ReferenceIdeal.S256x256, .f32⟩ : BufTy).Contents (Elt Ideal))
    (x16 : (⟨Cert.ReferenceIdeal.S256, .f32⟩ : BufTy).Contents (Elt Ideal))
    (x17 : (⟨Cert.ReferenceIdeal.S64x256, .f32⟩ : BufTy).Contents (Elt Ideal))
    (x18 : (⟨Cert.ReferenceIdeal.S64, .f32⟩ : BufTy).Contents (Elt Ideal))
    (x19 : (⟨Cert.ReferenceIdeal.S512x80, .f32⟩ : BufTy).Contents (Elt Ideal))
    (x20 : (⟨Cert.ReferenceIdeal.S512, .f32⟩ : BufTy).Contents (Elt Ideal))
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (e2 : m ((c.tc : Thread Cert.KernelIdeal.nD Cert.KernelIdeal.τ).loc Cert.KernelIdeal.main_arg2) = x2)
    (e3 : m ((c.tc : Thread Cert.KernelIdeal.nD Cert.KernelIdeal.τ).loc Cert.KernelIdeal.main_arg3) = x3)
    (e4 : m ((c.tc : Thread Cert.KernelIdeal.nD Cert.KernelIdeal.τ).loc Cert.KernelIdeal.main_arg4) = x4)
    (e5 : m ((c.tc : Thread Cert.KernelIdeal.nD Cert.KernelIdeal.τ).loc Cert.KernelIdeal.main_arg5) = x5)
    (e6 : m ((c.tc : Thread Cert.KernelIdeal.nD Cert.KernelIdeal.τ).loc Cert.KernelIdeal.main_arg6) = x6)
    (e7 : m ((c.tc : Thread Cert.KernelIdeal.nD Cert.KernelIdeal.τ).loc Cert.KernelIdeal.main_arg7) = x7)
    (e8 : m ((c.tc : Thread Cert.KernelIdeal.nD Cert.KernelIdeal.τ).loc Cert.KernelIdeal.main_arg8) = x8)
    (e9 : m ((c.tc : Thread Cert.KernelIdeal.nD Cert.KernelIdeal.τ).loc Cert.KernelIdeal.main_arg9) = x9)
    (e10 : m ((c.tc : Thread Cert.KernelIdeal.nD Cert.KernelIdeal.τ).loc Cert.KernelIdeal.main_arg10) = x10)
    (e11 : m ((c.tc : Thread Cert.KernelIdeal.nD Cert.KernelIdeal.τ).loc Cert.KernelIdeal.main_arg11) = x11)
    (e12 : m ((c.tc : Thread Cert.KernelIdeal.nD Cert.KernelIdeal.τ).loc Cert.KernelIdeal.main_arg12) = x12)
    (e13 : m ((c.tc : Thread Cert.KernelIdeal.nD Cert.KernelIdeal.τ).loc Cert.KernelIdeal.main_arg13) = x13)
    (e14 : m ((c.tc : Thread Cert.KernelIdeal.nD Cert.KernelIdeal.τ).loc Cert.KernelIdeal.main_arg14) = x14)
    (e15 : m ((c.tc : Thread Cert.KernelIdeal.nD Cert.KernelIdeal.τ).loc Cert.KernelIdeal.main_arg15) = x15)
    (e16 : m ((c.tc : Thread Cert.KernelIdeal.nD Cert.KernelIdeal.τ).loc Cert.KernelIdeal.main_arg16) = x16)
    (e17 : m ((c.tc : Thread Cert.KernelIdeal.nD Cert.KernelIdeal.τ).loc Cert.KernelIdeal.main_arg17) = x17)
    (e18 : m ((c.tc : Thread Cert.KernelIdeal.nD Cert.KernelIdeal.τ).loc Cert.KernelIdeal.main_arg18) = x18)
    (e19 : m ((c.tc : Thread Cert.KernelIdeal.nD Cert.KernelIdeal.τ).loc Cert.KernelIdeal.main_arg19) = x19)
    (e20 : m ((c.tc : Thread Cert.KernelIdeal.nD Cert.KernelIdeal.τ).loc Cert.KernelIdeal.main_arg20) = x20) :
    Cert.ReferenceIdeal.Read.val_main_v117 (F := Ideal) x0 x1 x2 x3 x4 x5 x6 x7 x8 x9 x10 x11 x12 x13 x14 x15 x16 x17 x18 x19 x20 = hidK m c := by
  subst e0 e1 e2 e3 e4 e5 e6 e7 e8 e9 e10 e11 e12 e13 e14 e15 e16 e17 e18 e19 e20
  unfold hidK preK
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, List.flatten_cons, List.flatten_nil,
    List.append_nil, List.cons_append, List.nil_append]
  after_results_simp
  rfl

/-- The node embeddings: the reference's function of the first twenty-three arguments, at the kernel memory's
    arguments, is the kernel program's. -/
theorem emb_agree_at (m : (ℓ : Loc Cert.KernelIdeal.nD Cert.KernelIdeal.τ Cert.KernelIdeal.sig) → Buf (Elt Ideal) ℓ) (c : Dev Cert.KernelIdeal.nD)
    (x0 : (⟨Cert.ReferenceIdeal.S4096x128, .f32⟩ : BufTy).Contents (Elt Ideal))
    (x1 : (⟨Cert.ReferenceIdeal.S16x16, .f32⟩ : BufTy).Contents (Elt Ideal))
    (x2 : (⟨Cert.ReferenceIdeal.S2x65536, .i32⟩ : BufTy).Contents (Elt Ideal))
    (x3 : (⟨Cert.ReferenceIdeal.S4096, .i32⟩ : BufTy).Contents (Elt Ideal))
    (x4 : (⟨Cert.ReferenceIdeal.S256x128, .f32⟩ : BufTy).Contents (Elt Ideal))
    (x5 : (⟨Cert.ReferenceIdeal.S256, .f32⟩ : BufTy).Contents (Elt Ideal))
    (x6 : (⟨Cert.ReferenceIdeal.S256x128, .f32⟩ : BufTy).Contents (Elt Ideal))
    (x7 : (⟨Cert.ReferenceIdeal.S256x256, .f32⟩ : BufTy).Contents (Elt Ideal))
    (x8 : (⟨Cert.ReferenceIdeal.S256, .f32⟩ : BufTy).Contents (Elt Ideal))
    (x9 : (⟨Cert.ReferenceIdeal.S256x256, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S256x256, .f32⟩ : BufTy).Contents (Elt Ideal))
    (x13 : (⟨Cert.ReferenceIdeal.S256, .f32⟩ : BufTy).Contents (Elt Ideal))
    (x14 : (⟨Cert.ReferenceIdeal.S256, .f32⟩ : BufTy).Contents (Elt Ideal))
    (x15 : (⟨Cert.ReferenceIdeal.S256x256, .f32⟩ : BufTy).Contents (Elt Ideal))
    (x16 : (⟨Cert.ReferenceIdeal.S256, .f32⟩ : BufTy).Contents (Elt Ideal))
    (x17 : (⟨Cert.ReferenceIdeal.S64x256, .f32⟩ : BufTy).Contents (Elt Ideal))
    (x18 : (⟨Cert.ReferenceIdeal.S64, .f32⟩ : BufTy).Contents (Elt Ideal))
    (x19 : (⟨Cert.ReferenceIdeal.S512x80, .f32⟩ : BufTy).Contents (Elt Ideal))
    (x20 : (⟨Cert.ReferenceIdeal.S512, .f32⟩ : BufTy).Contents (Elt Ideal))
    (x21 : (⟨Cert.ReferenceIdeal.S16384x512, .f32⟩ : BufTy).Contents (Elt Ideal))
    (x22 : (⟨Cert.ReferenceIdeal.S16384, .f32⟩ : BufTy).Contents (Elt Ideal))
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (e2 : m ((c.tc : Thread Cert.KernelIdeal.nD Cert.KernelIdeal.τ).loc Cert.KernelIdeal.main_arg2) = x2)
    (e3 : m ((c.tc : Thread Cert.KernelIdeal.nD Cert.KernelIdeal.τ).loc Cert.KernelIdeal.main_arg3) = x3)
    (e4 : m ((c.tc : Thread Cert.KernelIdeal.nD Cert.KernelIdeal.τ).loc Cert.KernelIdeal.main_arg4) = x4)
    (e5 : m ((c.tc : Thread Cert.KernelIdeal.nD Cert.KernelIdeal.τ).loc Cert.KernelIdeal.main_arg5) = x5)
    (e6 : m ((c.tc : Thread Cert.KernelIdeal.nD Cert.KernelIdeal.τ).loc Cert.KernelIdeal.main_arg6) = x6)
    (e7 : m ((c.tc : Thread Cert.KernelIdeal.nD Cert.KernelIdeal.τ).loc Cert.KernelIdeal.main_arg7) = x7)
    (e8 : m ((c.tc : Thread Cert.KernelIdeal.nD Cert.KernelIdeal.τ).loc Cert.KernelIdeal.main_arg8) = x8)
    (e9 : m ((c.tc : Thread Cert.KernelIdeal.nD Cert.KernelIdeal.τ).loc Cert.KernelIdeal.main_arg9) = x9)
    (e10 : m ((c.tc : Thread Cert.KernelIdeal.nD Cert.KernelIdeal.τ).loc Cert.KernelIdeal.main_arg10) = x10)
    (e11 : m ((c.tc : Thread Cert.KernelIdeal.nD Cert.KernelIdeal.τ).loc Cert.KernelIdeal.main_arg11) = x11)
    (e12 : m ((c.tc : Thread Cert.KernelIdeal.nD Cert.KernelIdeal.τ).loc Cert.KernelIdeal.main_arg12) = x12)
    (e13 : m ((c.tc : Thread Cert.KernelIdeal.nD Cert.KernelIdeal.τ).loc Cert.KernelIdeal.main_arg13) = x13)
    (e14 : m ((c.tc : Thread Cert.KernelIdeal.nD Cert.KernelIdeal.τ).loc Cert.KernelIdeal.main_arg14) = x14)
    (e15 : m ((c.tc : Thread Cert.KernelIdeal.nD Cert.KernelIdeal.τ).loc Cert.KernelIdeal.main_arg15) = x15)
    (e16 : m ((c.tc : Thread Cert.KernelIdeal.nD Cert.KernelIdeal.τ).loc Cert.KernelIdeal.main_arg16) = x16)
    (e17 : m ((c.tc : Thread Cert.KernelIdeal.nD Cert.KernelIdeal.τ).loc Cert.KernelIdeal.main_arg17) = x17)
    (e18 : m ((c.tc : Thread Cert.KernelIdeal.nD Cert.KernelIdeal.τ).loc Cert.KernelIdeal.main_arg18) = x18)
    (e19 : m ((c.tc : Thread Cert.KernelIdeal.nD Cert.KernelIdeal.τ).loc Cert.KernelIdeal.main_arg19) = x19)
    (e20 : m ((c.tc : Thread Cert.KernelIdeal.nD Cert.KernelIdeal.τ).loc Cert.KernelIdeal.main_arg20) = x20)
    (e21 : m ((c.tc : Thread Cert.KernelIdeal.nD Cert.KernelIdeal.τ).loc Cert.KernelIdeal.main_arg21) = x21)
    (e22 : m ((c.tc : Thread Cert.KernelIdeal.nD Cert.KernelIdeal.τ).loc Cert.KernelIdeal.main_arg22) = x22) :
    Cert.ReferenceIdeal.Read.val_main_v123 (F := Ideal) x0 x1 x2 x3 x4 x5 x6 x7 x8 x9 x10 x11 x12 x13 x14 x15 x16 x17 x18 x19 x20 x21 x22 = embK m c := by
  unfold Cert.ReferenceIdeal.Read.val_main_v123 Cert.ReferenceIdeal.Read.val_main_v122 Cert.ReferenceIdeal.Read.val_main_v121
    Cert.ReferenceIdeal.Read.val_main_v120 Cert.ReferenceIdeal.Read.val_main_v119 Cert.ReferenceIdeal.Read.val_main_v118
  rw [hid_agree_at m c x0 x1 x2 x3 x4 x5 x6 x7 x8 x9 x10 x11 x12 x13 x14 x15 x16 x17 x18 x19 x20 e0 e1 e2 e3 e4 e5 e6 e7 e8 e9 e10 e11 e12 e13 e14 e15 e16 e17 e18 e19 e20]
  subst e21 e22
  rfl

/-! ## From memories that agree on the arguments -/

/-- The decoder's rectified hidden layer agrees, from memories that agree on the arguments. -/
theorem hid_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Read.val_main_v117 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      = hidK m c :=
  hid_agree_at m c _ _ _ _ _ _ _ _ _ _ _ _ _ _ _ _ _ _ _ _ _ h0.symm h1.symm h2.symm h3.symm h4.symm h5.symm h6.symm h7.symm h8.symm h9.symm h10.symm h11.symm h12.symm h13.symm h14.symm h15.symm h16.symm h17.symm h18.symm h19.symm h20.symm

/-- The node embeddings agree, from memories that agree on the arguments. -/
theorem emb_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.Read.val_main_v123 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))
      = embK m c :=
  emb_agree_at m c _ _ _ _ _ _ _ _ _ _ _ _ _ _ _ _ _ _ _ _ _ _ _ h0.symm h1.symm h2.symm h3.symm h4.symm h5.symm h6.symm h7.symm h8.symm h9.symm h10.symm h11.symm h12.symm h13.symm h14.symm h15.symm h16.symm h17.symm h18.symm h19.symm h20.symm h21.symm h22.symm

end Cert.EmbAgree

end
-- ==== Proof.lean ====
/-
  A graph decoder's pairwise edge network: the tiled block computation equals the all-pairs computation.

  Both programs compute, from a batch of node features and a list of edges, 16 × 128 embeddings of dimension 128 by
  the same sequence of host operations (three mean-aggregating graph convolutions, a pooled and normalised latent, a
  two-layer decoder), and from the embeddings e(b, n, ·) the logit of every ordered pair (i, j) of nodes of every
  graph b by a three-layer rectified network applied to e(b, i, ·) and e(b, j, ·) laid side by side; the strict upper
  triangle of each graph's matrix of logits plus its transpose is the result.

  The reference forms all 16·128·128 concatenated pairs and applies the three layers to that array.  The kernel
  program never forms the pairs: a grid point holds a tile of 16 query nodes and all 128 key nodes of one graph,
  multiplies the LEFT half of the first layer's weights with the query tile and the RIGHT half with the key block —
  a sum over the 256 coordinates of a concatenation is the sum over its first 128 plus the sum over its last 128 —
  adds the two halves and the bias for every pair, and applies the other two layers.  On the extended reals the two
  are the same sums of the same products: only commutativity and associativity of addition and multiplication are
  used, which hold with infinities too, so the finiteness of the inputs is never consulted; the half-width number
  format the kernel narrows its operands to changes no value there.

  The pieces: the network as one function of the embeddings and weights (EdgeSpec); what a grid point leaves in its
  output block, entry by entry (BodyOps, BodyVals, BodyRun, BlockSpec); the grid's blocks tile the result array
  (KernelBlocks); the host operations before and after the region (KernelPre, KernelTail, KernelRun); the reference's
  operations read at an index (RefLogits, RefTail, RefRun); and the two programs' embeddings are one term (EmbAgree).
  The three frames are the generated ones; the idealization rewrote nothing, so there is nothing to preserve.
-/
import proofs.«103251_j26508538151540_2_alg».proof.Defs
import proofs.«103251_j26508538151540_2_alg».proof.Proof.Gen.Kernel.Frame
import proofs.«103251_j26508538151540_2_alg».proof.Proof.Gen.KernelIdeal.Frame
import proofs.«103251_j26508538151540_2_alg».proof.Proof.Gen.ReferenceIdeal.Run
import proofs.«103251_j26508538151540_2_alg».proof.Proof.Gen.Pre_finite_inputs
import proofs.«103251_j26508538151540_2_alg».proof.Proof.KernelRun
import proofs.«103251_j26508538151540_2_alg».proof.Proof.RefRun
import proofs.«103251_j26508538151540_2_alg».proof.Proof.EmbAgree
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- From memories that agree on the arguments both programs end at the symmetric adjacency logits of ONE array of
    logits: the kernel program's by its blocks, the reference's by its operations read at an index, the embeddings
    going into both the same term. -/
theorem algebraic : Cert.algebraic_KernelIdeal_ReferenceIdeal := by
  intro m ρ m' ρ' _ hagree
  refine ⟨fun c => Cert.RefTail.adjOfK (Cert.KernelIdeal.KernelBlocks.logitsK m c), Cert.KernelIdeal.KernelRun.run m ρ, ?_⟩
  refine (θ_run Cert.ReferenceIdeal.defs _ _).mono (fun _ h c => ⟨(h c).1.trans ?_, (h c).2⟩) (Cert.RefRun.run m' ρ')
  obtain ⟨h0, h1, h2, h3, h4, h5, h6, h7, h8, h9, h10, h11, h12, h13, h14, h15, h16, h17, h18, h19, h20, h21, h22, h23, h24, h25, h26, h27, h28⟩ := hagree c
  rw [Cert.EmbAgree.emb_agree m m' c h0 h1 h2 h3 h4 h5 h6 h7 h8 h9 h10 h11 h12 h13 h14 h15 h16 h17 h18 h19 h20 h21 h22, h23, h24, h25, h26, h27, h28, Cert.RefTail.adjOf_eq_adjOfK]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
